-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S2x100000 : Shape := ⟨2, ![2, 100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S32 .f32) (main_arg21 : FVec F S32x1 .f32) (main_arg22 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg21
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg16 : FVec F S128x64 .f32) (main_arg17 : FVec F S192x64 .f32) (main_arg18 : FVec F S64 .f32) (main_arg19 : FVec F S64x32 .f32) (main_arg20 : FVec F S32 .f32) (main_arg21 : FVec F S32x1 .f32) (main_arg22 : FVec F S1 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S192x64 .f32 := Host.absf main_arg17
  let main_cst_28 : FVec F S_ .f32 := constant S_ .f32 0x7F800000#32
  let main_v75 : FVec F S192x64 .f32 := broadcastInDim S192x64 ![] bcast_S_S192x64 main_cst_28
  let main_v76 : IVec S192x64 1 := cmpf .olt main_v74 main_v75
  let main_c_29 : IVec S_ 1 := constantI S_ 1 1#1
  let main_v77 : IVec S_ 1 := (fun x v => Host.reduce IntOp.andi x v reducesTo_S192x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128x64 .f32) (main_arg14 : FVec F S128x64 .f32) (main_arg15 : FVec F S64 .f32) (main_arg16 : FVec F S128x64 .f32) (main_arg17 : FVec F S192x64 .f32) (main_arg18 : FVec F S64 .f32) (main_arg19 : FVec F S64x32 .f32) (main_arg20 : FVec F S32 .f32) (main_arg21 : FVec F S32x1 .f32) (main_arg22 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_v63 main_v67

def fn_part2 {F : FTy → Type} [FloatOps F] (main_arg9 : FVec F S128 .f32) (main_arg10 : FVec F S128 .f32) (main_arg11 : FVec F S128x64 .f32) (main_arg12 : FVec F S64 .f32) (main_arg13 : FVec F S128x64 .f32) (main_arg14 : FVec F S128x64 .f32) (main_arg15 : FVec F S64 .f32) (main_arg16 : FVec F S128x64 .f32) (main_arg17 : FVec F S192x64 .f32) (main_arg18 : FVec F S64 .f32) (main_arg19 : FVec F S64x32 .f32) (main_arg20 : FVec F S32 .f32) (main_arg21 : FVec F S32x1 .f32) (main_arg22 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64x128 .f32) (main_arg7 : FVec F S128 .f32) (main_arg8 : FVec F S64x128 .f32) (main_arg9 : FVec F S128 .f32) (main_arg10 : FVec F S128 .f32) (main_arg11 : FVec F S128x64 .f32) (main_arg12 : FVec F S64 .f32) (main_arg13 : FVec F S128x64 .f32) (main_arg14 : FVec F S128x64 .f32) (main_arg15 : FVec F S64 .f32) (main_arg16 : FVec F S128x64 .f32) (main_arg17 : FVec F S192x64 .f32) (main_arg18 : FVec F S64 .f32) (main_arg19 : FVec F S64x32 .f32) (main_arg20 : FVec F S32 .f32) (main_arg21 : FVec F S32x1 .f32) (main_arg22 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : IVec S2x800000 32) (main_arg2 : IVec S2x100000 32) (main_arg3 : FVec F S64x128 .f32) (main_arg4 : FVec F S128 .f32) (main_arg5 : FVec F S64x128 .f32) (main_arg6 : FVec F S64x128 .f32) (main_arg7 : FVec F S128 .f32) (main_arg8 : FVec F S64x128 .f32) (main_arg9 : FVec F S128 .f32) (main_arg10 : FVec F S128 .f32) (main_arg11 : FVec F S128x64 .f32) (main_arg12 : FVec F S64 .f32) (main_arg13 : FVec F S128x64 .f32) (main_arg14 : FVec F S128x64 .f32) (main_arg15 : FVec F S64 .f32) (main_arg16 : FVec F S128x64 .f32) (main_arg17 : FVec F S192x64 .f32) (main_arg18 : FVec F S64 .f32) (main_arg19 : FVec F S64x32 .f32) (main_arg20 : FVec F S32 .f32) (main_arg21 : FVec F S32x1 .f32) (main_arg22 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S2x800000 : Shape := ⟨2, ![2, 800000]⟩
abbrev S2x100000 : Shape := ⟨2, ![2, 100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S64x64 : Shape := ⟨2, ![64, 64]⟩
abbrev S32x128 : Shape := ⟨2, ![32, 128]⟩
abbrev S1x1 : Shape := ⟨2, ![1, 1]⟩
abbrev S1x32 : Shape := ⟨2, ![1, 32]⟩
abbrev S100000x128 : Shape := ⟨2, ![100000, 128]⟩
abbrev S2000x64 : Shape := ⟨2, ![2000, 64]⟩
abbrev S2000x128 : Shape := ⟨2, ![2000, 128]⟩
abbrev S2000x32 : Shape := ⟨2, ![2000, 32]⟩

abbrev nBuf : Space → Nat
  | .hbm => 152
  | .vmem => 48
  | .smem => 0
  | _ => 0

abbrev hbmTy0_0 (i : Nat) : BufTy := match i % 128 with
  | 0 => ⟨S50000x64, .f32⟩
  | 1 => ⟨S2x800000, .i32⟩
  | 2 => ⟨S2x100000, .i32⟩
  | 3 => ⟨S64x128, .f32⟩
  | 4 => ⟨S128, .f32⟩
  | 5 => ⟨S64x128, .f32⟩
  | 6 => ⟨S64x128, .f32⟩
  | 7 => ⟨S128, .f32⟩
  | 8 => ⟨S64x128, .f32⟩
  | 9 => ⟨S128, .f32⟩
  | 10 => ⟨S128, .f32⟩
  | 11 => ⟨S128x64, .f32⟩
  | 12 => ⟨S64, .f32⟩
  | 13 => ⟨S128x64, .f32⟩
  | 14 => ⟨S128x64, .f32⟩
  | 15 => ⟨S64, .f32⟩
  | 16 => ⟨S128x64, .f32⟩
  | 17 => ⟨S192x64, .f32⟩
  | 18 => ⟨S64, .f32⟩
  | 19 => ⟨S64x32, .f32⟩
  | 20 => ⟨S32, .f32⟩
  | 21 => ⟨S32x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S50000x64, .f32⟩
  | 59 => ⟨S50000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S50000x64, .f32⟩
  | 74 => ⟨S50000x64, .f32⟩
  | 75 => ⟨S1x128, .f32⟩
  | 76 => ⟨S1x128, .f32⟩
  | 77 => ⟨S1x128, .f32⟩
  | 78 => ⟨S1x128, .f32⟩
  | 79 => ⟨S50000x128, .f32⟩
  | 80 => ⟨S50000x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S50000x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S50000x64, .f32⟩
  | 111 => ⟨S50000x64, .f32⟩
  | 112 => ⟨S1x64, .f32⟩
  | 113 => ⟨S1x64, .f32⟩
  | 114 => ⟨S50000x64, .f32⟩
  | 115 => ⟨S1x100000, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x64, .f32⟩
  | 126 => ⟨S1x100000, .i32⟩
  | 127 => ⟨S100000, .i32⟩
  | _ => ⟨S50000x64, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000x64, .f32⟩
  | 9 => ⟨S64x64, .f32⟩
  | 10 => ⟨S64x64, .f32⟩
  | 11 => ⟨S64x64, .f32⟩
  | 12 => ⟨S_, .i32⟩
  | 13 => ⟨S_, .f32⟩
  | 14 => ⟨S32x128, .f32⟩
  | 15 => ⟨S1x1, .f32⟩
  | 16 => ⟨S_, .i32⟩
  | 17 => ⟨S_, .f32⟩
  | 18 => ⟨S1x128, .f32⟩
  | 19 => ⟨S1x64, .f32⟩
  | 20 => ⟨S1x32, .f32⟩
  | 21 => ⟨S100000x128, .f32⟩
  | 22 => ⟨S100000x1, .f32⟩
  | 23 => ⟨S100000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S64x128, .f32⟩
  | .local _ .vmem, ⟨12, _⟩ => ⟨S1x128, .f32⟩
  | .local _ .vmem, ⟨13, _⟩ => ⟨S1x128, .f32⟩
  | .local _ .vmem, ⟨14, _⟩ => ⟨S128x64, .f32⟩
  | .local _ .vmem, ⟨15, _⟩ => ⟨S128x64, .f32⟩
  | .local _ .vmem, ⟨16, _⟩ => ⟨S5000x128, .f32⟩
  | .local _ .vmem, ⟨17, _⟩ => ⟨S5000x128, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x128, .f32⟩
  | .local _ .vmem, ⟨27, _⟩ => ⟨S5000x128, .f32⟩
  | .local _ .vmem, ⟨28, _⟩ => ⟨S1x64, .f32⟩
  | .local _ .vmem, ⟨29, _⟩ => ⟨S128x64, .f32⟩
  | .local _ .vmem, ⟨30, _⟩ => ⟨S1x64, .f32⟩
  | .local _ .vmem, ⟨31, _⟩ => ⟨S128x64, .f32⟩
  | .local _ .vmem, ⟨32, _⟩ => ⟨S5000x64, .f32⟩
  | .local _ .vmem, ⟨33, _⟩ => ⟨S5000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S64x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S64x32, .f32⟩
  | .local _ .vmem, ⟨43, _⟩ => ⟨S1x32, .f32⟩
  | .local _ .vmem, ⟨44, _⟩ => ⟨S32x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_6 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45_0 : Ref sig .tc := ⟨.hbm, 79, rfl⟩
abbrev main_v45_1 : Ref sig .tc := ⟨.hbm, 80, rfl⟩
abbrev main_v45_2 : Ref sig .tc := ⟨.hbm, 81, rfl⟩
abbrev main_c_9 : Ref sig .tc := ⟨.hbm, 82, rfl⟩
abbrev main_v46 : Ref sig .tc := ⟨.hbm, 83, rfl⟩
abbrev main_v47 : Ref sig .tc := ⟨.hbm, 84, rfl⟩
abbrev main_c_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_12 : Ref sig .tc := ⟨.hbm, 97, rfl⟩
abbrev main_v58 : Ref sig .tc := ⟨.hbm, 98, rfl⟩
abbrev main_v59 : Ref sig .tc := ⟨.hbm, 99, rfl⟩
abbrev main_c_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_14 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_15 : Ref sig .tc := ⟨.hbm, 117, rfl⟩
abbrev main_v75 : Ref sig .tc := ⟨.hbm, 118, rfl⟩
abbrev main_v76 : Ref sig .tc := ⟨.hbm, 119, rfl⟩
abbrev main_c_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_c_18 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_19 : Ref sig .tc := ⟨.hbm, 140, rfl⟩
abbrev main_call0_v0 : Ref sig .tc := ⟨.hbm, 141, rfl⟩
abbrev main_v94 : Ref sig .tc := ⟨.hbm, 142, rfl⟩
abbrev main_v95 : Ref sig .tc := ⟨.hbm, 143, rfl⟩
abbrev main_c_20 : Ref sig .tc := ⟨.hbm, 144, rfl⟩
abbrev main_call1_v0 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg7_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg10_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem7_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46
abbrev cc2_sem10_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S5000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S64_S1x64 : S64.ShapeCasts S1x64
  shapeCasts_S5000x128_S5000x128 : S5000x128.ShapeCasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  slices_S192x64_S64x64_0_0 : S192x64.Slices ![0, 0] S64x64
  slices_S192x64_S64x64_64_0 : S192x64.Slices ![64, 0] S64x64
  slices_S192x64_S64x64_128_0 : S192x64.Slices ![128, 0] S64x64
  pads_S32x1_S32x128_000_01270 : S32x1.Pads (![0, 0] : Fin 2 → Nat) ![0, 127] ![0, 0] S32x128
  h_S_ : 0 < S_.numel
  shapeCasts_S1_S1x1 : S1.ShapeCasts S1x1
  pads_S1x1_S1x128_000_01270 : S1x1.Pads (![0, 0] : Fin 2 → Nat) ![0, 127] ![0, 0] S1x128
  shapeCasts_S32_S1x32 : S32.ShapeCasts S1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S100000x128_S100000x1_0_0 : S100000x128.Slices ![0, 0] S100000x1
  shapeCasts_S100000x1_S100000 : S100000x1.ShapeCasts S100000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  gather_S50000x64_S100000x1_S100000x64_1_0_n_n_0_1_164_wf : GatherDims.WF S50000x64 S100000x1 S100000x64 [1] [0] [] [0] [] 1 ![1, 64]
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x128_S2000x128_1_0_0_1_n_n_wf : DotDims.WF S2000x32 S32x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S50000x128.size a
  hwx0_13 : ∀ i : grid0.Coords, EltTy.bits .f32 = 32 ∨ (Rect.block (s := S50000x128) S5000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S50000x64.size a
  hwx0_14 : ∀ i : grid0.Coords, EltTy.bits .f32 = 32 ∨ (Rect.block (s := S50000x64) S5000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x64.size a ≤ S50000x64.size a
  hwx0_15 : ∀ i : grid0.Coords, EltTy.bits .f32 = 32 ∨ (Rect.block (s := S50000x64) S5000x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x32.size a ≤ S64x32.size a
  hwx2_6 : ∀ i : grid2.Coords, EltTy.bits .f32 = 32 ∨ (Rect.block (s := S64x32) S64x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x128.size a ≤ S32x128.size a
  hwx2_8 : ∀ i : grid2.Coords, EltTy.bits .f32 = 32 ∨ (Rect.block (s := S32x128) S32x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S100000x128.size a
  hwx2_10 : ∀ i : grid2.Coords, EltTy.bits .f32 = 32 ∨ (Rect.block (s := S100000x128) S2000x128.size (cc2_transform_10 i) (hinb2_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf

abbrev win0_0 : Pipeline.Window sig grid0 :=
  Pipeline.Window.ofSpec (Memref.whole main_v28) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v45_0) S5000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v45_1) S5000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v45_2) S5000x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v57) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v70) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v72) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v81) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S64x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v98) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v94) S32x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v96) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v99) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S2x100000 : Shape := ⟨2, ![2, 100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S100000x192 : Shape := ⟨2, ![100000, 192]⟩
abbrev S100000x32 : Shape := ⟨2, ![100000, 32]⟩
abbrev S1x32 : Shape := ⟨2, ![1, 32]⟩
abbrev S1x1 : Shape := ⟨2, ![1, 1]⟩

abbrev nBuf : Space → Nat
  | .hbm => 250
  | .vmem => 0
  | .smem => 0
  | _ => 0

abbrev hbmTy0_0 (i : Nat) : BufTy := match i % 128 with
  | 0 => ⟨S50000x64, .f32⟩
  | 1 => ⟨S2x800000, .i32⟩
  | 2 => ⟨S2x100000, .i32⟩
  | 3 => ⟨S64x128, .f32⟩
  | 4 => ⟨S128, .f32⟩
  | 5 => ⟨S64x128, .f32⟩
  | 6 => ⟨S64x128, .f32⟩
  | 7 => ⟨S128, .f32⟩
  | 8 => ⟨S64x128, .f32⟩
  | 9 => ⟨S128, .f32⟩
  | 10 => ⟨S128, .f32⟩
  | 11 => ⟨S128x64, .f32⟩
  | 12 => ⟨S64, .f32⟩
  | 13 => ⟨S128x64, .f32⟩
  | 14 => ⟨S128x64, .f32⟩
  | 15 => ⟨S64, .f32⟩
  | 16 => ⟨S128x64, .f32⟩
  | 17 => ⟨S192x64, .f32⟩
  | 18 => ⟨S64, .f32⟩
  | 19 => ⟨S64x32, .f32⟩
  | 20 => ⟨S32, .f32⟩
  | 21 => ⟨S32x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x64, .f32⟩
  | 51 => ⟨S50000x64, .f32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S50000x128, .f32⟩
  | 58 => ⟨S1x800000, .i32⟩
  | 59 => ⟨S800000, .i32⟩
  | 60 => ⟨S1x800000, .i32⟩
  | 61 => ⟨S800000, .i32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x64, .f32⟩
  | 86 => ⟨S50000x64, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S50000x128, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S_, .f32⟩
  | 112 => ⟨S50000x1, .f32⟩
  | 113 => ⟨S50000x1, .f32⟩
  | 114 => ⟨S50000x1, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x800000, .i32⟩
  | 127 => ⟨S800000, .i32⟩
  | _ => ⟨S50000x64, .f32⟩

abbrev hbmTy0_1 (i : Nat) : BufTy := match i % 128 with
  | 0 => ⟨S1x800000, .i32⟩
  | 1 => ⟨S800000, .i32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x128, .f32⟩
  | 26 => ⟨S50000x128, .f32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S50000x64, .f32⟩
  | 33 => ⟨S1x800000, .i32⟩
  | 34 => ⟨S800000, .i32⟩
  | 35 => ⟨S1x800000, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S_, .f32⟩
  | 51 => ⟨S800000, .f32⟩
  | 52 => ⟨S_, .f32⟩
  | 53 => ⟨S50000, .f32⟩
  | 54 => ⟨S800000x1, .i32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S50000x64, .f32⟩
  | 63 => ⟨S1x64, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S_, .f32⟩
  | 71 => ⟨S50000, .f32⟩
  | 72 => ⟨S50000x1, .f32⟩
  | 73 => ⟨S50000x1, .f32⟩
  | 74 => ⟨S_, .f32⟩
  | 75 => ⟨S50000x1, .f32⟩
  | 76 => ⟨S50000x1, .f32⟩
  | 77 => ⟨S50000x64, .f32⟩
  | 78 => ⟨S50000x64, .f32⟩
  | 79 => ⟨S1x100000, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x64, .f32⟩
  | 90 => ⟨S1x100000, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000x64, .f32⟩
  | 101 => ⟨S100000x64, .f32⟩
  | 102 => ⟨S100000x192, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x32, .f32⟩
  | 111 => ⟨S1x32, .f32⟩
  | 112 => ⟨S100000x32, .f32⟩
  | 113 => ⟨S100000x32, .f32⟩
  | 114 => ⟨S_, .f32⟩
  | 115 => ⟨S100000x32, .f32⟩
  | 116 => ⟨S100000x32, .f32⟩
  | 117 => ⟨S100000x1, .f32⟩
  | 118 => ⟨S1x1, .f32⟩
  | 119 => ⟨S100000x1, .f32⟩
  | 120 => ⟨S100000x1, .f32⟩
  | 121 => ⟨S100000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_cst_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call0_cst : Ref sig .tc := ⟨.hbm, 123, rfl⟩
abbrev main_call0_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_15 : Ref sig .tc := ⟨.hbm, 130, rfl⟩
abbrev main_v88 : Ref sig .tc := ⟨.hbm, 131, rfl⟩
abbrev main_v89 : Ref sig .tc := ⟨.hbm, 132, rfl⟩
abbrev main_c_16 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_18 : Ref sig .tc := ⟨.hbm, 143, rfl⟩
abbrev main_v98 : Ref sig .tc := ⟨.hbm, 144, rfl⟩
abbrev main_cst_19 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_20 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_c_21 : Ref sig .tc := ⟨.hbm, 165, rfl⟩
abbrev main_v117 : Ref sig .tc := ⟨.hbm, 166, rfl⟩
abbrev main_v118 : Ref sig .tc := ⟨.hbm, 167, rfl⟩
abbrev main_c_22 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_23 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_24 : Ref sig .tc := ⟨.hbm, 178, rfl⟩
abbrev main_v127 : Ref sig .tc := ⟨.hbm, 179, rfl⟩
abbrev main_cst_25 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_26 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_call1_v0 : Ref sig .tc := ⟨.hbm, 197, rfl⟩
abbrev main_call1_cst : Ref sig .tc := ⟨.hbm, 198, rfl⟩
abbrev main_call1_v1 : Ref sig .tc := ⟨.hbm, 199, rfl⟩
abbrev main_call1_v2 : Ref sig .tc := ⟨.hbm, 200, rfl⟩
abbrev main_v143 : Ref sig .tc := ⟨.hbm, 201, rfl⟩
abbrev main_cst_27 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_c_28 : Ref sig .tc := ⟨.hbm, 209, rfl⟩
abbrev main_v150 : Ref sig .tc := ⟨.hbm, 210, rfl⟩
abbrev main_v151 : Ref sig .tc := ⟨.hbm, 211, rfl⟩
abbrev main_c_29 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_c_30 : Ref sig .tc := ⟨.hbm, 220, rfl⟩
abbrev main_v159 : Ref sig .tc := ⟨.hbm, 221, rfl⟩
abbrev main_v160 : Ref sig .tc := ⟨.hbm, 222, rfl⟩
abbrev main_c_31 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_call2_cst : Ref sig .tc := ⟨.hbm, 235, rfl⟩
abbrev main_call2_v0 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_call3_cst : Ref sig .tc := ⟨.hbm, 242, rfl⟩
abbrev main_call3_v0 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  concatenates_S100000x64_S100000x64_S100000x64_S100000x192_d1 : Shape.Concatenates [S100000x64, S100000x64, S100000x64] S100000x192 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S100000x1_S100000x64_1_0_n_n_0_1_164_wf : GatherDims.WF S50000x64 S100000x1 S100000x64 [1] [0] [] [0] [] 1 ![1, 64]
  dot_S100000x192_S192x64_S100000x64_1_0_0_1_n_n_wf : DotDims.WF S100000x192 S192x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The network as plain mathematics on the extended reals, row by row: nothing here mentions a program.

  A row of a matrix is a function `Fin k → EReal`, a matrix a function `Fin k → Fin n → EReal`.
  * `dot a W q` is the dot product of the row `a` with column `q` of `W`;
  * `sage a x Wl bl Wr` is one relation's combine, `(a·Wl + bl) + x·Wr`, of an aggregated row `a` and the node's own row `x`;
  * `lnRelu v g b` normalises the row `v` of 128 entries by its mean and its mean squared deviation, scales by `g`,
    shifts by `b` and clamps below at 0;
  * `zlin` is the second layer's sum of the two relations, whose aggregated terms arrive already multiplied by the
    left weights, and `l2` divides a row by the larger of its Euclidean norm and a floor;
  * `dec1`, `dense`, `affine` are the three layers of the edge decoder, the first fed by the two end points' rows and
    their entrywise product against the three 64-row bands of one 192-row weight matrix.
-/
import Idealize.ShloMosaic.PureOps.Ideal

noncomputable section

namespace Cert.Sage

open scoped BigOperators
open Idealize.ShloMosaic

/-- The dot product of a row with column `q` of a matrix. -/
def dot {k n : Nat} (a : Fin k → EReal) (W : Fin k → Fin n → EReal) (q : Fin n) : EReal := ∑ c : Fin k, a c * W c q

/-- One relation's combine: the aggregated row through the left weights plus the bias, plus the node's row through the right weights. -/
def sage {k n : Nat} (a x : Fin k → EReal) (Wl : Fin k → Fin n → EReal) (bl : Fin n → EReal) (Wr : Fin k → Fin n → EReal)
    (q : Fin n) : EReal := (dot a Wl q + bl q) + dot x Wr q

/-- The two relations summed. -/
def hlin {k n : Nat} (af ar x : Fin k → EReal) (Wlf : Fin k → Fin n → EReal) (blf : Fin n → EReal) (Wrf : Fin k → Fin n → EReal)
    (Wlr : Fin k → Fin n → EReal) (blr : Fin n → EReal) (Wrr : Fin k → Fin n → EReal) (q : Fin n) : EReal :=
  sage af x Wlf blf Wrf q + sage ar x Wlr blr Wrr q

/-- The divisor 128, the two floors: the words the programs spell. -/
def c128 : EReal := Ideal.ofBits .f32 0x43000000#32
def lnEps : EReal := Ideal.ofBits .f32 0x3727C5AC#32
def l2Eps : EReal := Ideal.ofBits .f32 0x2B8CBCCC#32

/-- The sum of a row over 128. -/
def mean {n : Nat} (v : Fin n → EReal) : EReal := Ideal.div (∑ j : Fin n, v j) c128

/-- Layer normalisation of a row followed by the clamp at zero. -/
def lnRelu {n : Nat} (v g b : Fin n → EReal) (q : Fin n) : EReal :=
  max ((((v q - mean v) * Ideal.rsqrt (mean (fun j => (v j - mean v) * (v j - mean v)) + lnEps)) * g q) + b q) 0

/-- The second layer before its normalisation: the aggregated rows `af`, `ar` are already projected. -/
def zlin {k n : Nat} (af ar : Fin n → EReal) (h : Fin k → EReal) (blf : Fin n → EReal) (Wrf : Fin k → Fin n → EReal)
    (blr : Fin n → EReal) (Wrr : Fin k → Fin n → EReal) (q : Fin n) : EReal :=
  ((af q + blf q) + dot h Wrf q) + ((ar q + blr q) + dot h Wrr q)

/-- A row divided by the larger of its Euclidean norm and the floor. -/
def l2 {n : Nat} (v : Fin n → EReal) (q : Fin n) : EReal :=
  Ideal.div (v q) (max (Ideal.sqrt (∑ j : Fin n, v j * v j)) l2Eps)

/-- The decoder's first layer on the two end points' rows and their product. -/
def dec1 {k n : Nat} (zs zd : Fin k → EReal) (Wa Wb Wc : Fin k → Fin n → EReal) (b : Fin n → EReal) (q : Fin n) : EReal :=
  max ((((dot zs Wa q + dot zd Wb q) + dot (fun c => zs c * zd c) Wc q) + b q)) 0

/-- A dense layer clamped at zero, and one without the clamp. -/
def dense {k n : Nat} (x : Fin k → EReal) (W : Fin k → Fin n → EReal) (b : Fin n → EReal) (q : Fin n) : EReal :=
  max (dot x W q + b q) 0
def affine {k n : Nat} (x : Fin k → EReal) (W : Fin k → Fin n → EReal) (b : Fin n → EReal) (q : Fin n) : EReal :=
  dot x W q + b q

end Cert.Sage

end
-- ==== Proof.Rows.lean ====
/-
  Rows, matrices and bias rows of rank-2 arrays as plain functions of `Fin` coordinates, so that the row-level
  mathematics of `Spec` can be stated of arrays of any number of rows.
-/
import Idealize.ShloMosaic.Lib.ValueIdx

namespace Cert.Sage

open Idealize.ShloMosaic Idealize.ShloMosaic.ValueIdx

/-- Row `p` of an `r×k` array. -/
abbrev row {α : Type} {r k : Nat} (A : (⟨2, ![r, k]⟩ : Shape).Idx → α) (p : Fin r) : Fin k → α := fun c => A (ix2 p c)
/-- A `k×n` array as a function of its two coordinates. -/
abbrev mat {α : Type} {k n : Nat} (W : (⟨2, ![k, n]⟩ : Shape).Idx → α) : Fin k → Fin n → α := fun c q => W (ix2 c q)
/-- The single row of a `1×n` array. -/
abbrev vec1 {α : Type} {n : Nat} (b : (⟨2, ![1, n]⟩ : Shape).Idx → α) : Fin n → α := fun q => b (ix2 0 q)
/-- A vector of `n` entries as a function of its coordinate. -/
abbrev vec0 {α : Type} {n : Nat} (b : (⟨1, ![n]⟩ : Shape).Idx → α) : Fin n → α := fun q => b (ix1 q)

/-- The rank-2 array whose entry `(p, q)` is `f p q`. -/
def arr2 {α : Type} {a b : Nat} (f : Fin a → Fin b → α) : (⟨2, ![a, b]⟩ : Shape).Idx → α :=
  fun i => f ⟨(i 0).val, idx2_lt0 i⟩ ⟨(i 1).val, idx2_lt1 i⟩
theorem arr2_apply {α : Type} {a b : Nat} (f : Fin a → Fin b → α) (p : Fin a) (q : Fin b) : arr2 f (ix2 p q) = f p q := rfl

end Cert.Sage
-- ==== Proof.Layers.lean ====
/-
  The four dense stages of the network as whole-array functions, for arrays of any number of rows: entry `(p, q)` of
  each is the row-level mathematics of `Spec` applied to row `p` of the row-wise operands, so a block of consecutive
  rows of the operands gives the same rows of the result.
-/
import proofs.«106045_j46145128628314_2_alg».proof.Proof.Spec
import proofs.«106045_j46145128628314_2_alg».proof.Proof.Rows

noncomputable section

namespace Cert.Sage

open Idealize.ShloMosaic Idealize.ShloMosaic.ValueIdx

variable {r : Nat}

/-- The hidden state: both relations' combines of the aggregated arrays and the features, normalised and clamped. -/
def hidden (Af Ar X : (⟨2, ![r, 64]⟩ : Shape).Idx → EReal) (Wlf : (⟨2, ![64, 128]⟩ : Shape).Idx → EReal)
    (blf : (⟨2, ![1, 128]⟩ : Shape).Idx → EReal) (Wrf Wlr : (⟨2, ![64, 128]⟩ : Shape).Idx → EReal)
    (blr : (⟨2, ![1, 128]⟩ : Shape).Idx → EReal) (Wrr : (⟨2, ![64, 128]⟩ : Shape).Idx → EReal)
    (g b : (⟨2, ![1, 128]⟩ : Shape).Idx → EReal) : (⟨2, ![r, 128]⟩ : Shape).Idx → EReal :=
  arr2 fun p q => lnRelu (hlin (row Af p) (row Ar p) (row X p) (mat Wlf) (vec1 blf) (mat Wrf) (mat Wlr) (vec1 blr) (mat Wrr))
    (vec1 g) (vec1 b) q

/-- Every row through a 128×64 matrix. -/
def project (H : (⟨2, ![r, 128]⟩ : Shape).Idx → EReal) (W : (⟨2, ![128, 64]⟩ : Shape).Idx → EReal) :
    (⟨2, ![r, 64]⟩ : Shape).Idx → EReal := arr2 fun p q => dot (row H p) (mat W) q

/-- The embedding: the second layer's sum of the two relations, each row divided by the larger of its norm and the floor. -/
def embed (Af Ar : (⟨2, ![r, 64]⟩ : Shape).Idx → EReal) (H : (⟨2, ![r, 128]⟩ : Shape).Idx → EReal)
    (blf : (⟨2, ![1, 64]⟩ : Shape).Idx → EReal) (Wrf : (⟨2, ![128, 64]⟩ : Shape).Idx → EReal)
    (blr : (⟨2, ![1, 64]⟩ : Shape).Idx → EReal) (Wrr : (⟨2, ![128, 64]⟩ : Shape).Idx → EReal) :
    (⟨2, ![r, 64]⟩ : Shape).Idx → EReal :=
  arr2 fun p q => l2 (zlin (row Af p) (row Ar p) (row H p) (vec1 blf) (mat Wrf) (vec1 blr) (mat Wrr)) q

/-- The decoder's three layers on the two end points' embeddings. -/
def decode {n : Nat} (Zs Zd : (⟨2, ![r, 64]⟩ : Shape).Idx → EReal) (Wa Wb Wc : (⟨2, ![64, 64]⟩ : Shape).Idx → EReal)
    (b1 : (⟨2, ![1, 64]⟩ : Shape).Idx → EReal) (W2 : (⟨2, ![64, 32]⟩ : Shape).Idx → EReal) (b2 : (⟨2, ![1, 32]⟩ : Shape).Idx → EReal)
    (W3 : (⟨2, ![32, n]⟩ : Shape).Idx → EReal) (b3 : (⟨2, ![1, n]⟩ : Shape).Idx → EReal) : (⟨2, ![r, n]⟩ : Shape).Idx → EReal :=
  arr2 fun p q => affine (dense (dec1 (row Zs p) (row Zd p) (mat Wa) (mat Wb) (mat Wc) (vec1 b1)) (mat W2) (vec1 b2)) (mat W3) (vec1 b3) q

end Cert.Sage

end
-- ==== Proof.KernelVal.lean ====
/-
  The host operations the kernel's program runs around its three regions, as pure functions of whole arrays:
  the two rows of the edge list (`srcOf`, `dstOf`), an index vector with negative entries wrapped (`wrap`),
  the per-node count of edges joined with one, as a column (`countCol`), and the mean aggregation of a table's rows
  over the edges: gather by one end, scatter-add by the other, divide by the count column (`segmean`).
-/
import proofs.«106045_j46145128628314_2_alg».proof.Proof.Gen.KernelIdeal
import proofs.«106045_j46145128628314_2_alg».proof.Proof.Layers
import Idealize.ShloMosaic.PureOps.Ideal

noncomputable section

namespace Cert.KernelIdeal.Val

open Idealize.ShloMosaic Cert.KernelIdeal Cert.KernelIdeal.Facts₀ Cert.KernelIdeal.Facts Cert.Sage

/-- Row 0 / row 1 of the `2×800000` edge list, as vectors of 800000 words. -/
def srcOf (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000
def dstOf (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- An index vector with its negative entries moved up by 50000. -/
def wrap (idx : (⟨S800000, .i32⟩ : BufTy).Contents (Elt Ideal)) : (⟨S800000, .i32⟩ : BufTy).Contents (Elt Ideal) :=
  select (cmpi .slt idx (broadcastInDim S800000 ![] bcast_S_S800000 (constantI S_ 32 0#32)))
    (addi idx (broadcastInDim S800000 ![] bcast_S_S800000 (constantI S_ 32 50000#32))) idx

/-- The number of edges landing on each node, joined with one, as a column. -/
def countCol (idx : (⟨S800000, .i32⟩ : BufTy).Contents (Elt Ideal)) : (⟨S50000x1, .f32⟩ : BufTy).Contents (Elt Ideal) :=
  broadcastInDim S50000x1 ![0] bcast_S50000_S50000x1_0
    (maximumf (F := Ideal) (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S50000 ![] bcast_S_S50000 (constant (F := Ideal) S_ .f32 0x3F800000#32)))

/-- The sum over the edges: rows of `T` gathered by `gidx` (wrapped) and scatter-added by `sidx` into zeros. -/
def segsum (T : (⟨S50000x64, .f32⟩ : BufTy).Contents (Elt Ideal)) (gidx sidx : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 sidx)
    (Host.gather gather_S50000x64_S800000x1_S800000x64_1_0_n_n_0_1_164 T (broadcastInDim S800000x1 ![0] bcast_S800000_S800000x1_0 (wrap gidx)))

/-- The mean over the edges: that sum divided, row by row, by a count column. -/
def segmean (T : (⟨S50000x64, .f32⟩ : BufTy).Contents (Elt Ideal)) (gidx sidx : (⟨S800000, .i32⟩ : BufTy).Contents (Elt Ideal))
    (col : (⟨S50000x1, .f32⟩ : BufTy).Contents (Elt Ideal)) : (⟨S50000x64, .f32⟩ : BufTy).Contents (Elt Ideal) :=
  Host.divf (F := Ideal) (φ := .f32) (segsum T gidx sidx) (broadcastInDim S50000x64 ![0, 1] bcast_S50000x1_S50000x64_0_1 col)

/-- Row 0 / row 1 of the `2×100000` list of labelled edges, an index vector of that length wrapped, and the rows of an
    embedding table it selects. -/
def labelRow0 (x2 : (⟨S2x100000, .i32⟩ : BufTy).Contents (Elt Ideal)) : (⟨S100000, .i32⟩ : BufTy).Contents (Elt Ideal) :=
  shapeCast S100000 (extractStridedSlice S1x100000 ![0, 0] x2 slices_S2x100000_S1x100000_0_0) shapeCasts_S1x100000_S100000
def labelRow1 (x2 : (⟨S2x100000, .i32⟩ : BufTy).Contents (Elt Ideal)) : (⟨S100000, .i32⟩ : BufTy).Contents (Elt Ideal) :=
  shapeCast S100000 (extractStridedSlice S1x100000 ![1, 0] x2 slices_S2x100000_S1x100000_1_0) shapeCasts_S1x100000_S100000
def wrapL (idx : (⟨S100000, .i32⟩ : BufTy).Contents (Elt Ideal)) : (⟨S100000, .i32⟩ : BufTy).Contents (Elt Ideal) :=
  select (cmpi .slt idx (broadcastInDim S100000 ![] bcast_S_S100000 (constantI S_ 32 0#32)))
    (addi idx (broadcastInDim S100000 ![] bcast_S_S100000 (constantI S_ 32 50000#32))) idx
def rowsAt (Z : (⟨S50000x64, .f32⟩ : BufTy).Contents (Elt Ideal)) (idx : (⟨S100000, .i32⟩ : BufTy).Contents (Elt Ideal)) : (⟨S100000x64, .f32⟩ : BufTy).Contents (Elt Ideal) :=
  Host.gather gather_S50000x64_S100000x1_S100000x64_1_0_n_n_0_1_164 Z (broadcastInDim S100000x1 ![0] bcast_S100000_S100000x1_0 (wrapL idx))

/-- The three 64-row bands of the decoder's first weight matrix. -/
def bandA (x17 : (⟨S192x64, .f32⟩ : BufTy).Contents (Elt Ideal)) : (⟨S64x64, .f32⟩ : BufTy).Contents (Elt Ideal) := extractStridedSlice S64x64 ![0, 0] x17 slices_S192x64_S64x64_0_0
def bandB (x17 : (⟨S192x64, .f32⟩ : BufTy).Contents (Elt Ideal)) : (⟨S64x64, .f32⟩ : BufTy).Contents (Elt Ideal) := extractStridedSlice S64x64 ![64, 0] x17 slices_S192x64_S64x64_64_0
def bandC (x17 : (⟨S192x64, .f32⟩ : BufTy).Contents (Elt Ideal)) : (⟨S64x64, .f32⟩ : BufTy).Contents (Elt Ideal) := extractStridedSlice S64x64 ![128, 0] x17 slices_S192x64_S64x64_128_0

/-- The last layer's one weight column and one bias entry, padded on the right with 127 zero columns. -/
def padW3 (x21 : (⟨S32x1, .f32⟩ : BufTy).Contents (Elt Ideal)) : (⟨S32x128, .f32⟩ : BufTy).Contents (Elt Ideal) :=
  pad S32x128 ![0, 0] ![0, 127] ![0, 0] x21 (sitofp (F := Ideal) .f32 (constantI S_ 32 0#32)) pads_S32x1_S32x128_000_01270 h_S_
def padB3 (x22 : (⟨S1, .f32⟩ : BufTy).Contents (Elt Ideal)) : (⟨S1x128, .f32⟩ : BufTy).Contents (Elt Ideal) :=
  pad S1x128 ![0, 0] ![0, 127] ![0, 0] (shapeCast S1x1 x22 shapeCasts_S1_S1x1) (sitofp (F := Ideal) .f32 (constantI S_ 32 0#32)) pads_S1x1_S1x128_000_01270 h_S_

/-- A bias vector as a one-row array. -/
def row128 (b : (⟨S128, .f32⟩ : BufTy).Contents (Elt Ideal)) : (⟨S1x128, .f32⟩ : BufTy).Contents (Elt Ideal) := shapeCast S1x128 b shapeCasts_S128_S1x128
def row64 (b : (⟨S64, .f32⟩ : BufTy).Contents (Elt Ideal)) : (⟨S1x64, .f32⟩ : BufTy).Contents (Elt Ideal) := shapeCast S1x64 b shapeCasts_S64_S1x64
def row32 (b : (⟨S32, .f32⟩ : BufTy).Contents (Elt Ideal)) : (⟨S1x32, .f32⟩ : BufTy).Contents (Elt Ideal) := shapeCast S1x32 b shapeCasts_S32_S1x32

section Whole

variable (x0 : (⟨S50000x64, .f32⟩ : BufTy).Contents (Elt Ideal)) (x1 : (⟨S2x800000, .i32⟩ : BufTy).Contents (Elt Ideal)) (x2 : (⟨S2x100000, .i32⟩ : BufTy).Contents (Elt Ideal))
  (x3 : (⟨S64x128, .f32⟩ : BufTy).Contents (Elt Ideal)) (x4 : (⟨S128, .f32⟩ : BufTy).Contents (Elt Ideal)) (x5 x6 : (⟨S64x128, .f32⟩ : BufTy).Contents (Elt Ideal)) (x7 : (⟨S128, .f32⟩ : BufTy).Contents (Elt Ideal))
  (x8 : (⟨S64x128, .f32⟩ : BufTy).Contents (Elt Ideal)) (x9 x10 : (⟨S128, .f32⟩ : BufTy).Contents (Elt Ideal)) (x11 : (⟨S128x64, .f32⟩ : BufTy).Contents (Elt Ideal)) (x12 : (⟨S64, .f32⟩ : BufTy).Contents (Elt Ideal))
  (x13 x14 : (⟨S128x64, .f32⟩ : BufTy).Contents (Elt Ideal)) (x15 : (⟨S64, .f32⟩ : BufTy).Contents (Elt Ideal)) (x16 : (⟨S128x64, .f32⟩ : BufTy).Contents (Elt Ideal)) (x17 : (⟨S192x64, .f32⟩ : BufTy).Contents (Elt Ideal))
  (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal))

/-- The first layer's aggregated features, forward and reverse. -/
def aggF : (⟨S50000x64, .f32⟩ : BufTy).Contents (Elt Ideal) := segmean x0 (srcOf x1) (dstOf x1) (countCol (dstOf x1))
def aggR : (⟨S50000x64, .f32⟩ : BufTy).Contents (Elt Ideal) := segmean x0 (dstOf x1) (srcOf x1) (countCol (srcOf x1))
/-- The hidden state and its two projections. -/
def hid : (⟨S50000x128, .f32⟩ : BufTy).Contents (Elt Ideal) :=
  hidden (aggF x0 x1) (aggR x0 x1) x0 x3 (row128 x4) x5 x6 (row128 x7) x8 (row128 x9) (row128 x10)
def hidF : (⟨S50000x64, .f32⟩ : BufTy).Contents (Elt Ideal) := project (hid x0 x1 x3 x4 x5 x6 x7 x8 x9 x10) x11
def hidR : (⟨S50000x64, .f32⟩ : BufTy).Contents (Elt Ideal) := project (hid x0 x1 x3 x4 x5 x6 x7 x8 x9 x10) x14
/-- The second layer's aggregated (already projected) rows, and the embedding. -/
def agg2F : (⟨S50000x64, .f32⟩ : BufTy).Contents (Elt Ideal) := segmean (hidF x0 x1 x3 x4 x5 x6 x7 x8 x9 x10 x11) (srcOf x1) (dstOf x1) (countCol (dstOf x1))
def agg2R : (⟨S50000x64, .f32⟩ : BufTy).Contents (Elt Ideal) := segmean (hidR x0 x1 x3 x4 x5 x6 x7 x8 x9 x10 x14) (dstOf x1) (srcOf x1) (countCol (srcOf x1))
def emb : (⟨S50000x64, .f32⟩ : BufTy).Contents (Elt Ideal) :=
  embed (agg2F x0 x1 x3 x4 x5 x6 x7 x8 x9 x10 x11) (agg2R x0 x1 x3 x4 x5 x6 x7 x8 x9 x10 x14) (hid x0 x1 x3 x4 x5 x6 x7 x8 x9 x10)
    (row64 x12) x13 (row64 x15) x16
/-- The decoder on the labelled edges, 128 columns wide, and the program's result: its column 0. -/
def dec : (⟨S100000x128, .f32⟩ : BufTy).Contents (Elt Ideal) :=
  decode (n := 128) (rowsAt (emb x0 x1 x3 x4 x5 x6 x7 x8 x9 x10 x11 x12 x13 x14 x15 x16) (labelRow0 x2))
    (rowsAt (emb x0 x1 x3 x4 x5 x6 x7 x8 x9 x10 x11 x12 x13 x14 x15 x16) (labelRow1 x2))
    (bandA x17) (bandB x17) (bandC x17) (row64 x18) x19 (row32 x20) (padW3 x21) (padB3 x22)
def result : (⟨S100000, .f32⟩ : BufTy).Contents (Elt Ideal) :=
  shapeCast S100000 (extractStridedSlice S100000x1 ![0, 0]
    (dec x0 x1 x2 x3 x4 x5 x6 x7 x8 x9 x10 x11 x12 x13 x14 x15 x16 x17 x18 x19 x20 x21 x22) slices_S100000x128_S100000x1_0_0)
    shapeCasts_S100000x1_S100000

end Whole

end Cert.KernelIdeal.Val

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.RowSum.lean ====
/-
  A kernel's sum along each row of an `a×b` block, from the zero word, read at row `p`: the sum over the row.
  (The statement takes the accumulator's neutrality as the equation `0 = 0` between words, the form in which the
  printed bodies carry it.)
-/
import proofs.«106045_j46145128628314_2_alg».proof.Proof.LibRowReductions

namespace Cert.Sage

open scoped BigOperators
open Idealize.ShloMosaic Idealize.ShloMosaic.ValueIdx

theorem rowsum32 {a b : Nat} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  Cert.Lib.RowReductions.rowsum_apply src 0x00000000#32 h hφ hacc p

end Cert.Sage
-- ==== Proof.BodyLayer1.lean ====
/-
  The first kernel's body at one entry. For a block of rows of the two aggregated arrays and of the features, entry
  `(y, q)` of what the body stores is the row-level mathematics of `Spec` applied to row `y` of each block: the two
  relations' combines summed (`hlin`), normalised over the row's 128 entries and clamped (`lnRelu`), and — for the
  two projected outputs — that row through a 128×64 matrix (`dot`).
-/
import proofs.«106045_j46145128628314_2_alg».proof.Proof.Gen.KernelIdeal.Skeleton
import proofs.«106045_j46145128628314_2_alg».proof.Proof.Spec
import proofs.«106045_j46145128628314_2_alg».proof.Proof.Rows
import proofs.«106045_j46145128628314_2_alg».proof.Proof.LibBlockReads
import proofs.«106045_j46145128628314_2_alg».proof.Proof.LibRowReductions
import proofs.«106045_j46145128628314_2_alg».proof.Proof.RowSum
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Sage
open Cert.Lib.BlockReads Cert.Lib.RowReductions

/-- The pre-normalisation sum of the two relations at an entry. -/
theorem pay4_apply (v0 v2 v4 : Vec Ideal S5000x64 .f32) (v5 : Vec Ideal S64x128 .f32) (v7 : Vec Ideal S1x128 .f32)
    (v11 v14 : Vec Ideal S64x128 .f32) (v16 : Vec Ideal S1x128 .f32) (v20 : Vec Ideal S64x128 .f32) (y : Fin 5000) (q : Fin 128) :
    k0_pay4 (F := Ideal) v0 v2 v4 v5 v7 v11 v14 v16 v20 (ix2 y q)
      = hlin (row v0 y) (row v2 y) (row v4 y) (mat v5) (vec1 v7) (mat v11) (mat v14) (vec1 v16) (mat v20) q := by
  unfold k0_pay4
  simp only [shapeCast_self, addf_apply,
    matmul_zero_rows_apply dot_S5000x64_S64x128_S5000x128_1_0_0_1_n_n rfl rfl rfl rfl rfl rfl, broadcast_row_apply]
  rfl

/-- The row's mean, kept as a column. -/
theorem pay5_apply (v0 v2 v4 : Vec Ideal S5000x64 .f32) (v5 : Vec Ideal S64x128 .f32) (v7 : Vec Ideal S1x128 .f32)
    (v11 v14 : Vec Ideal S64x128 .f32) (v16 : Vec Ideal S1x128 .f32) (v20 : Vec Ideal S64x128 .f32) (y : Fin 5000) :
    k0_pay5 (F := Ideal) v0 v2 v4 v5 v7 v11 v14 v16 v20 (ix2 y 0)
      = mean (hlin (row v0 y) (row v2 y) (row v4 y) (mat v5) (vec1 v7) (mat v11) (mat v14) (vec1 v16) (mat v20)) := by
  unfold k0_pay5
  simp only [divf_apply, shapeCast_col_apply, broadcast_apply]
  refine congrArg (fun s => Ideal.div s _) ((rowsum_apply _ _ _ _ _ y).trans ?_)
  exact Finset.sum_congr rfl fun j _ => pay4_apply v0 v2 v4 v5 v7 v11 v14 v16 v20 y j

/-- The row's sum of squared deviations from its mean, kept as a column. -/
theorem pay6_apply (v0 v2 v4 : Vec Ideal S5000x64 .f32) (v5 : Vec Ideal S64x128 .f32) (v7 : Vec Ideal S1x128 .f32)
    (v11 v14 : Vec Ideal S64x128 .f32) (v16 : Vec Ideal S1x128 .f32) (v20 : Vec Ideal S64x128 .f32) (y : Fin 5000) :
    k0_pay6 (F := Ideal) v0 v2 v4 v5 v7 v11 v14 v16 v20 (ix2 y 0)
      = ∑ j : Fin 128, (hlin (row v0 y) (row v2 y) (row v4 y) (mat v5) (vec1 v7) (mat v11) (mat v14) (vec1 v16) (mat v20) j
            - mean (hlin (row v0 y) (row v2 y) (row v4 y) (mat v5) (vec1 v7) (mat v11) (mat v14) (vec1 v16) (mat v20)))
          * (hlin (row v0 y) (row v2 y) (row v4 y) (mat v5) (vec1 v7) (mat v11) (mat v14) (vec1 v16) (mat v20) j
            - mean (hlin (row v0 y) (row v2 y) (row v4 y) (mat v5) (vec1 v7) (mat v11) (mat v14) (vec1 v16) (mat v20))) := by
  unfold k0_pay6
  simp only [shapeCast_col_apply]
  refine (rowsum_apply _ _ _ _ _ y).trans ?_
  refine Finset.sum_congr rfl fun j _ => ?_
  simp only [mulf_apply, subf_apply, broadcast_col_apply, pay4_apply, pay5_apply]

/-- The normalised, scaled, shifted and clamped entry, from the sum, the mean column and the squared-deviation column. -/
theorem pay1_apply (v23 : FVec Ideal S5000x128 .f32) (v27 v32 : FVec Ideal S5000x1 .f32) (c : Ideal .f32)
    (g b : Vec Ideal S1x128 .f32) (y : Fin 5000) (q : Fin 128) :
    k0_pay1 (F := Ideal) v23 v27 v32 c g b (ix2 y q)
      = max ((((v23 (ix2 y q) - v27 (ix2 y 0)) * Ideal.rsqrt (Ideal.div (v32 (ix2 y 0)) c + lnEps)) * g (ix2 0 q)) + b (ix2 0 q)) 0 := by
  unfold k0_pay1
  simp only [maximumf_apply, addf_apply, mulf_apply, subf_apply, divf_apply, broadcast_col_apply, broadcast_row_apply,
    shapeCast_self, broadcast_apply]
  rw [show (Scalar.ofBits (F := Ideal) .f32 0x00000000#32 : Ideal .f32) = (0 : EReal) from Ideal.ofBits_zero_f32]
  rfl

/-- The hidden state's entry `(y, q)` of a block: row `y` of the blocks through the two combines, normalised and clamped. -/
theorem hidden_apply (x0 x1 x2 : Vec Ideal S5000x64 .f32) (x3 : Vec Ideal S64x128 .f32) (x4 : Vec Ideal S1x128 .f32)
    (x5 x6 : Vec Ideal S64x128 .f32) (x7 : Vec Ideal S1x128 .f32) (x8 : Vec Ideal S64x128 .f32) (x9 x10 : Vec Ideal S1x128 .f32)
    (y : Fin 5000) (q : Fin 128) :
    k0_pay1 (F := Ideal) (k0_pay4 x0 x1 x2 x3 x4 x5 x6 x7 x8) (k0_pay5 x0 x1 x2 x3 x4 x5 x6 x7 x8) (k0_pay6 x0 x1 x2 x3 x4 x5 x6 x7 x8)
        (Scalar.ofBits .f32 0x43000000#32) x9 x10 (ix2 y q)
      = lnRelu (hlin (row x0 y) (row x1 y) (row x2 y) (mat x3) (vec1 x4) (mat x5) (mat x6) (vec1 x7) (mat x8)) (vec1 x9) (vec1 x10) q := by
  rw [pay1_apply, pay4_apply, pay5_apply, pay6_apply]
  rfl

/-- A projected output's entry: the hidden state's row `y` through the 128×64 matrix. -/
theorem proj2_apply (v23 : FVec Ideal S5000x128 .f32) (v27 v32 : FVec Ideal S5000x1 .f32) (c : Ideal .f32)
    (g b : Vec Ideal S1x128 .f32) (W : Vec Ideal S128x64 .f32) (y : Fin 5000) (q : Fin 64) :
    k0_pay2 (F := Ideal) v23 v27 v32 c g b W (ix2 y q) = dot (row (k0_pay1 (F := Ideal) v23 v27 v32 c g b) y) (mat W) q := by
  unfold k0_pay2
  simp only [matmul_zero_rows_apply dot_S5000x128_S128x64_S5000x64_1_0_0_1_n_n rfl rfl rfl rfl rfl rfl]
  rfl

theorem proj3_apply (v23 : FVec Ideal S5000x128 .f32) (v27 v32 : FVec Ideal S5000x1 .f32) (c : Ideal .f32)
    (g b : Vec Ideal S1x128 .f32) (W : Vec Ideal S128x64 .f32) (y : Fin 5000) (q : Fin 64) :
    k0_pay3 (F := Ideal) v23 v27 v32 c g b W (ix2 y q) = dot (row (k0_pay1 (F := Ideal) v23 v27 v32 c g b) y) (mat W) q := by
  unfold k0_pay3
  simp only [matmul_zero_rows_apply dot_S5000x128_S128x64_S5000x64_1_0_0_1_n_n rfl rfl rfl rfl rfl rfl]
  rfl

end Cert.KernelIdeal.Body

end
-- ==== Proof.Array0.lean ====
/-
  The first kernel region, from blocks to arrays. The grid's ten points each take 5000 consecutive rows of the three
  row-wise operands and every weight array whole; what a point writes back to each of the three outputs is the same
  rows of one whole-array function of the operands as the region finds them, and the ten blocks cover each output.
-/
import proofs.«106045_j46145128628314_2_alg».proof.Proof.Gen.KernelIdeal.Frame
import proofs.«106045_j46145128628314_2_alg».proof.Proof.Layers
import proofs.«106045_j46145128628314_2_alg».proof.Proof.BodyLayer1
import Idealize.ShloMosaic.Lib.ValueIdx
import Idealize.ShloMosaic.Lib.Pipeline.Value

set_option maxRecDepth 16384

noncomputable section

namespace Cert.KernelIdeal.Arrays

open Idealize.ShloMosaic Idealize.ShloMosaic.ValueIdx Idealize.ShloMosaic.TcCoe Idealize.SL.Sem
open Cert.KernelIdeal Cert.KernelIdeal.Gen Cert.Sage
open Idealize.ShloMosaic.Pipeline (Dat Cfg Window)

theorem hz0 : (![0, 0] : Fin 2 → Nat) = fun _ => 0 := funext fun a => by fin_cases a <;> rfl

/-- The printed index maps over the grid: a row-tiled window's block index is the point's number along the rows and 0 along the columns; a whole-array window's is 0 on both axes. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- The array row that row `y` of point `t`'s block is. -/
def rowAt0 (t : Fin cfg0.N) (y : Fin 5000) : Fin 50000 :=
  ⟨5000 * t.val + y.val, by have h : t.val < 10 := (show t.val < grid0.N from t.isLt).trans_eq N_0; have := y.isLt; omega⟩

theorem emb0_0 (t : Fin cfg0.N) (y : Fin 5000) (k : Fin 64) :
    ((cfg0.win 0).blk t).view.emb (ix2 y k) = ix2 (rowAt0 t y) k := by
  obtain ⟨e0, e1⟩ := (idx0 t).1
  funext a; apply Fin.ext
  match a with
  | ⟨0, _⟩ => show win0_0.index t (0 : Fin 2) * 5000 + 1 * y.val = 5000 * t.val + y.val; omega
  | ⟨1, _⟩ => show win0_0.index t (1 : Fin 2) * 64 + 1 * k.val = k.val; omega

theorem emb0_1 (t : Fin cfg0.N) (y : Fin 5000) (k : Fin 64) :
    ((cfg0.win 1).blk t).view.emb (ix2 y k) = ix2 (rowAt0 t y) k := by
  obtain ⟨e0, e1⟩ := (idx0 t).2.1
  funext a; apply Fin.ext
  match a with
  | ⟨0, _⟩ => show win0_1.index t (0 : Fin 2) * 5000 + 1 * y.val = 5000 * t.val + y.val; omega
  | ⟨1, _⟩ => show win0_1.index t (1 : Fin 2) * 64 + 1 * k.val = k.val; omega

theorem emb0_2 (t : Fin cfg0.N) (y : Fin 5000) (k : Fin 64) :
    ((cfg0.win 2).blk t).view.emb (ix2 y k) = ix2 (rowAt0 t y) k := by
  obtain ⟨e0, e1⟩ := (idx0 t).2.2.1
  funext a; apply Fin.ext
  match a with
  | ⟨0, _⟩ => show win0_2.index t (0 : Fin 2) * 5000 + 1 * y.val = 5000 * t.val + y.val; omega
  | ⟨1, _⟩ => show win0_2.index t (1 : Fin 2) * 64 + 1 * k.val = k.val; omega

theorem emb0_3 (t : Fin cfg0.N) (p : Fin 64) (q : Fin 128) :
    ((cfg0.win 3).blk t).view.emb (ix2 p q) = ix2 p q := by
  obtain ⟨e0, e1⟩ := (idx0 t).2.2.2.1
  funext a; apply Fin.ext
  match a with
  | ⟨0, _⟩ => show win0_3.index t (0 : Fin 2) * 64 + 1 * p.val = p.val; omega
  | ⟨1, _⟩ => show win0_3.index t (1 : Fin 2) * 128 + 1 * q.val = q.val; omega

theorem emb0_4 (t : Fin cfg0.N) (p : Fin 1) (q : Fin 128) :
    ((cfg0.win 4).blk t).view.emb (ix2 p q) = ix2 p q := by
  obtain ⟨e0, e1⟩ := (idx0 t).2.2.2.2.1
  funext a; apply Fin.ext
  match a with
  | ⟨0, _⟩ => show win0_4.index t (0 : Fin 2) * 1 + 1 * p.val = p.val; omega
  | ⟨1, _⟩ => show win0_4.index t (1 : Fin 2) * 128 + 1 * q.val = q.val; omega

theorem emb0_5 (t : Fin cfg0.N) (p : Fin 64) (q : Fin 128) :
    ((cfg0.win 5).blk t).view.emb (ix2 p q) = ix2 p q := by
  obtain ⟨e0, e1⟩ := (idx0 t).2.2.2.2.2.1
  funext a; apply Fin.ext
  match a with
  | ⟨0, _⟩ => show win0_5.index t (0 : Fin 2) * 64 + 1 * p.val = p.val; omega
  | ⟨1, _⟩ => show win0_5.index t (1 : Fin 2) * 128 + 1 * q.val = q.val; omega

theorem emb0_6 (t : Fin cfg0.N) (p : Fin 64) (q : Fin 128) :
    ((cfg0.win 6).blk t).view.emb (ix2 p q) = ix2 p q := by
  obtain ⟨e0, e1⟩ := (idx0 t).2.2.2.2.2.2.1
  funext a; apply Fin.ext
  match a with
  | ⟨0, _⟩ => show win0_6.index t (0 : Fin 2) * 64 + 1 * p.val = p.val; omega
  | ⟨1, _⟩ => show win0_6.index t (1 : Fin 2) * 128 + 1 * q.val = q.val; omega

theorem emb0_7 (t : Fin cfg0.N) (p : Fin 1) (q : Fin 128) :
    ((cfg0.win 7).blk t).view.emb (ix2 p q) = ix2 p q := by
  obtain ⟨e0, e1⟩ := (idx0 t).2.2.2.2.2.2.2.1
  funext a; apply Fin.ext
  match a with
  | ⟨0, _⟩ => show win0_7.index t (0 : Fin 2) * 1 + 1 * p.val = p.val; omega
  | ⟨1, _⟩ => show win0_7.index t (1 : Fin 2) * 128 + 1 * q.val = q.val; omega

theorem emb0_8 (t : Fin cfg0.N) (p : Fin 64) (q : Fin 128) :
    ((cfg0.win 8).blk t).view.emb (ix2 p q) = ix2 p q := by
  obtain ⟨e0, e1⟩ := (idx0 t).2.2.2.2.2.2.2.2.1
  funext a; apply Fin.ext
  match a with
  | ⟨0, _⟩ => show win0_8.index t (0 : Fin 2) * 64 + 1 * p.val = p.val; omega
  | ⟨1, _⟩ => show win0_8.index t (1 : Fin 2) * 128 + 1 * q.val = q.val; omega

theorem emb0_9 (t : Fin cfg0.N) (p : Fin 1) (q : Fin 128) :
    ((cfg0.win 9).blk t).view.emb (ix2 p q) = ix2 p q := by
  obtain ⟨e0, e1⟩ := (idx0 t).2.2.2.2.2.2.2.2.2.1
  funext a; apply Fin.ext
  match a with
  | ⟨0, _⟩ => show win0_9.index t (0 : Fin 2) * 1 + 1 * p.val = p.val; omega
  | ⟨1, _⟩ => show win0_9.index t (1 : Fin 2) * 128 + 1 * q.val = q.val; omega

theorem emb0_10 (t : Fin cfg0.N) (p : Fin 1) (q : Fin 128) :
    ((cfg0.win 10).blk t).view.emb (ix2 p q) = ix2 p q := by
  obtain ⟨e0, e1⟩ := (idx0 t).2.2.2.2.2.2.2.2.2.2.1
  funext a; apply Fin.ext
  match a with
  | ⟨0, _⟩ => show win0_10.index t (0 : Fin 2) * 1 + 1 * p.val = p.val; omega
  | ⟨1, _⟩ => show win0_10.index t (1 : Fin 2) * 128 + 1 * q.val = q.val; omega

theorem emb0_11 (t : Fin cfg0.N) (p : Fin 128) (q : Fin 64) :
    ((cfg0.win 11).blk t).view.emb (ix2 p q) = ix2 p q := by
  obtain ⟨e0, e1⟩ := (idx0 t).2.2.2.2.2.2.2.2.2.2.2.1
  funext a; apply Fin.ext
  match a with
  | ⟨0, _⟩ => show win0_11.index t (0 : Fin 2) * 128 + 1 * p.val = p.val; omega
  | ⟨1, _⟩ => show win0_11.index t (1 : Fin 2) * 64 + 1 * q.val = q.val; omega

theorem emb0_12 (t : Fin cfg0.N) (p : Fin 128) (q : Fin 64) :
    ((cfg0.win 12).blk t).view.emb (ix2 p q) = ix2 p q := by
  obtain ⟨e0, e1⟩ := (idx0 t).2.2.2.2.2.2.2.2.2.2.2.2.1
  funext a; apply Fin.ext
  match a with
  | ⟨0, _⟩ => show win0_12.index t (0 : Fin 2) * 128 + 1 * p.val = p.val; omega
  | ⟨1, _⟩ => show win0_12.index t (1 : Fin 2) * 64 + 1 * q.val = q.val; omega

theorem emb0_13 (t : Fin cfg0.N) (y : Fin 5000) (k : Fin 128) :
    ((cfg0.win 13).blk t).view.emb (ix2 y k) = ix2 (rowAt0 t y) k := by
  obtain ⟨e0, e1⟩ := (idx0 t).2.2.2.2.2.2.2.2.2.2.2.2.2.1
  funext a; apply Fin.ext
  match a with
  | ⟨0, _⟩ => show win0_13.index t (0 : Fin 2) * 5000 + 1 * y.val = 5000 * t.val + y.val; omega
  | ⟨1, _⟩ => show win0_13.index t (1 : Fin 2) * 128 + 1 * k.val = k.val; omega

theorem emb0_14 (t : Fin cfg0.N) (y : Fin 5000) (k : Fin 64) :
    ((cfg0.win 14).blk t).view.emb (ix2 y k) = ix2 (rowAt0 t y) k := by
  obtain ⟨e0, e1⟩ := (idx0 t).2.2.2.2.2.2.2.2.2.2.2.2.2.2.1
  funext a; apply Fin.ext
  match a with
  | ⟨0, _⟩ => show win0_14.index t (0 : Fin 2) * 5000 + 1 * y.val = 5000 * t.val + y.val; omega
  | ⟨1, _⟩ => show win0_14.index t (1 : Fin 2) * 64 + 1 * k.val = k.val; omega

theorem emb0_15 (t : Fin cfg0.N) (y : Fin 5000) (k : Fin 64) :
    ((cfg0.win 15).blk t).view.emb (ix2 y k) = ix2 (rowAt0 t y) k := by
  obtain ⟨e0, e1⟩ := (idx0 t).2.2.2.2.2.2.2.2.2.2.2.2.2.2.2
  funext a; apply Fin.ext
  match a with
  | ⟨0, _⟩ => show win0_15.index t (0 : Fin 2) * 5000 + 1 * y.val = 5000 * t.val + y.val; omega
  | ⟨1, _⟩ => show win0_15.index t (1 : Fin 2) * 64 + 1 * k.val = k.val; omega

section Region0

variable (V : (c : Dev nD) → (b : Ref sig .tc) → Buf (Elt Ideal) ((c : Thread nD τ).loc b))

theorem blk0_0 (c : Dev nD) (t : Fin cfg0.N) (y : Fin 5000) :
    row (α := EReal) (r := 5000) (k := 64) (iblk0 V c 0 t) y = row (V c main_v28) (rowAt0 t y) :=
  funext fun k => congrArg (V c main_v28) (emb0_0 t y k)

theorem blk0_1 (c : Dev nD) (t : Fin cfg0.N) (y : Fin 5000) :
    row (α := EReal) (r := 5000) (k := 64) (iblk0 V c 1 t) y = row (V c main_v40) (rowAt0 t y) :=
  funext fun k => congrArg (V c main_v40) (emb0_1 t y k)

theorem blk0_2 (c : Dev nD) (t : Fin cfg0.N) (y : Fin 5000) :
    row (α := EReal) (r := 5000) (k := 64) (iblk0 V c 2 t) y = row (V c main_arg0) (rowAt0 t y) :=
  funext fun k => congrArg (V c main_arg0) (emb0_2 t y k)

theorem blk0_3 (c : Dev nD) (t : Fin cfg0.N) :
    mat (α := EReal) (k := 64) (n := 128) (iblk0 V c 3 t) = mat (V c main_arg3) :=
  funext fun p => funext fun q => congrArg (V c main_arg3) (emb0_3 t p q)

theorem blk0_4 (c : Dev nD) (t : Fin cfg0.N) :
    vec1 (α := EReal) (n := 128) (iblk0 V c 4 t) = vec1 (V c main_v41) :=
  funext fun q => congrArg (V c main_v41) (emb0_4 t 0 q)

theorem blk0_5 (c : Dev nD) (t : Fin cfg0.N) :
    mat (α := EReal) (k := 64) (n := 128) (iblk0 V c 5 t) = mat (V c main_arg5) :=
  funext fun p => funext fun q => congrArg (V c main_arg5) (emb0_5 t p q)

theorem blk0_6 (c : Dev nD) (t : Fin cfg0.N) :
    mat (α := EReal) (k := 64) (n := 128) (iblk0 V c 6 t) = mat (V c main_arg6) :=
  funext fun p => funext fun q => congrArg (V c main_arg6) (emb0_6 t p q)

theorem blk0_7 (c : Dev nD) (t : Fin cfg0.N) :
    vec1 (α := EReal) (n := 128) (iblk0 V c 7 t) = vec1 (V c main_v42) :=
  funext fun q => congrArg (V c main_v42) (emb0_7 t 0 q)

theorem blk0_8 (c : Dev nD) (t : Fin cfg0.N) :
    mat (α := EReal) (k := 64) (n := 128) (iblk0 V c 8 t) = mat (V c main_arg8) :=
  funext fun p => funext fun q => congrArg (V c main_arg8) (emb0_8 t p q)

theorem blk0_9 (c : Dev nD) (t : Fin cfg0.N) :
    vec1 (α := EReal) (n := 128) (iblk0 V c 9 t) = vec1 (V c main_v43) :=
  funext fun q => congrArg (V c main_v43) (emb0_9 t 0 q)

theorem blk0_10 (c : Dev nD) (t : Fin cfg0.N) :
    vec1 (α := EReal) (n := 128) (iblk0 V c 10 t) = vec1 (V c main_v44) :=
  funext fun q => congrArg (V c main_v44) (emb0_10 t 0 q)

theorem blk0_11 (c : Dev nD) (t : Fin cfg0.N) :
    mat (α := EReal) (k := 128) (n := 64) (iblk0 V c 11 t) = mat (V c main_arg11) :=
  funext fun p => funext fun q => congrArg (V c main_arg11) (emb0_11 t p q)

theorem blk0_12 (c : Dev nD) (t : Fin cfg0.N) :
    mat (α := EReal) (k := 128) (n := 64) (iblk0 V c 12 t) = mat (V c main_arg14) :=
  funext fun p => funext fun q => congrArg (V c main_arg14) (emb0_12 t p q)

/-- The hidden state of the whole arrays as the region finds them, and its two projections. -/
def H0 (c : Dev nD) : S50000x128.Idx → EReal :=
  hidden (V c main_v28) (V c main_v40) (V c main_arg0) (V c main_arg3) (V c main_v41) (V c main_arg5) (V c main_arg6)
    (V c main_v42) (V c main_arg8) (V c main_v43) (V c main_v44)
def HF0 (c : Dev nD) : S50000x64.Idx → EReal := project (H0 V c) (V c main_arg11)
def HR0 (c : Dev nD) : S50000x64.Idx → EReal := project (H0 V c) (V c main_arg14)

/-- Entry `(y, q)` of the hidden state's block at point `t` is entry `(rowAt0 t y, q)` of the whole hidden state. -/
theorem hidden_blk (c : Dev nD) (t : Fin cfg0.N) (y : Fin 5000) (q : Fin 128) :
    Gen.k0_pay1 (F := Ideal) (Gen.k0_pay4 (iblk0 V c 0 t) (iblk0 V c 1 t) (iblk0 V c 2 t) (iblk0 V c 3 t) (iblk0 V c 4 t) (iblk0 V c 5 t) (iblk0 V c 6 t) (iblk0 V c 7 t) (iblk0 V c 8 t))
        (Gen.k0_pay5 (iblk0 V c 0 t) (iblk0 V c 1 t) (iblk0 V c 2 t) (iblk0 V c 3 t) (iblk0 V c 4 t) (iblk0 V c 5 t) (iblk0 V c 6 t) (iblk0 V c 7 t) (iblk0 V c 8 t))
        (Gen.k0_pay6 (iblk0 V c 0 t) (iblk0 V c 1 t) (iblk0 V c 2 t) (iblk0 V c 3 t) (iblk0 V c 4 t) (iblk0 V c 5 t) (iblk0 V c 6 t) (iblk0 V c 7 t) (iblk0 V c 8 t))
        (Scalar.ofBits .f32 0x43000000#32) (iblk0 V c 9 t) (iblk0 V c 10 t) (ix2 y q)
      = H0 V c (ix2 (rowAt0 t y) q) := by
  refine (Body.hidden_apply _ _ _ _ _ _ _ _ _ _ _ y q).trans ?_
  rw [blk0_0, blk0_1, blk0_2, blk0_3, blk0_4, blk0_5, blk0_6, blk0_7, blk0_8, blk0_9, blk0_10]
  rfl

theorem flushed0_13 (c : Dev nD) (t : Fin cfg0.N) :
    (dat0 V c).flushed 13 t = ((cfg0.win 13).blk t).view.read (Elt Ideal) (H0 V c) := by
  show (cfg0.win 13).cut (grid0.coords t) ((dat0 V c).after 13 t) = _
  rw [after0_13]
  unfold out0_13
  rw [View.canon_unit_zero hz0]
  simp only [View.ld_unit_zero (S := S5000x64) hz0, View.ld_unit_zero (S := S64x128) hz0, View.ld_unit_zero (S := S1x128) hz0, View.ld_unit_zero (S := S128x64) hz0]
  funext j
  obtain ⟨y, q, rfl⟩ : ∃ (y : Fin 5000) (q : Fin 128), j = ix2 y q := ⟨j 0, j 1, eq_ix2 j⟩
  refine (hidden_blk V c t y q).trans ?_
  exact congrArg (H0 V c) (emb0_13 t y q).symm

theorem flushed0_14 (c : Dev nD) (t : Fin cfg0.N) :
    (dat0 V c).flushed 14 t = ((cfg0.win 14).blk t).view.read (Elt Ideal) (HF0 V c) := by
  show (cfg0.win 14).cut (grid0.coords t) ((dat0 V c).after 14 t) = _
  rw [after0_14]
  unfold out0_14
  rw [View.canon_unit_zero hz0]
  simp only [View.ld_unit_zero (S := S5000x64) hz0, View.ld_unit_zero (S := S64x128) hz0, View.ld_unit_zero (S := S1x128) hz0, View.ld_unit_zero (S := S128x64) hz0]
  funext j
  obtain ⟨y, q, rfl⟩ : ∃ (y : Fin 5000) (q : Fin 64), j = ix2 y q := ⟨j 0, j 1, eq_ix2 j⟩
  refine (Body.proj2_apply _ _ _ _ _ _ _ y q).trans ?_
  refine Eq.trans ?_ (congrArg (HF0 V c) (emb0_14 t y q).symm)
  show dot _ _ q = dot (row (H0 V c) (rowAt0 t y)) (mat (V c main_arg11)) q
  rw [blk0_11]
  exact congrArg (fun v => dot v (mat (V c main_arg11)) q) (funext fun k => hidden_blk V c t y k)

theorem flushed0_15 (c : Dev nD) (t : Fin cfg0.N) :
    (dat0 V c).flushed 15 t = ((cfg0.win 15).blk t).view.read (Elt Ideal) (HR0 V c) := by
  show (cfg0.win 15).cut (grid0.coords t) ((dat0 V c).after 15 t) = _
  rw [after0_15]
  unfold out0_15
  rw [View.canon_unit_zero hz0]
  simp only [View.ld_unit_zero (S := S5000x64) hz0, View.ld_unit_zero (S := S64x128) hz0, View.ld_unit_zero (S := S1x128) hz0, View.ld_unit_zero (S := S128x64) hz0]
  funext j
  obtain ⟨y, q, rfl⟩ : ∃ (y : Fin 5000) (q : Fin 64), j = ix2 y q := ⟨j 0, j 1, eq_ix2 j⟩
  refine (Body.proj3_apply _ _ _ _ _ _ _ y q).trans ?_
  refine Eq.trans ?_ (congrArg (HR0 V c) (emb0_15 t y q).symm)
  show dot _ _ q = dot (row (H0 V c) (rowAt0 t y)) (mat (V c main_arg14)) q
  rw [blk0_12]
  exact congrArg (fun v => dot v (mat (V c main_arg14)) q) (funext fun k => hidden_blk V c t y k)

/-- The blocks of output window 13 cover its array: row `p` lies in the block of point `p / 5000`. -/
theorem mem_blk0_13 (t : Fin cfg0.N) (i : S50000x128.Idx) :
    i ∈ ((cfg0.win 13).blk t).view.set ↔ ∀ a : Fin 2, win0_13.index t a * S5000x128.size a ≤ (i a).val ∧ (i a).val < win0_13.index t a * S5000x128.size a + S5000x128.size a := by
  show i ∈ ((View.whole main_v45_0).slice (win0_13.rect t)).set ↔ _
  rw [View.set_slice_whole, Rect.mem_set_unit]
  exact Iff.rfl

theorem cover0_13_all (i : S50000x128.Idx) :
    ∃ t : Fin cfg0.N, (cfg0.win 13).flush t = true ∧ i ∈ ((cfg0.win 13).blk t).view.set := by
  have hi0 : (i 0).val < 50000 := (i 0).isLt
  have hi1 : (i 1).val < 128 := (i 1).isLt
  refine ⟨⟨(i 0).val / 5000, by rw [show cfg0.N = _ from N_0]; omega⟩, flush0_13 _, ?_⟩
  rw [mem_blk0_13]
  intro a
  match a with
  | ⟨0, _⟩ =>
    have e := (idx0 ⟨(i 0).val / 5000, by rw [show cfg0.N = _ from N_0]; omega⟩).2.2.2.2.2.2.2.2.2.2.2.2.2.1.1
    show win0_13.index _ (0 : Fin 2) * 5000 ≤ (i 0).val ∧ (i 0).val < win0_13.index _ (0 : Fin 2) * 5000 + 5000
    rw [e]; show (i 0).val / 5000 * 5000 ≤ (i 0).val ∧ (i 0).val < (i 0).val / 5000 * 5000 + 5000; omega
  | ⟨1, _⟩ =>
    have e := (idx0 ⟨(i 0).val / 5000, by rw [show cfg0.N = _ from N_0]; omega⟩).2.2.2.2.2.2.2.2.2.2.2.2.2.1.2
    show win0_13.index _ (1 : Fin 2) * 128 ≤ (i 1).val ∧ (i 1).val < win0_13.index _ (1 : Fin 2) * 128 + 128
    rw [e]; omega

/-- The blocks of output window 14 cover its array: row `p` lies in the block of point `p / 5000`. -/
theorem mem_blk0_14 (t : Fin cfg0.N) (i : S50000x64.Idx) :
    i ∈ ((cfg0.win 14).blk t).view.set ↔ ∀ a : Fin 2, win0_14.index t a * S5000x64.size a ≤ (i a).val ∧ (i a).val < win0_14.index t a * S5000x64.size a + S5000x64.size a := by
  show i ∈ ((View.whole main_v45_1).slice (win0_14.rect t)).set ↔ _
  rw [View.set_slice_whole, Rect.mem_set_unit]
  exact Iff.rfl

theorem cover0_14_all (i : S50000x64.Idx) :
    ∃ t : Fin cfg0.N, (cfg0.win 14).flush t = true ∧ i ∈ ((cfg0.win 14).blk t).view.set := by
  have hi0 : (i 0).val < 50000 := (i 0).isLt
  have hi1 : (i 1).val < 64 := (i 1).isLt
  refine ⟨⟨(i 0).val / 5000, by rw [show cfg0.N = _ from N_0]; omega⟩, flush0_14 _, ?_⟩
  rw [mem_blk0_14]
  intro a
  match a with
  | ⟨0, _⟩ =>
    have e := (idx0 ⟨(i 0).val / 5000, by rw [show cfg0.N = _ from N_0]; omega⟩).2.2.2.2.2.2.2.2.2.2.2.2.2.2.1.1
    show win0_14.index _ (0 : Fin 2) * 5000 ≤ (i 0).val ∧ (i 0).val < win0_14.index _ (0 : Fin 2) * 5000 + 5000
    rw [e]; show (i 0).val / 5000 * 5000 ≤ (i 0).val ∧ (i 0).val < (i 0).val / 5000 * 5000 + 5000; omega
  | ⟨1, _⟩ =>
    have e := (idx0 ⟨(i 0).val / 5000, by rw [show cfg0.N = _ from N_0]; omega⟩).2.2.2.2.2.2.2.2.2.2.2.2.2.2.1.2
    show win0_14.index _ (1 : Fin 2) * 64 ≤ (i 1).val ∧ (i 1).val < win0_14.index _ (1 : Fin 2) * 64 + 64
    rw [e]; omega

/-- The blocks of output window 15 cover its array: row `p` lies in the block of point `p / 5000`. -/
theorem mem_blk0_15 (t : Fin cfg0.N) (i : S50000x64.Idx) :
    i ∈ ((cfg0.win 15).blk t).view.set ↔ ∀ a : Fin 2, win0_15.index t a * S5000x64.size a ≤ (i a).val ∧ (i a).val < win0_15.index t a * S5000x64.size a + S5000x64.size a := by
  show i ∈ ((View.whole main_v45_2).slice (win0_15.rect t)).set ↔ _
  rw [View.set_slice_whole, Rect.mem_set_unit]
  exact Iff.rfl

theorem cover0_15_all (i : S50000x64.Idx) :
    ∃ t : Fin cfg0.N, (cfg0.win 15).flush t = true ∧ i ∈ ((cfg0.win 15).blk t).view.set := by
  have hi0 : (i 0).val < 50000 := (i 0).isLt
  have hi1 : (i 1).val < 64 := (i 1).isLt
  refine ⟨⟨(i 0).val / 5000, by rw [show cfg0.N = _ from N_0]; omega⟩, flush0_15 _, ?_⟩
  rw [mem_blk0_15]
  intro a
  match a with
  | ⟨0, _⟩ =>
    have e := (idx0 ⟨(i 0).val / 5000, by rw [show cfg0.N = _ from N_0]; omega⟩).2.2.2.2.2.2.2.2.2.2.2.2.2.2.2.1
    show win0_15.index _ (0 : Fin 2) * 5000 ≤ (i 0).val ∧ (i 0).val < win0_15.index _ (0 : Fin 2) * 5000 + 5000
    rw [e]; show (i 0).val / 5000 * 5000 ≤ (i 0).val ∧ (i 0).val < (i 0).val / 5000 * 5000 + 5000; omega
  | ⟨1, _⟩ =>
    have e := (idx0 ⟨(i 0).val / 5000, by rw [show cfg0.N = _ from N_0]; omega⟩).2.2.2.2.2.2.2.2.2.2.2.2.2.2.2.2
    show win0_15.index _ (1 : Fin 2) * 64 ≤ (i 1).val ∧ (i 1).val < win0_15.index _ (1 : Fin 2) * 64 + 64
    rw [e]; omega

/-- The three output arrays after the region. -/
theorem final0_13 (c : Dev nD) : (dat0 V c).arrAt 13 cfg0.N = H0 V c :=
  (dat0 V c).arrAt_eq_of_cover 13 (H0 V c) (fun t _ => flushed0_13 V c t) cover0_13_all
theorem final0_14 (c : Dev nD) : (dat0 V c).arrAt 14 cfg0.N = HF0 V c :=
  (dat0 V c).arrAt_eq_of_cover 14 (HF0 V c) (fun t _ => flushed0_14 V c t) cover0_14_all
theorem final0_15 (c : Dev nD) : (dat0 V c).arrAt 15 cfg0.N = HR0 V c :=
  (dat0 V c).arrAt_eq_of_cover 15 (HR0 V c) (fun t _ => flushed0_15 V c t) cover0_15_all

end Region0

end Cert.KernelIdeal.Arrays

end
-- ==== Proof.BodyLayer2.lean ====
/-
  The second kernel's body at one entry. For a block of rows of the two aggregated (already projected) arrays and of
  the hidden state, entry `(y, q)` of what the body stores is `l2` of the row `zlin` built from row `y` of each
  block: the two relations' sums added, then the row divided by the larger of its norm and the floor.
-/
import proofs.«106045_j46145128628314_2_alg».proof.Proof.Gen.KernelIdeal.Skeleton
import proofs.«106045_j46145128628314_2_alg».proof.Proof.Spec
import proofs.«106045_j46145128628314_2_alg».proof.Proof.Rows
import proofs.«106045_j46145128628314_2_alg».proof.Proof.LibBlockReads
import proofs.«106045_j46145128628314_2_alg».proof.Proof.LibRowReductions
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Sage
open Cert.Lib.BlockReads Cert.Lib.RowReductions

theorem sqrt_apply {s : Shape} (a : FVec Ideal s .f32) (i : s.Idx) : sqrt a i = Ideal.sqrt (a i) := rfl

/-- A block divided row by row by the larger of the row's norm and the floor, at an entry. -/
theorem normalise_apply (z : FVec Ideal S5000x64 .f32) (y : Fin 5000) (q : Fin 64) :
    divf z (broadcastTo S5000x64 (maximumf (sqrt (shapeCast S5000x1
        (multiReduction .add [1] S5000 (mulf z z) 0x00000000#32 reduces_S5000x64_S5000 (.inl rfl) rfl) shapeCasts_S5000_S5000x1))
        (broadcast S5000x1 (Scalar.ofBits .f32 0x2B8CBCCC#32))) broadcasts_S5000x1_S5000x64) (ix2 y q)
      = l2 (row z y) q := by
  simp only [divf_apply, broadcast_col_apply, maximumf_apply, broadcast_apply, sqrt_apply, shapeCast_col_apply]
  refine congrArg (fun s => Ideal.div _ (max (Ideal.sqrt s) _)) ((rowsum_apply _ _ _ _ _ y).trans ?_)
  rfl

/-- The second layer's entry `(y, q)` of a block. -/
theorem layer2_apply (v0 v2 : Vec Ideal S5000x64 .f32) (v4 : Vec Ideal S5000x128 .f32) (v6 : Vec Ideal S1x64 .f32)
    (v10 : Vec Ideal S128x64 .f32) (v13 : Vec Ideal S1x64 .f32) (v17 : Vec Ideal S128x64 .f32) (y : Fin 5000) (q : Fin 64) :
    k1_pay1 (F := Ideal) v0 v2 v4 v6 v10 v13 v17 (ix2 y q)
      = l2 (zlin (row v0 y) (row v2 y) (row v4 y) (vec1 v6) (mat v10) (vec1 v13) (mat v17)) q := by
  simp only [k1_pay1]
  refine (normalise_apply _ y q).trans (congrArg (fun v => l2 v q) (funext fun j => ?_))
  simp only [shapeCast_self, addf_apply,
    matmul_zero_rows_apply dot_S5000x128_S128x64_S5000x64_1_0_0_1_n_n rfl rfl rfl rfl rfl rfl, broadcast_row_apply]
  rfl

end Cert.KernelIdeal.Body

end
-- ==== Proof.Array1.lean ====
/-
  The second kernel region, from blocks to arrays: each of the grid's ten points takes 5000 consecutive rows of the two
  aggregated arrays and of the hidden state, and the bias rows and right weights whole; what it writes back is the same
  rows of the embedding of the whole arrays, and the ten blocks cover the output.
-/
import proofs.«106045_j46145128628314_2_alg».proof.Proof.Gen.KernelIdeal.Frame
import proofs.«106045_j46145128628314_2_alg».proof.Proof.Layers
import proofs.«106045_j46145128628314_2_alg».proof.Proof.BodyLayer2
import Idealize.ShloMosaic.Lib.ValueIdx
import Idealize.ShloMosaic.Lib.Pipeline.Value

set_option maxRecDepth 16384

noncomputable section

namespace Cert.KernelIdeal.Arrays1

open Idealize.ShloMosaic Idealize.ShloMosaic.ValueIdx Idealize.ShloMosaic.TcCoe Idealize.SL.Sem
open Cert.KernelIdeal Cert.KernelIdeal.Gen Cert.Sage
open Idealize.ShloMosaic.Pipeline (Dat Cfg Window)

theorem hz1 : (![0, 0] : Fin 2 → Nat) = fun _ => 0 := funext fun a => by fin_cases a <;> rfl

/-- The printed index maps over the grid: a row-tiled window's block index is the point's number along the rows and 0 along the columns; a whole-array window's is 0 on both axes. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- The array row that row `y` of point `t`'s block is. -/
def rowAt1 (t : Fin cfg1.N) (y : Fin 5000) : Fin 50000 :=
  ⟨5000 * t.val + y.val, by have h : t.val < 10 := (show t.val < grid1.N from t.isLt).trans_eq N_1; have := y.isLt; omega⟩

theorem emb1_0 (t : Fin cfg1.N) (y : Fin 5000) (k : Fin 64) :
    ((cfg1.win 0).blk t).view.emb (ix2 y k) = ix2 (rowAt1 t y) k := by
  obtain ⟨e0, e1⟩ := (idx1 t).1
  funext a; apply Fin.ext
  match a with
  | ⟨0, _⟩ => show win1_0.index t (0 : Fin 2) * 5000 + 1 * y.val = 5000 * t.val + y.val; omega
  | ⟨1, _⟩ => show win1_0.index t (1 : Fin 2) * 64 + 1 * k.val = k.val; omega

theorem emb1_1 (t : Fin cfg1.N) (y : Fin 5000) (k : Fin 64) :
    ((cfg1.win 1).blk t).view.emb (ix2 y k) = ix2 (rowAt1 t y) k := by
  obtain ⟨e0, e1⟩ := (idx1 t).2.1
  funext a; apply Fin.ext
  match a with
  | ⟨0, _⟩ => show win1_1.index t (0 : Fin 2) * 5000 + 1 * y.val = 5000 * t.val + y.val; omega
  | ⟨1, _⟩ => show win1_1.index t (1 : Fin 2) * 64 + 1 * k.val = k.val; omega

theorem emb1_2 (t : Fin cfg1.N) (y : Fin 5000) (k : Fin 128) :
    ((cfg1.win 2).blk t).view.emb (ix2 y k) = ix2 (rowAt1 t y) k := by
  obtain ⟨e0, e1⟩ := (idx1 t).2.2.1
  funext a; apply Fin.ext
  match a with
  | ⟨0, _⟩ => show win1_2.index t (0 : Fin 2) * 5000 + 1 * y.val = 5000 * t.val + y.val; omega
  | ⟨1, _⟩ => show win1_2.index t (1 : Fin 2) * 128 + 1 * k.val = k.val; omega

theorem emb1_3 (t : Fin cfg1.N) (p : Fin 1) (q : Fin 64) :
    ((cfg1.win 3).blk t).view.emb (ix2 p q) = ix2 p q := by
  obtain ⟨e0, e1⟩ := (idx1 t).2.2.2.1
  funext a; apply Fin.ext
  match a with
  | ⟨0, _⟩ => show win1_3.index t (0 : Fin 2) * 1 + 1 * p.val = p.val; omega
  | ⟨1, _⟩ => show win1_3.index t (1 : Fin 2) * 64 + 1 * q.val = q.val; omega

theorem emb1_4 (t : Fin cfg1.N) (p : Fin 128) (q : Fin 64) :
    ((cfg1.win 4).blk t).view.emb (ix2 p q) = ix2 p q := by
  obtain ⟨e0, e1⟩ := (idx1 t).2.2.2.2.1
  funext a; apply Fin.ext
  match a with
  | ⟨0, _⟩ => show win1_4.index t (0 : Fin 2) * 128 + 1 * p.val = p.val; omega
  | ⟨1, _⟩ => show win1_4.index t (1 : Fin 2) * 64 + 1 * q.val = q.val; omega

theorem emb1_5 (t : Fin cfg1.N) (p : Fin 1) (q : Fin 64) :
    ((cfg1.win 5).blk t).view.emb (ix2 p q) = ix2 p q := by
  obtain ⟨e0, e1⟩ := (idx1 t).2.2.2.2.2.1
  funext a; apply Fin.ext
  match a with
  | ⟨0, _⟩ => show win1_5.index t (0 : Fin 2) * 1 + 1 * p.val = p.val; omega
  | ⟨1, _⟩ => show win1_5.index t (1 : Fin 2) * 64 + 1 * q.val = q.val; omega

theorem emb1_6 (t : Fin cfg1.N) (p : Fin 128) (q : Fin 64) :
    ((cfg1.win 6).blk t).view.emb (ix2 p q) = ix2 p q := by
  obtain ⟨e0, e1⟩ := (idx1 t).2.2.2.2.2.2.1
  funext a; apply Fin.ext
  match a with
  | ⟨0, _⟩ => show win1_6.index t (0 : Fin 2) * 128 + 1 * p.val = p.val; omega
  | ⟨1, _⟩ => show win1_6.index t (1 : Fin 2) * 64 + 1 * q.val = q.val; omega

theorem emb1_7 (t : Fin cfg1.N) (y : Fin 5000) (k : Fin 64) :
    ((cfg1.win 7).blk t).view.emb (ix2 y k) = ix2 (rowAt1 t y) k := by
  obtain ⟨e0, e1⟩ := (idx1 t).2.2.2.2.2.2.2
  funext a; apply Fin.ext
  match a with
  | ⟨0, _⟩ => show win1_7.index t (0 : Fin 2) * 5000 + 1 * y.val = 5000 * t.val + y.val; omega
  | ⟨1, _⟩ => show win1_7.index t (1 : Fin 2) * 64 + 1 * k.val = k.val; omega

section Region1

variable (V : (c : Dev nD) → (b : Ref sig .tc) → Buf (Elt Ideal) ((c : Thread nD τ).loc b))

theorem blk1_0 (c : Dev nD) (t : Fin cfg1.N) (y : Fin 5000) :
    row (α := EReal) (r := 5000) (k := 64) (iblk1 V c 0 t) y = row (V c main_v57) (rowAt1 t y) :=
  funext fun k => congrArg (V c main_v57) (emb1_0 t y k)

theorem blk1_1 (c : Dev nD) (t : Fin cfg1.N) (y : Fin 5000) :
    row (α := EReal) (r := 5000) (k := 64) (iblk1 V c 1 t) y = row (V c main_v69) (rowAt1 t y) :=
  funext fun k => congrArg (V c main_v69) (emb1_1 t y k)

theorem blk1_2 (c : Dev nD) (t : Fin cfg1.N) (y : Fin 5000) :
    row (α := EReal) (r := 5000) (k := 128) (iblk1 V c 2 t) y = row (V c main_v45_0) (rowAt1 t y) :=
  funext fun k => congrArg (V c main_v45_0) (emb1_2 t y k)

theorem blk1_3 (c : Dev nD) (t : Fin cfg1.N) :
    vec1 (α := EReal) (n := 64) (iblk1 V c 3 t) = vec1 (V c main_v70) :=
  funext fun q => congrArg (V c main_v70) (emb1_3 t 0 q)

theorem blk1_4 (c : Dev nD) (t : Fin cfg1.N) :
    mat (α := EReal) (k := 128) (n := 64) (iblk1 V c 4 t) = mat (V c main_arg13) :=
  funext fun p => funext fun q => congrArg (V c main_arg13) (emb1_4 t p q)

theorem blk1_5 (c : Dev nD) (t : Fin cfg1.N) :
    vec1 (α := EReal) (n := 64) (iblk1 V c 5 t) = vec1 (V c main_v71) :=
  funext fun q => congrArg (V c main_v71) (emb1_5 t 0 q)

theorem blk1_6 (c : Dev nD) (t : Fin cfg1.N) :
    mat (α := EReal) (k := 128) (n := 64) (iblk1 V c 6 t) = mat (V c main_arg16) :=
  funext fun p => funext fun q => congrArg (V c main_arg16) (emb1_6 t p q)

/-- The embedding of the whole arrays as the region finds them. -/
def Z1 (c : Dev nD) : S50000x64.Idx → EReal :=
  embed (V c main_v57) (V c main_v69) (V c main_v45_0) (V c main_v70) (V c main_arg13) (V c main_v71) (V c main_arg16)

theorem flushed1_7 (c : Dev nD) (t : Fin cfg1.N) :
    (dat1 V c).flushed 7 t = ((cfg1.win 7).blk t).view.read (Elt Ideal) (Z1 V c) := by
  show (cfg1.win 7).cut (grid1.coords t) ((dat1 V c).after 7 t) = _
  rw [after1_7]
  unfold out1_7
  rw [View.canon_unit_zero hz1]
  simp only [View.ld_unit_zero (S := S5000x64) hz1, View.ld_unit_zero (S := S5000x128) hz1, View.ld_unit_zero (S := S1x64) hz1, View.ld_unit_zero (S := S128x64) hz1]
  funext j
  obtain ⟨y, q, rfl⟩ : ∃ (y : Fin 5000) (q : Fin 64), j = ix2 y q := ⟨j 0, j 1, eq_ix2 j⟩
  refine (Body.layer2_apply _ _ _ _ _ _ _ y q).trans ?_
  refine Eq.trans ?_ (congrArg (Z1 V c) (emb1_7 t y q).symm)
  rw [blk1_0, blk1_1, blk1_2, blk1_3, blk1_4, blk1_5, blk1_6]
  rfl

/-- The blocks of output window 7 cover its array: row `p` lies in the block of point `p / 5000`. -/
theorem mem_blk1_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v72).slice (win1_7.rect t)).set ↔ _
  rw [View.set_slice_whole, Rect.mem_set_unit]
  exact Iff.rfl

theorem cover1_7_all (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  refine ⟨⟨(i 0).val / 5000, by rw [show cfg1.N = _ from N_1]; omega⟩, flush1_7 _, ?_⟩
  rw [mem_blk1_7]
  intro a
  match a with
  | ⟨0, _⟩ =>
    have e := (idx1 ⟨(i 0).val / 5000, by rw [show cfg1.N = _ from N_1]; omega⟩).2.2.2.2.2.2.2.1
    show win1_7.index _ (0 : Fin 2) * 5000 ≤ (i 0).val ∧ (i 0).val < win1_7.index _ (0 : Fin 2) * 5000 + 5000
    rw [e]; show (i 0).val / 5000 * 5000 ≤ (i 0).val ∧ (i 0).val < (i 0).val / 5000 * 5000 + 5000; omega
  | ⟨1, _⟩ =>
    have e := (idx1 ⟨(i 0).val / 5000, by rw [show cfg1.N = _ from N_1]; omega⟩).2.2.2.2.2.2.2.2
    show win1_7.index _ (1 : Fin 2) * 64 ≤ (i 1).val ∧ (i 1).val < win1_7.index _ (1 : Fin 2) * 64 + 64
    rw [e]; omega

theorem final1_7 (c : Dev nD) : (dat1 V c).arrAt 7 cfg1.N = Z1 V c :=
  (dat1 V c).arrAt_eq_of_cover 7 (Z1 V c) (fun t _ => flushed1_7 V c t) cover1_7_all

end Region1

end Cert.KernelIdeal.Arrays1

end
-- ==== Proof.BodyDecoder.lean ====
/-
  The third kernel's body at one entry. For a block of rows of the two end points' embeddings, entry `(y, q)` of what
  the body stores is the three decoder layers applied to row `y` of the two blocks: `dec1` (the two rows and their
  product against three 64×64 matrices, a bias, the clamp), a clamped dense layer, and an affine layer.
-/
import proofs.«106045_j46145128628314_2_alg».proof.Proof.Gen.KernelIdeal.Skeleton
import proofs.«106045_j46145128628314_2_alg».proof.Proof.Spec
import proofs.«106045_j46145128628314_2_alg».proof.Proof.Rows
import proofs.«106045_j46145128628314_2_alg».proof.Proof.LibBlockReads
import proofs.«106045_j46145128628314_2_alg».proof.Proof.LibRowReductions
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Sage
open Cert.Lib.BlockReads Cert.Lib.RowReductions

theorem decoder_apply (v0 v2 : Vec Ideal S2000x64 .f32) (v5 v8 v12 : Vec Ideal S64x64 .f32) (v16 : Vec Ideal S1x64 .f32)
    (v22 : Vec Ideal S64x32 .f32) (v24 : Vec Ideal S1x32 .f32) (v30 : Vec Ideal S32x128 .f32) (v33 : Vec Ideal S1x128 .f32)
    (y : Fin 2000) (q : Fin 128) :
    k2_pay1 (F := Ideal) (k2_pay2 v0 v2 v5 v8 v12 v16 v22 v24 v30) v33 (ix2 y q)
      = affine (dense (dec1 (row v0 y) (row v2 y) (mat v5) (mat v8) (mat v12) (vec1 v16)) (mat v22) (vec1 v24)) (mat v30) (vec1 v33) q := by
  simp only [k2_pay1, k2_pay2]
  simp only [shapeCast_self, addf_apply, maximumf_apply, mulf_apply, broadcast_row_apply, broadcast_apply,
    matmul_zero_rows_apply dot_S2000x64_S64x64_S2000x64_1_0_0_1_n_n rfl rfl rfl rfl rfl rfl,
    matmul_zero_rows_apply dot_S2000x64_S64x32_S2000x32_1_0_0_1_n_n rfl rfl rfl rfl rfl rfl,
    matmul_zero_rows_apply dot_S2000x32_S32x128_S2000x128_1_0_0_1_n_n rfl rfl rfl rfl rfl rfl,
    show (Scalar.ofBits (F := Ideal) .f32 0x00000000#32 : Ideal .f32) = (0 : EReal) from Ideal.ofBits_zero_f32]
  rfl

end Cert.KernelIdeal.Body

end
-- ==== Proof.Array2.lean ====
/-
  The third kernel region, from blocks to arrays: each of the grid's fifty points takes 2000 consecutive rows of the two
  end points' embeddings and every weight and bias array whole; what it writes back is the same rows of the decoder of
  the whole arrays, and the fifty blocks cover the output.
-/
import proofs.«106045_j46145128628314_2_alg».proof.Proof.Gen.KernelIdeal.Frame
import proofs.«106045_j46145128628314_2_alg».proof.Proof.Layers
import proofs.«106045_j46145128628314_2_alg».proof.Proof.BodyDecoder
import Idealize.ShloMosaic.Lib.ValueIdx
import Idealize.ShloMosaic.Lib.Pipeline.Value

set_option maxRecDepth 16384

noncomputable section

namespace Cert.KernelIdeal.Arrays2

open Idealize.ShloMosaic Idealize.ShloMosaic.ValueIdx Idealize.ShloMosaic.TcCoe Idealize.SL.Sem
open Cert.KernelIdeal Cert.KernelIdeal.Gen Cert.Sage
open Idealize.ShloMosaic.Pipeline (Dat Cfg Window)

theorem hz2 : (![0, 0] : Fin 2 → Nat) = fun _ => 0 := funext fun a => by fin_cases a <;> rfl

/-- The printed index maps over the grid: a row-tiled window's block index is the point's number along the rows and 0 along the columns; a whole-array window's is 0 on both axes. -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

/-- The array row that row `y` of point `t`'s block is. -/
def rowAt2 (t : Fin cfg2.N) (y : Fin 2000) : Fin 100000 :=
  ⟨2000 * t.val + y.val, by have h : t.val < 50 := (show t.val < grid2.N from t.isLt).trans_eq N_2; have := y.isLt; omega⟩

theorem emb2_0 (t : Fin cfg2.N) (y : Fin 2000) (k : Fin 64) :
    ((cfg2.win 0).blk t).view.emb (ix2 y k) = ix2 (rowAt2 t y) k := by
  obtain ⟨e0, e1⟩ := (idx2 t).1
  funext a; apply Fin.ext
  match a with
  | ⟨0, _⟩ => show win2_0.index t (0 : Fin 2) * 2000 + 1 * y.val = 2000 * t.val + y.val; omega
  | ⟨1, _⟩ => show win2_0.index t (1 : Fin 2) * 64 + 1 * k.val = k.val; omega

theorem emb2_1 (t : Fin cfg2.N) (y : Fin 2000) (k : Fin 64) :
    ((cfg2.win 1).blk t).view.emb (ix2 y k) = ix2 (rowAt2 t y) k := by
  obtain ⟨e0, e1⟩ := (idx2 t).2.1
  funext a; apply Fin.ext
  match a with
  | ⟨0, _⟩ => show win2_1.index t (0 : Fin 2) * 2000 + 1 * y.val = 2000 * t.val + y.val; omega
  | ⟨1, _⟩ => show win2_1.index t (1 : Fin 2) * 64 + 1 * k.val = k.val; omega

theorem emb2_2 (t : Fin cfg2.N) (p : Fin 64) (q : Fin 64) :
    ((cfg2.win 2).blk t).view.emb (ix2 p q) = ix2 p q := by
  obtain ⟨e0, e1⟩ := (idx2 t).2.2.1
  funext a; apply Fin.ext
  match a with
  | ⟨0, _⟩ => show win2_2.index t (0 : Fin 2) * 64 + 1 * p.val = p.val; omega
  | ⟨1, _⟩ => show win2_2.index t (1 : Fin 2) * 64 + 1 * q.val = q.val; omega

theorem emb2_3 (t : Fin cfg2.N) (p : Fin 64) (q : Fin 64) :
    ((cfg2.win 3).blk t).view.emb (ix2 p q) = ix2 p q := by
  obtain ⟨e0, e1⟩ := (idx2 t).2.2.2.1
  funext a; apply Fin.ext
  match a with
  | ⟨0, _⟩ => show win2_3.index t (0 : Fin 2) * 64 + 1 * p.val = p.val; omega
  | ⟨1, _⟩ => show win2_3.index t (1 : Fin 2) * 64 + 1 * q.val = q.val; omega

theorem emb2_4 (t : Fin cfg2.N) (p : Fin 64) (q : Fin 64) :
    ((cfg2.win 4).blk t).view.emb (ix2 p q) = ix2 p q := by
  obtain ⟨e0, e1⟩ := (idx2 t).2.2.2.2.1
  funext a; apply Fin.ext
  match a with
  | ⟨0, _⟩ => show win2_4.index t (0 : Fin 2) * 64 + 1 * p.val = p.val; omega
  | ⟨1, _⟩ => show win2_4.index t (1 : Fin 2) * 64 + 1 * q.val = q.val; omega

theorem emb2_5 (t : Fin cfg2.N) (p : Fin 1) (q : Fin 64) :
    ((cfg2.win 5).blk t).view.emb (ix2 p q) = ix2 p q := by
  obtain ⟨e0, e1⟩ := (idx2 t).2.2.2.2.2.1
  funext a; apply Fin.ext
  match a with
  | ⟨0, _⟩ => show win2_5.index t (0 : Fin 2) * 1 + 1 * p.val = p.val; omega
  | ⟨1, _⟩ => show win2_5.index t (1 : Fin 2) * 64 + 1 * q.val = q.val; omega

theorem emb2_6 (t : Fin cfg2.N) (p : Fin 64) (q : Fin 32) :
    ((cfg2.win 6).blk t).view.emb (ix2 p q) = ix2 p q := by
  obtain ⟨e0, e1⟩ := (idx2 t).2.2.2.2.2.2.1
  funext a; apply Fin.ext
  match a with
  | ⟨0, _⟩ => show win2_6.index t (0 : Fin 2) * 64 + 1 * p.val = p.val; omega
  | ⟨1, _⟩ => show win2_6.index t (1 : Fin 2) * 32 + 1 * q.val = q.val; omega

theorem emb2_7 (t : Fin cfg2.N) (p : Fin 1) (q : Fin 32) :
    ((cfg2.win 7).blk t).view.emb (ix2 p q) = ix2 p q := by
  obtain ⟨e0, e1⟩ := (idx2 t).2.2.2.2.2.2.2.1
  funext a; apply Fin.ext
  match a with
  | ⟨0, _⟩ => show win2_7.index t (0 : Fin 2) * 1 + 1 * p.val = p.val; omega
  | ⟨1, _⟩ => show win2_7.index t (1 : Fin 2) * 32 + 1 * q.val = q.val; omega

theorem emb2_8 (t : Fin cfg2.N) (p : Fin 32) (q : Fin 128) :
    ((cfg2.win 8).blk t).view.emb (ix2 p q) = ix2 p q := by
  obtain ⟨e0, e1⟩ := (idx2 t).2.2.2.2.2.2.2.2.1
  funext a; apply Fin.ext
  match a with
  | ⟨0, _⟩ => show win2_8.index t (0 : Fin 2) * 32 + 1 * p.val = p.val; omega
  | ⟨1, _⟩ => show win2_8.index t (1 : Fin 2) * 128 + 1 * q.val = q.val; omega

theorem emb2_9 (t : Fin cfg2.N) (p : Fin 1) (q : Fin 128) :
    ((cfg2.win 9).blk t).view.emb (ix2 p q) = ix2 p q := by
  obtain ⟨e0, e1⟩ := (idx2 t).2.2.2.2.2.2.2.2.2.1
  funext a; apply Fin.ext
  match a with
  | ⟨0, _⟩ => show win2_9.index t (0 : Fin 2) * 1 + 1 * p.val = p.val; omega
  | ⟨1, _⟩ => show win2_9.index t (1 : Fin 2) * 128 + 1 * q.val = q.val; omega

theorem emb2_10 (t : Fin cfg2.N) (y : Fin 2000) (k : Fin 128) :
    ((cfg2.win 10).blk t).view.emb (ix2 y k) = ix2 (rowAt2 t y) k := by
  obtain ⟨e0, e1⟩ := (idx2 t).2.2.2.2.2.2.2.2.2.2
  funext a; apply Fin.ext
  match a with
  | ⟨0, _⟩ => show win2_10.index t (0 : Fin 2) * 2000 + 1 * y.val = 2000 * t.val + y.val; omega
  | ⟨1, _⟩ => show win2_10.index t (1 : Fin 2) * 128 + 1 * k.val = k.val; omega

section Region2

variable (V : (c : Dev nD) → (b : Ref sig .tc) → Buf (Elt Ideal) ((c : Thread nD τ).loc b))

theorem blk2_0 (c : Dev nD) (t : Fin cfg2.N) (y : Fin 2000) :
    row (α := EReal) (r := 2000) (k := 64) (iblk2 V c 0 t) y = row (V c main_v81) (rowAt2 t y) :=
  funext fun k => congrArg (V c main_v81) (emb2_0 t y k)

theorem blk2_1 (c : Dev nD) (t : Fin cfg2.N) (y : Fin 2000) :
    row (α := EReal) (r := 2000) (k := 64) (iblk2 V c 1 t) y = row (V c main_v90) (rowAt2 t y) :=
  funext fun k => congrArg (V c main_v90) (emb2_1 t y k)

theorem blk2_2 (c : Dev nD) (t : Fin cfg2.N) :
    mat (α := EReal) (k := 64) (n := 64) (iblk2 V c 2 t) = mat (V c main_v91) :=
  funext fun p => funext fun q => congrArg (V c main_v91) (emb2_2 t p q)

theorem blk2_3 (c : Dev nD) (t : Fin cfg2.N) :
    mat (α := EReal) (k := 64) (n := 64) (iblk2 V c 3 t) = mat (V c main_v92) :=
  funext fun p => funext fun q => congrArg (V c main_v92) (emb2_3 t p q)

theorem blk2_4 (c : Dev nD) (t : Fin cfg2.N) :
    mat (α := EReal) (k := 64) (n := 64) (iblk2 V c 4 t) = mat (V c main_v93) :=
  funext fun p => funext fun q => congrArg (V c main_v93) (emb2_4 t p q)

theorem blk2_5 (c : Dev nD) (t : Fin cfg2.N) :
    vec1 (α := EReal) (n := 64) (iblk2 V c 5 t) = vec1 (V c main_v97) :=
  funext fun q => congrArg (V c main_v97) (emb2_5 t 0 q)

theorem blk2_6 (c : Dev nD) (t : Fin cfg2.N) :
    mat (α := EReal) (k := 64) (n := 32) (iblk2 V c 6 t) = mat (V c main_arg19) :=
  funext fun p => funext fun q => congrArg (V c main_arg19) (emb2_6 t p q)

theorem blk2_7 (c : Dev nD) (t : Fin cfg2.N) :
    vec1 (α := EReal) (n := 32) (iblk2 V c 7 t) = vec1 (V c main_v98) :=
  funext fun q => congrArg (V c main_v98) (emb2_7 t 0 q)

theorem blk2_8 (c : Dev nD) (t : Fin cfg2.N) :
    mat (α := EReal) (k := 32) (n := 128) (iblk2 V c 8 t) = mat (V c main_v94) :=
  funext fun p => funext fun q => congrArg (V c main_v94) (emb2_8 t p q)

theorem blk2_9 (c : Dev nD) (t : Fin cfg2.N) :
    vec1 (α := EReal) (n := 128) (iblk2 V c 9 t) = vec1 (V c main_v96) :=
  funext fun q => congrArg (V c main_v96) (emb2_9 t 0 q)

/-- The decoder of the whole arrays as the region finds them. -/
def OUT2 (c : Dev nD) : S100000x128.Idx → EReal :=
  decode (n := 128) (V c main_v81) (V c main_v90) (V c main_v91) (V c main_v92) (V c main_v93) (V c main_v97) (V c main_arg19)
    (V c main_v98) (V c main_v94) (V c main_v96)

theorem flushed2_10 (c : Dev nD) (t : Fin cfg2.N) :
    (dat2 V c).flushed 10 t = ((cfg2.win 10).blk t).view.read (Elt Ideal) (OUT2 V c) := by
  show (cfg2.win 10).cut (grid2.coords t) ((dat2 V c).after 10 t) = _
  rw [after2_10]
  unfold out2_10
  rw [View.canon_unit_zero hz2]
  simp only [View.ld_unit_zero (S := S2000x64) hz2, View.ld_unit_zero (S := S64x64) hz2, View.ld_unit_zero (S := S1x64) hz2, View.ld_unit_zero (S := S64x32) hz2, View.ld_unit_zero (S := S1x32) hz2, View.ld_unit_zero (S := S32x128) hz2, View.ld_unit_zero (S := S1x128) hz2]
  funext j
  obtain ⟨y, q, rfl⟩ : ∃ (y : Fin 2000) (q : Fin 128), j = ix2 y q := ⟨j 0, j 1, eq_ix2 j⟩
  refine (Body.decoder_apply _ _ _ _ _ _ _ _ _ _ y q).trans ?_
  refine Eq.trans ?_ (congrArg (OUT2 V c) (emb2_10 t y q).symm)
  rw [blk2_0, blk2_1, blk2_2, blk2_3, blk2_4, blk2_5, blk2_6, blk2_7, blk2_8, blk2_9]
  rfl

/-- The blocks of output window 10 cover its array: row `p` lies in the block of point `p / 2000`. -/
theorem mem_blk2_10 (t : Fin cfg2.N) (i : S100000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v99).slice (win2_10.rect t)).set ↔ _
  rw [View.set_slice_whole, Rect.mem_set_unit]
  exact Iff.rfl

theorem cover2_10_all (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  refine ⟨⟨(i 0).val / 2000, by rw [show cfg2.N = _ from N_2]; omega⟩, flush2_10 _, ?_⟩
  rw [mem_blk2_10]
  intro a
  match a with
  | ⟨0, _⟩ =>
    have e := (idx2 ⟨(i 0).val / 2000, by rw [show cfg2.N = _ from N_2]; omega⟩).2.2.2.2.2.2.2.2.2.2.1
    show win2_10.index _ (0 : Fin 2) * 2000 ≤ (i 0).val ∧ (i 0).val < win2_10.index _ (0 : Fin 2) * 2000 + 2000
    rw [e]; show (i 0).val / 2000 * 2000 ≤ (i 0).val ∧ (i 0).val < (i 0).val / 2000 * 2000 + 2000; omega
  | ⟨1, _⟩ =>
    have e := (idx2 ⟨(i 0).val / 2000, by rw [show cfg2.N = _ from N_2]; omega⟩).2.2.2.2.2.2.2.2.2.2.2
    show win2_10.index _ (1 : Fin 2) * 128 ≤ (i 1).val ∧ (i 1).val < win2_10.index _ (1 : Fin 2) * 128 + 128
    rw [e]; omega

theorem final2_10 (c : Dev nD) : (dat2 V c).arrAt 10 cfg2.N = OUT2 V c :=
  (dat2 V c).arrAt_eq_of_cover 10 (OUT2 V c) (fun t _ => flushed2_10 V c t) cover2_10_all

end Region2

end Cert.KernelIdeal.Arrays2

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.KernelRun.lean ====
/-
  The kernel program's run, read. Its @main is three kernel regions among stretches of host operations; the buffer
  contents at each boundary are a fold from the launch memory. Here each boundary's contents are read at the buffers the
  next segment uses, as the host-side functions of `KernelVal` and the whole-array stages of `Layers` applied to the
  previous boundary's contents, down to the program's result as a function of the launch memory.
-/
import proofs.«106045_j46145128628314_2_alg».proof.Proof.Gen.KernelIdeal.Frame
import proofs.«106045_j46145128628314_2_alg».proof.Proof.KernelVal
import proofs.«106045_j46145128628314_2_alg».proof.Proof.Array0
import proofs.«106045_j46145128628314_2_alg».proof.Proof.Array1
import proofs.«106045_j46145128628314_2_alg».proof.Proof.Array2
import proofs.«106045_j46145128628314_2_alg».proof.Proof.LibTypedRefs
import Idealize.ShloMosaic.Lib.StableHlo.Run

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen Cert.KernelIdeal.Val Cert.Sage

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-! ## After the first host stretch -/

theorem W1_v1 (c : Dev nD) : W1 m ρ c (Proc.devRef .tc main_v1) = srcOf (arg m c main_arg1) := by
  show StableHlo.after hostOps0 (W0 m ρ c) (Proc.devRef .tc main_v1) = _
  dsimp only [hostOps0]
  after_results_simp <;> rfl
theorem W1_v3 (c : Dev nD) : W1 m ρ c (Proc.devRef .tc main_v3) = dstOf (arg m c main_arg1) := by
  show StableHlo.after hostOps0 (W0 m ρ c) (Proc.devRef .tc main_v3) = _
  dsimp only [hostOps0]
  after_results_simp <;> rfl
theorem W1_v10 (c : Dev nD) : W1 m ρ c (Proc.devRef .tc main_v10) = countCol (dstOf (arg m c main_arg1)) := by
  show StableHlo.after hostOps0 (W0 m ρ c) (Proc.devRef .tc main_v10) = _
  dsimp only [hostOps0]
  after_results_simp <;> rfl
theorem W1_v16 (c : Dev nD) : W1 m ρ c (Proc.devRef .tc main_v16) = countCol (srcOf (arg m c main_arg1)) := by
  show StableHlo.after hostOps0 (W0 m ρ c) (Proc.devRef .tc main_v16) = _
  dsimp only [hostOps0]
  after_results_simp <;> rfl
theorem W1_v28 (c : Dev nD) : W1 m ρ c (Proc.devRef .tc main_v28) = aggF (arg m c main_arg0) (arg m c main_arg1) := by
  show StableHlo.after hostOps0 (W0 m ρ c) (Proc.devRef .tc main_v28) = _
  dsimp only [hostOps0]
  after_results_simp <;> rfl
theorem W1_v40 (c : Dev nD) : W1 m ρ c (Proc.devRef .tc main_v40) = aggR (arg m c main_arg0) (arg m c main_arg1) := by
  show StableHlo.after hostOps0 (W0 m ρ c) (Proc.devRef .tc main_v40) = _
  dsimp only [hostOps0]
  after_results_simp <;> rfl
theorem W1_v41 (c : Dev nD) : W1 m ρ c (Proc.devRef .tc main_v41) = row128 (arg m c main_arg4) := by
  show StableHlo.after hostOps0 (W0 m ρ c) (Proc.devRef .tc main_v41) = _
  dsimp only [hostOps0]
  after_results_simp <;> rfl
theorem W1_v42 (c : Dev nD) : W1 m ρ c (Proc.devRef .tc main_v42) = row128 (arg m c main_arg7) := by
  show StableHlo.after hostOps0 (W0 m ρ c) (Proc.devRef .tc main_v42) = _
  dsimp only [hostOps0]
  after_results_simp <;> rfl
theorem W1_v43 (c : Dev nD) : W1 m ρ c (Proc.devRef .tc main_v43) = row128 (arg m c main_arg9) := by
  show StableHlo.after hostOps0 (W0 m ρ c) (Proc.devRef .tc main_v43) = _
  dsimp only [hostOps0]
  after_results_simp <;> rfl
theorem W1_v44 (c : Dev nD) : W1 m ρ c (Proc.devRef .tc main_v44) = row128 (arg m c main_arg10) := by
  show StableHlo.after hostOps0 (W0 m ρ c) (Proc.devRef .tc main_v44) = _
  dsimp only [hostOps0]
  after_results_simp <;> rfl
theorem W1_arg0 (c : Dev nD) : W1 m ρ c (Proc.devRef .tc main_arg0) = (arg m c main_arg0) := by
  show StableHlo.after hostOps0 (W0 m ρ c) (Proc.devRef .tc main_arg0) = _
  dsimp only [hostOps0]
  after_results_simp <;> rfl
theorem W1_arg2 (c : Dev nD) : W1 m ρ c (Proc.devRef .tc main_arg2) = (arg m c main_arg2) := by
  show StableHlo.after hostOps0 (W0 m ρ c) (Proc.devRef .tc main_arg2) = _
  dsimp only [hostOps0]
  after_results_simp <;> rfl
theorem W1_arg3 (c : Dev nD) : W1 m ρ c (Proc.devRef .tc main_arg3) = (arg m c main_arg3) := by
  show StableHlo.after hostOps0 (W0 m ρ c) (Proc.devRef .tc main_arg3) = _
  dsimp only [hostOps0]
  after_results_simp <;> rfl
theorem W1_arg5 (c : Dev nD) : W1 m ρ c (Proc.devRef .tc main_arg5) = (arg m c main_arg5) := by
  show StableHlo.after hostOps0 (W0 m ρ c) (Proc.devRef .tc main_arg5) = _
  dsimp only [hostOps0]
  after_results_simp <;> rfl
theorem W1_arg6 (c : Dev nD) : W1 m ρ c (Proc.devRef .tc main_arg6) = (arg m c main_arg6) := by
  show StableHlo.after hostOps0 (W0 m ρ c) (Proc.devRef .tc main_arg6) = _
  dsimp only [hostOps0]
  after_results_simp <;> rfl
theorem W1_arg8 (c : Dev nD) : W1 m ρ c (Proc.devRef .tc main_arg8) = (arg m c main_arg8) := by
  show StableHlo.after hostOps0 (W0 m ρ c) (Proc.devRef .tc main_arg8) = _
  dsimp only [hostOps0]
  after_results_simp <;> rfl
theorem W1_arg11 (c : Dev nD) : W1 m ρ c (Proc.devRef .tc main_arg11) = (arg m c main_arg11) := by
  show StableHlo.after hostOps0 (W0 m ρ c) (Proc.devRef .tc main_arg11) = _
  dsimp only [hostOps0]
  after_results_simp <;> rfl
theorem W1_arg12 (c : Dev nD) : W1 m ρ c (Proc.devRef .tc main_arg12) = (arg m c main_arg12) := by
  show StableHlo.after hostOps0 (W0 m ρ c) (Proc.devRef .tc main_arg12) = _
  dsimp only [hostOps0]
  after_results_simp <;> rfl
theorem W1_arg13 (c : Dev nD) : W1 m ρ c (Proc.devRef .tc main_arg13) = (arg m c main_arg13) := by
  show StableHlo.after hostOps0 (W0 m ρ c) (Proc.devRef .tc main_arg13) = _
  dsimp only [hostOps0]
  after_results_simp <;> rfl
theorem W1_arg14 (c : Dev nD) : W1 m ρ c (Proc.devRef .tc main_arg14) = (arg m c main_arg14) := by
  show StableHlo.after hostOps0 (W0 m ρ c) (Proc.devRef .tc main_arg14) = _
  dsimp only [hostOps0]
  after_results_simp <;> rfl
theorem W1_arg15 (c : Dev nD) : W1 m ρ c (Proc.devRef .tc main_arg15) = (arg m c main_arg15) := by
  show StableHlo.after hostOps0 (W0 m ρ c) (Proc.devRef .tc main_arg15) = _
  dsimp only [hostOps0]
  after_results_simp <;> rfl
theorem W1_arg16 (c : Dev nD) : W1 m ρ c (Proc.devRef .tc main_arg16) = (arg m c main_arg16) := by
  show StableHlo.after hostOps0 (W0 m ρ c) (Proc.devRef .tc main_arg16) = _
  dsimp only [hostOps0]
  after_results_simp <;> rfl
theorem W1_arg17 (c : Dev nD) : W1 m ρ c (Proc.devRef .tc main_arg17) = (arg m c main_arg17) := by
  show StableHlo.after hostOps0 (W0 m ρ c) (Proc.devRef .tc main_arg17) = _
  dsimp only [hostOps0]
  after_results_simp <;> rfl
theorem W1_arg18 (c : Dev nD) : W1 m ρ c (Proc.devRef .tc main_arg18) = (arg m c main_arg18) := by
  show StableHlo.after hostOps0 (W0 m ρ c) (Proc.devRef .tc main_arg18) = _
  dsimp only [hostOps0]
  after_results_simp <;> rfl
theorem W1_arg19 (c : Dev nD) : W1 m ρ c (Proc.devRef .tc main_arg19) = (arg m c main_arg19) := by
  show StableHlo.after hostOps0 (W0 m ρ c) (Proc.devRef .tc main_arg19) = _
  dsimp only [hostOps0]
  after_results_simp <;> rfl
theorem W1_arg20 (c : Dev nD) : W1 m ρ c (Proc.devRef .tc main_arg20) = (arg m c main_arg20) := by
  show StableHlo.after hostOps0 (W0 m ρ c) (Proc.devRef .tc main_arg20) = _
  dsimp only [hostOps0]
  after_results_simp <;> rfl
theorem W1_arg21 (c : Dev nD) : W1 m ρ c (Proc.devRef .tc main_arg21) = (arg m c main_arg21) := by
  show StableHlo.after hostOps0 (W0 m ρ c) (Proc.devRef .tc main_arg21) = _
  dsimp only [hostOps0]
  after_results_simp <;> rfl
theorem W1_arg22 (c : Dev nD) : W1 m ρ c (Proc.devRef .tc main_arg22) = (arg m c main_arg22) := by
  show StableHlo.after hostOps0 (W0 m ρ c) (Proc.devRef .tc main_arg22) = _
  dsimp only [hostOps0]
  after_results_simp <;> rfl

/-! ## After the first region -/

theorem W2_v45_0 (c : Dev nD) : W2 m ρ c (Proc.devRef .tc main_v45_0) = hid (arg m c main_arg0) (arg m c main_arg1) (arg m c main_arg3) (arg m c main_arg4) (arg m c main_arg5) (arg m c main_arg6) (arg m c main_arg7) (arg m c main_arg8) (arg m c main_arg9) (arg m c main_arg10) := by
  refine (W2_arr m ρ c 13).trans ((Arrays.final0_13 (V1 m ρ) c).trans ?_)
  show hidden (W1 m ρ c (Proc.devRef .tc main_v28)) (W1 m ρ c (Proc.devRef .tc main_v40)) (W1 m ρ c (Proc.devRef .tc main_arg0)) (W1 m ρ c (Proc.devRef .tc main_arg3)) (W1 m ρ c (Proc.devRef .tc main_v41))
    (W1 m ρ c (Proc.devRef .tc main_arg5)) (W1 m ρ c (Proc.devRef .tc main_arg6)) (W1 m ρ c (Proc.devRef .tc main_v42)) (W1 m ρ c (Proc.devRef .tc main_arg8)) (W1 m ρ c (Proc.devRef .tc main_v43)) (W1 m ρ c (Proc.devRef .tc main_v44)) = _
  rw [W1_v28, W1_v40, W1_arg0, W1_arg3, W1_v41, W1_arg5, W1_arg6, W1_v42, W1_arg8, W1_v43, W1_v44]
  rfl
theorem W2_v45_1 (c : Dev nD) : W2 m ρ c (Proc.devRef .tc main_v45_1) = hidF (arg m c main_arg0) (arg m c main_arg1) (arg m c main_arg3) (arg m c main_arg4) (arg m c main_arg5) (arg m c main_arg6) (arg m c main_arg7) (arg m c main_arg8) (arg m c main_arg9) (arg m c main_arg10) (arg m c main_arg11) := by
  refine (W2_arr m ρ c 14).trans ((Arrays.final0_14 (V1 m ρ) c).trans ?_)
  show project (hidden (W1 m ρ c (Proc.devRef .tc main_v28)) (W1 m ρ c (Proc.devRef .tc main_v40)) (W1 m ρ c (Proc.devRef .tc main_arg0)) (W1 m ρ c (Proc.devRef .tc main_arg3)) (W1 m ρ c (Proc.devRef .tc main_v41))
    (W1 m ρ c (Proc.devRef .tc main_arg5)) (W1 m ρ c (Proc.devRef .tc main_arg6)) (W1 m ρ c (Proc.devRef .tc main_v42)) (W1 m ρ c (Proc.devRef .tc main_arg8)) (W1 m ρ c (Proc.devRef .tc main_v43)) (W1 m ρ c (Proc.devRef .tc main_v44))) (W1 m ρ c (Proc.devRef .tc main_arg11)) = _
  rw [W1_v28, W1_v40, W1_arg0, W1_arg3, W1_v41, W1_arg5, W1_arg6, W1_v42, W1_arg8, W1_v43, W1_v44, W1_arg11]
  rfl
theorem W2_v45_2 (c : Dev nD) : W2 m ρ c (Proc.devRef .tc main_v45_2) = hidR (arg m c main_arg0) (arg m c main_arg1) (arg m c main_arg3) (arg m c main_arg4) (arg m c main_arg5) (arg m c main_arg6) (arg m c main_arg7) (arg m c main_arg8) (arg m c main_arg9) (arg m c main_arg10) (arg m c main_arg14) := by
  refine (W2_arr m ρ c 15).trans ((Arrays.final0_15 (V1 m ρ) c).trans ?_)
  show project (hidden (W1 m ρ c (Proc.devRef .tc main_v28)) (W1 m ρ c (Proc.devRef .tc main_v40)) (W1 m ρ c (Proc.devRef .tc main_arg0)) (W1 m ρ c (Proc.devRef .tc main_arg3)) (W1 m ρ c (Proc.devRef .tc main_v41))
    (W1 m ρ c (Proc.devRef .tc main_arg5)) (W1 m ρ c (Proc.devRef .tc main_arg6)) (W1 m ρ c (Proc.devRef .tc main_v42)) (W1 m ρ c (Proc.devRef .tc main_arg8)) (W1 m ρ c (Proc.devRef .tc main_v43)) (W1 m ρ c (Proc.devRef .tc main_v44))) (W1 m ρ c (Proc.devRef .tc main_arg14)) = _
  rw [W1_v28, W1_v40, W1_arg0, W1_arg3, W1_v41, W1_arg5, W1_arg6, W1_v42, W1_arg8, W1_v43, W1_v44, W1_arg14]
  rfl
theorem W2_v1 (c : Dev nD) : W2 m ρ c (Proc.devRef .tc main_v1) = srcOf (arg m c main_arg1) :=
  (W2_of_ne m ρ c main_v1 (by decide)).trans (W1_v1 m ρ c)
theorem W2_v3 (c : Dev nD) : W2 m ρ c (Proc.devRef .tc main_v3) = dstOf (arg m c main_arg1) :=
  (W2_of_ne m ρ c main_v3 (by decide)).trans (W1_v3 m ρ c)
theorem W2_v10 (c : Dev nD) : W2 m ρ c (Proc.devRef .tc main_v10) = countCol (dstOf (arg m c main_arg1)) :=
  (W2_of_ne m ρ c main_v10 (by decide)).trans (W1_v10 m ρ c)
theorem W2_v16 (c : Dev nD) : W2 m ρ c (Proc.devRef .tc main_v16) = countCol (srcOf (arg m c main_arg1)) :=
  (W2_of_ne m ρ c main_v16 (by decide)).trans (W1_v16 m ρ c)
theorem W2_arg2 (c : Dev nD) : W2 m ρ c (Proc.devRef .tc main_arg2) = (arg m c main_arg2) :=
  (W2_of_ne m ρ c main_arg2 (by decide)).trans (W1_arg2 m ρ c)
theorem W2_arg12 (c : Dev nD) : W2 m ρ c (Proc.devRef .tc main_arg12) = (arg m c main_arg12) :=
  (W2_of_ne m ρ c main_arg12 (by decide)).trans (W1_arg12 m ρ c)
theorem W2_arg13 (c : Dev nD) : W2 m ρ c (Proc.devRef .tc main_arg13) = (arg m c main_arg13) :=
  (W2_of_ne m ρ c main_arg13 (by decide)).trans (W1_arg13 m ρ c)
theorem W2_arg15 (c : Dev nD) : W2 m ρ c (Proc.devRef .tc main_arg15) = (arg m c main_arg15) :=
  (W2_of_ne m ρ c main_arg15 (by decide)).trans (W1_arg15 m ρ c)
theorem W2_arg16 (c : Dev nD) : W2 m ρ c (Proc.devRef .tc main_arg16) = (arg m c main_arg16) :=
  (W2_of_ne m ρ c main_arg16 (by decide)).trans (W1_arg16 m ρ c)
theorem W2_arg17 (c : Dev nD) : W2 m ρ c (Proc.devRef .tc main_arg17) = (arg m c main_arg17) :=
  (W2_of_ne m ρ c main_arg17 (by decide)).trans (W1_arg17 m ρ c)
theorem W2_arg18 (c : Dev nD) : W2 m ρ c (Proc.devRef .tc main_arg18) = (arg m c main_arg18) :=
  (W2_of_ne m ρ c main_arg18 (by decide)).trans (W1_arg18 m ρ c)
theorem W2_arg19 (c : Dev nD) : W2 m ρ c (Proc.devRef .tc main_arg19) = (arg m c main_arg19) :=
  (W2_of_ne m ρ c main_arg19 (by decide)).trans (W1_arg19 m ρ c)
theorem W2_arg20 (c : Dev nD) : W2 m ρ c (Proc.devRef .tc main_arg20) = (arg m c main_arg20) :=
  (W2_of_ne m ρ c main_arg20 (by decide)).trans (W1_arg20 m ρ c)
theorem W2_arg21 (c : Dev nD) : W2 m ρ c (Proc.devRef .tc main_arg21) = (arg m c main_arg21) :=
  (W2_of_ne m ρ c main_arg21 (by decide)).trans (W1_arg21 m ρ c)
theorem W2_arg22 (c : Dev nD) : W2 m ρ c (Proc.devRef .tc main_arg22) = (arg m c main_arg22) :=
  (W2_of_ne m ρ c main_arg22 (by decide)).trans (W1_arg22 m ρ c)

/-! ## After the second host stretch -/

theorem W3_v57_raw (c : Dev nD) : W3 m ρ c (Proc.devRef .tc main_v57) = segmean (W2 m ρ c (Proc.devRef .tc main_v45_1)) (W2 m ρ c (Proc.devRef .tc main_v1)) (W2 m ρ c (Proc.devRef .tc main_v3)) (W2 m ρ c (Proc.devRef .tc main_v10)) := by
  show StableHlo.after hostOps1 (W2 m ρ c) (Proc.devRef .tc main_v57) = _
  dsimp only [hostOps1]
  after_results_simp <;> rfl
theorem W3_v69_raw (c : Dev nD) : W3 m ρ c (Proc.devRef .tc main_v69) = segmean (W2 m ρ c (Proc.devRef .tc main_v45_2)) (W2 m ρ c (Proc.devRef .tc main_v3)) (W2 m ρ c (Proc.devRef .tc main_v1)) (W2 m ρ c (Proc.devRef .tc main_v16)) := by
  show StableHlo.after hostOps1 (W2 m ρ c) (Proc.devRef .tc main_v69) = _
  dsimp only [hostOps1]
  after_results_simp <;> rfl
theorem W3_v70_raw (c : Dev nD) : W3 m ρ c (Proc.devRef .tc main_v70) = row64 (W2 m ρ c (Proc.devRef .tc main_arg12)) := by
  show StableHlo.after hostOps1 (W2 m ρ c) (Proc.devRef .tc main_v70) = _
  dsimp only [hostOps1]
  after_results_simp <;> rfl
theorem W3_v71_raw (c : Dev nD) : W3 m ρ c (Proc.devRef .tc main_v71) = row64 (W2 m ρ c (Proc.devRef .tc main_arg15)) := by
  show StableHlo.after hostOps1 (W2 m ρ c) (Proc.devRef .tc main_v71) = _
  dsimp only [hostOps1]
  after_results_simp <;> rfl
theorem W3_v45_0_raw (c : Dev nD) : W3 m ρ c (Proc.devRef .tc main_v45_0) = (W2 m ρ c (Proc.devRef .tc main_v45_0)) := by
  show StableHlo.after hostOps1 (W2 m ρ c) (Proc.devRef .tc main_v45_0) = _
  dsimp only [hostOps1]
  after_results_simp <;> rfl
theorem W3_arg2_raw (c : Dev nD) : W3 m ρ c (Proc.devRef .tc main_arg2) = (W2 m ρ c (Proc.devRef .tc main_arg2)) := by
  show StableHlo.after hostOps1 (W2 m ρ c) (Proc.devRef .tc main_arg2) = _
  dsimp only [hostOps1]
  after_results_simp <;> rfl
theorem W3_arg13_raw (c : Dev nD) : W3 m ρ c (Proc.devRef .tc main_arg13) = (W2 m ρ c (Proc.devRef .tc main_arg13)) := by
  show StableHlo.after hostOps1 (W2 m ρ c) (Proc.devRef .tc main_arg13) = _
  dsimp only [hostOps1]
  after_results_simp <;> rfl
theorem W3_arg16_raw (c : Dev nD) : W3 m ρ c (Proc.devRef .tc main_arg16) = (W2 m ρ c (Proc.devRef .tc main_arg16)) := by
  show StableHlo.after hostOps1 (W2 m ρ c) (Proc.devRef .tc main_arg16) = _
  dsimp only [hostOps1]
  after_results_simp <;> rfl
theorem W3_arg17_raw (c : Dev nD) : W3 m ρ c (Proc.devRef .tc main_arg17) = (W2 m ρ c (Proc.devRef .tc main_arg17)) := by
  show StableHlo.after hostOps1 (W2 m ρ c) (Proc.devRef .tc main_arg17) = _
  dsimp only [hostOps1]
  after_results_simp <;> rfl
theorem W3_arg18_raw (c : Dev nD) : W3 m ρ c (Proc.devRef .tc main_arg18) = (W2 m ρ c (Proc.devRef .tc main_arg18)) := by
  show StableHlo.after hostOps1 (W2 m ρ c) (Proc.devRef .tc main_arg18) = _
  dsimp only [hostOps1]
  after_results_simp <;> rfl
theorem W3_arg19_raw (c : Dev nD) : W3 m ρ c (Proc.devRef .tc main_arg19) = (W2 m ρ c (Proc.devRef .tc main_arg19)) := by
  show StableHlo.after hostOps1 (W2 m ρ c) (Proc.devRef .tc main_arg19) = _
  dsimp only [hostOps1]
  after_results_simp <;> rfl
theorem W3_arg20_raw (c : Dev nD) : W3 m ρ c (Proc.devRef .tc main_arg20) = (W2 m ρ c (Proc.devRef .tc main_arg20)) := by
  show StableHlo.after hostOps1 (W2 m ρ c) (Proc.devRef .tc main_arg20) = _
  dsimp only [hostOps1]
  after_results_simp <;> rfl
theorem W3_arg21_raw (c : Dev nD) : W3 m ρ c (Proc.devRef .tc main_arg21) = (W2 m ρ c (Proc.devRef .tc main_arg21)) := by
  show StableHlo.after hostOps1 (W2 m ρ c) (Proc.devRef .tc main_arg21) = _
  dsimp only [hostOps1]
  after_results_simp <;> rfl
theorem W3_arg22_raw (c : Dev nD) : W3 m ρ c (Proc.devRef .tc main_arg22) = (W2 m ρ c (Proc.devRef .tc main_arg22)) := by
  show StableHlo.after hostOps1 (W2 m ρ c) (Proc.devRef .tc main_arg22) = _
  dsimp only [hostOps1]
  after_results_simp <;> rfl
theorem W3_arg2 (c : Dev nD) : W3 m ρ c (Proc.devRef .tc main_arg2) = (arg m c main_arg2) := (W3_arg2_raw m ρ c).trans (W2_arg2 m ρ c)
theorem W3_arg13 (c : Dev nD) : W3 m ρ c (Proc.devRef .tc main_arg13) = (arg m c main_arg13) := (W3_arg13_raw m ρ c).trans (W2_arg13 m ρ c)
theorem W3_arg16 (c : Dev nD) : W3 m ρ c (Proc.devRef .tc main_arg16) = (arg m c main_arg16) := (W3_arg16_raw m ρ c).trans (W2_arg16 m ρ c)
theorem W3_arg17 (c : Dev nD) : W3 m ρ c (Proc.devRef .tc main_arg17) = (arg m c main_arg17) := (W3_arg17_raw m ρ c).trans (W2_arg17 m ρ c)
theorem W3_arg18 (c : Dev nD) : W3 m ρ c (Proc.devRef .tc main_arg18) = (arg m c main_arg18) := (W3_arg18_raw m ρ c).trans (W2_arg18 m ρ c)
theorem W3_arg19 (c : Dev nD) : W3 m ρ c (Proc.devRef .tc main_arg19) = (arg m c main_arg19) := (W3_arg19_raw m ρ c).trans (W2_arg19 m ρ c)
theorem W3_arg20 (c : Dev nD) : W3 m ρ c (Proc.devRef .tc main_arg20) = (arg m c main_arg20) := (W3_arg20_raw m ρ c).trans (W2_arg20 m ρ c)
theorem W3_arg21 (c : Dev nD) : W3 m ρ c (Proc.devRef .tc main_arg21) = (arg m c main_arg21) := (W3_arg21_raw m ρ c).trans (W2_arg21 m ρ c)
theorem W3_arg22 (c : Dev nD) : W3 m ρ c (Proc.devRef .tc main_arg22) = (arg m c main_arg22) := (W3_arg22_raw m ρ c).trans (W2_arg22 m ρ c)
theorem W3_v57 (c : Dev nD) : W3 m ρ c (Proc.devRef .tc main_v57) = agg2F (arg m c main_arg0) (arg m c main_arg1) (arg m c main_arg3) (arg m c main_arg4) (arg m c main_arg5) (arg m c main_arg6) (arg m c main_arg7) (arg m c main_arg8) (arg m c main_arg9) (arg m c main_arg10) (arg m c main_arg11) := by
  rw [W3_v57_raw, W2_v45_1, W2_v1, W2_v3, W2_v10]; rfl
theorem W3_v69 (c : Dev nD) : W3 m ρ c (Proc.devRef .tc main_v69) = agg2R (arg m c main_arg0) (arg m c main_arg1) (arg m c main_arg3) (arg m c main_arg4) (arg m c main_arg5) (arg m c main_arg6) (arg m c main_arg7) (arg m c main_arg8) (arg m c main_arg9) (arg m c main_arg10) (arg m c main_arg14) := by
  rw [W3_v69_raw, W2_v45_2, W2_v1, W2_v3, W2_v16]; rfl
theorem W3_v70 (c : Dev nD) : W3 m ρ c (Proc.devRef .tc main_v70) = row64 (arg m c main_arg12) := by rw [W3_v70_raw, W2_arg12]
theorem W3_v71 (c : Dev nD) : W3 m ρ c (Proc.devRef .tc main_v71) = row64 (arg m c main_arg15) := by rw [W3_v71_raw, W2_arg15]
theorem W3_v45_0 (c : Dev nD) : W3 m ρ c (Proc.devRef .tc main_v45_0) = hid (arg m c main_arg0) (arg m c main_arg1) (arg m c main_arg3) (arg m c main_arg4) (arg m c main_arg5) (arg m c main_arg6) (arg m c main_arg7) (arg m c main_arg8) (arg m c main_arg9) (arg m c main_arg10) := (W3_v45_0_raw m ρ c).trans (W2_v45_0 m ρ c)

/-! ## After the second region -/

theorem W4_v72 (c : Dev nD) : W4 m ρ c (Proc.devRef .tc main_v72) = emb (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := by
  refine (W4_arr m ρ c 7).trans ((Arrays1.final1_7 (V3 m ρ) c).trans ?_)
  show embed (W3 m ρ c (Proc.devRef .tc main_v57)) (W3 m ρ c (Proc.devRef .tc main_v69)) (W3 m ρ c (Proc.devRef .tc main_v45_0)) (W3 m ρ c (Proc.devRef .tc main_v70)) (W3 m ρ c (Proc.devRef .tc main_arg13))
    (W3 m ρ c (Proc.devRef .tc main_v71)) (W3 m ρ c (Proc.devRef .tc main_arg16)) = _
  rw [W3_v57, W3_v69, W3_v45_0, W3_v70, W3_arg13, W3_v71, W3_arg16]
  rfl
theorem W4_arg2 (c : Dev nD) : W4 m ρ c (Proc.devRef .tc main_arg2) = (arg m c main_arg2) :=
  (W4_of_ne m ρ c main_arg2 (by decide)).trans (W3_arg2 m ρ c)
theorem W4_arg17 (c : Dev nD) : W4 m ρ c (Proc.devRef .tc main_arg17) = (arg m c main_arg17) :=
  (W4_of_ne m ρ c main_arg17 (by decide)).trans (W3_arg17 m ρ c)
theorem W4_arg18 (c : Dev nD) : W4 m ρ c (Proc.devRef .tc main_arg18) = (arg m c main_arg18) :=
  (W4_of_ne m ρ c main_arg18 (by decide)).trans (W3_arg18 m ρ c)
theorem W4_arg19 (c : Dev nD) : W4 m ρ c (Proc.devRef .tc main_arg19) = (arg m c main_arg19) :=
  (W4_of_ne m ρ c main_arg19 (by decide)).trans (W3_arg19 m ρ c)
theorem W4_arg20 (c : Dev nD) : W4 m ρ c (Proc.devRef .tc main_arg20) = (arg m c main_arg20) :=
  (W4_of_ne m ρ c main_arg20 (by decide)).trans (W3_arg20 m ρ c)
theorem W4_arg21 (c : Dev nD) : W4 m ρ c (Proc.devRef .tc main_arg21) = (arg m c main_arg21) :=
  (W4_of_ne m ρ c main_arg21 (by decide)).trans (W3_arg21 m ρ c)
theorem W4_arg22 (c : Dev nD) : W4 m ρ c (Proc.devRef .tc main_arg22) = (arg m c main_arg22) :=
  (W4_of_ne m ρ c main_arg22 (by decide)).trans (W3_arg22 m ρ c)

/-! ## After the host stretches before the third region -/

theorem W9_v81_raw (c : Dev nD) : W9 m ρ c (Proc.devRef .tc main_v81) = rowsAt (W4 m ρ c (Proc.devRef .tc main_v72)) (labelRow0 (W4 m ρ c (Proc.devRef .tc main_arg2))) := by
  show StableHlo.after hostOps2_4 (StableHlo.after hostOps2_3 (StableHlo.after hostOps2_2 (StableHlo.after hostOps2_1 (StableHlo.after hostOps2 (W4 m ρ c))))) (Proc.devRef .tc main_v81) = _
  dsimp only [hostOps2, hostOps2_1, hostOps2_2, hostOps2_3, hostOps2_4]
  after_results_simp <;> rfl
theorem W9_v90_raw (c : Dev nD) : W9 m ρ c (Proc.devRef .tc main_v90) = rowsAt (W4 m ρ c (Proc.devRef .tc main_v72)) (labelRow1 (W4 m ρ c (Proc.devRef .tc main_arg2))) := by
  show StableHlo.after hostOps2_4 (StableHlo.after hostOps2_3 (StableHlo.after hostOps2_2 (StableHlo.after hostOps2_1 (StableHlo.after hostOps2 (W4 m ρ c))))) (Proc.devRef .tc main_v90) = _
  dsimp only [hostOps2, hostOps2_1, hostOps2_2, hostOps2_3, hostOps2_4]
  after_results_simp <;> rfl
theorem W9_v91_raw (c : Dev nD) : W9 m ρ c (Proc.devRef .tc main_v91) = bandA (W4 m ρ c (Proc.devRef .tc main_arg17)) := by
  show StableHlo.after hostOps2_4 (StableHlo.after hostOps2_3 (StableHlo.after hostOps2_2 (StableHlo.after hostOps2_1 (StableHlo.after hostOps2 (W4 m ρ c))))) (Proc.devRef .tc main_v91) = _
  dsimp only [hostOps2, hostOps2_1, hostOps2_2, hostOps2_3, hostOps2_4]
  after_results_simp <;> rfl
theorem W9_v92_raw (c : Dev nD) : W9 m ρ c (Proc.devRef .tc main_v92) = bandB (W4 m ρ c (Proc.devRef .tc main_arg17)) := by
  show StableHlo.after hostOps2_4 (StableHlo.after hostOps2_3 (StableHlo.after hostOps2_2 (StableHlo.after hostOps2_1 (StableHlo.after hostOps2 (W4 m ρ c))))) (Proc.devRef .tc main_v92) = _
  dsimp only [hostOps2, hostOps2_1, hostOps2_2, hostOps2_3, hostOps2_4]
  after_results_simp <;> rfl
theorem W9_v93_raw (c : Dev nD) : W9 m ρ c (Proc.devRef .tc main_v93) = bandC (W4 m ρ c (Proc.devRef .tc main_arg17)) := by
  show StableHlo.after hostOps2_4 (StableHlo.after hostOps2_3 (StableHlo.after hostOps2_2 (StableHlo.after hostOps2_1 (StableHlo.after hostOps2 (W4 m ρ c))))) (Proc.devRef .tc main_v93) = _
  dsimp only [hostOps2, hostOps2_1, hostOps2_2, hostOps2_3, hostOps2_4]
  after_results_simp <;> rfl
theorem W9_v97_raw (c : Dev nD) : W9 m ρ c (Proc.devRef .tc main_v97) = row64 (W4 m ρ c (Proc.devRef .tc main_arg18)) := by
  show StableHlo.after hostOps2_4 (StableHlo.after hostOps2_3 (StableHlo.after hostOps2_2 (StableHlo.after hostOps2_1 (StableHlo.after hostOps2 (W4 m ρ c))))) (Proc.devRef .tc main_v97) = _
  dsimp only [hostOps2, hostOps2_1, hostOps2_2, hostOps2_3, hostOps2_4]
  after_results_simp <;> rfl
theorem W9_v98_raw (c : Dev nD) : W9 m ρ c (Proc.devRef .tc main_v98) = row32 (W4 m ρ c (Proc.devRef .tc main_arg20)) := by
  show StableHlo.after hostOps2_4 (StableHlo.after hostOps2_3 (StableHlo.after hostOps2_2 (StableHlo.after hostOps2_1 (StableHlo.after hostOps2 (W4 m ρ c))))) (Proc.devRef .tc main_v98) = _
  dsimp only [hostOps2, hostOps2_1, hostOps2_2, hostOps2_3, hostOps2_4]
  after_results_simp <;> rfl
theorem W9_arg19_raw (c : Dev nD) : W9 m ρ c (Proc.devRef .tc main_arg19) = (W4 m ρ c (Proc.devRef .tc main_arg19)) := by
  show StableHlo.after hostOps2_4 (StableHlo.after hostOps2_3 (StableHlo.after hostOps2_2 (StableHlo.after hostOps2_1 (StableHlo.after hostOps2 (W4 m ρ c))))) (Proc.devRef .tc main_arg19) = _
  dsimp only [hostOps2, hostOps2_1, hostOps2_2, hostOps2_3, hostOps2_4]
  after_results_simp <;> rfl
theorem W9_v94_raw (c : Dev nD) : W9 m ρ c (Proc.devRef .tc main_v94) = padW3 (W4 m ρ c (Proc.devRef .tc main_arg21)) := by
  show StableHlo.after hostOps2_4 (StableHlo.after hostOps2_3 (StableHlo.after hostOps2_2 (StableHlo.after hostOps2_1 (StableHlo.after hostOps2 (W4 m ρ c))))) (Proc.devRef .tc main_v94) = _
  dsimp only [hostOps2, hostOps2_1, hostOps2_2, hostOps2_3, hostOps2_4]
  after_results_simp
  simp only [Cert.Lib.TypedRefs.ofBuf_toBuf]
  rfl
theorem W9_v96_raw (c : Dev nD) : W9 m ρ c (Proc.devRef .tc main_v96) = padB3 (W4 m ρ c (Proc.devRef .tc main_arg22)) := by
  show StableHlo.after hostOps2_4 (StableHlo.after hostOps2_3 (StableHlo.after hostOps2_2 (StableHlo.after hostOps2_1 (StableHlo.after hostOps2 (W4 m ρ c))))) (Proc.devRef .tc main_v96) = _
  dsimp only [hostOps2, hostOps2_1, hostOps2_2, hostOps2_3, hostOps2_4]
  after_results_simp
  simp only [Cert.Lib.TypedRefs.ofBuf_toBuf]
  rfl

/-! ## After the third region, and the result -/

theorem W10_v99 (c : Dev nD) : W10 m ρ c (Proc.devRef .tc main_v99) = dec (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) := by
  refine (W10_arr m ρ c 10).trans ((Arrays2.final2_10 (V9 m ρ) c).trans ?_)
  show decode (n := 128) (W9 m ρ c (Proc.devRef .tc main_v81)) (W9 m ρ c (Proc.devRef .tc main_v90)) (W9 m ρ c (Proc.devRef .tc main_v91)) (W9 m ρ c (Proc.devRef .tc main_v92)) (W9 m ρ c (Proc.devRef .tc main_v93))
    (W9 m ρ c (Proc.devRef .tc main_v97)) (W9 m ρ c (Proc.devRef .tc main_arg19)) (W9 m ρ c (Proc.devRef .tc main_v98)) (W9 m ρ c (Proc.devRef .tc main_v94)) (W9 m ρ c (Proc.devRef .tc main_v96)) = _
  rw [W9_v81_raw, W9_v90_raw, W9_v91_raw, W9_v92_raw, W9_v93_raw, W9_v97_raw, W9_arg19_raw, W9_v98_raw, W9_v94_raw, W9_v96_raw,
    W4_v72, W4_arg2, W4_arg17, W4_arg18, W4_arg19, W4_arg20, W4_arg21, W4_arg22]
  rfl

/-- THE RESULT BUFFER after the whole program, as one function of the launch contents of the 23 argument arrays. -/
theorem W11_v101 (c : Dev nD) : W11 m ρ c (Proc.devRef .tc main_v101) = result (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) := by
  have h : W11 m ρ c (Proc.devRef .tc main_v101)
      = shapeCast S100000 (extractStridedSlice S100000x1 ![0, 0] (W10 m ρ c (Proc.devRef .tc main_v99)) slices_S100000x128_S100000x1_0_0) shapeCasts_S100000x1_S100000 := by
    show StableHlo.after hostOps3 (W10 m ρ c) (Proc.devRef .tc main_v101) = _
    dsimp only [hostOps3]
    after_results_simp <;> rfl
  rw [h, W10_v99]
  rfl

end Cert.KernelIdeal.Run

end
-- ==== Proof.KernelLaunch.lean ====
/-
  The kernel program's launch with its result kept. The generated frame certificate runs @main's eleven segments under
  the library's launch theorem and then keeps, of every buffer's final contents, only the arguments'. Here the same
  launch is stated with the final reading as a parameter, and instantiated to keep the result buffer too: every weakly
  fair execution terminates with the result at `Val.result` of the launched arguments, and the arguments unchanged.
-/
import proofs.«106045_j46145128628314_2_alg».proof.Proof.Gen.KernelIdeal.Frame
import proofs.«106045_j46145128628314_2_alg».proof.Proof.KernelRun

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Val

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch over the segments, every unscoped buffer's final contents read at the last boundary's. -/
theorem run_all {Q : PUnit × MemSt nD τ sig (Elt Ideal) → Prop}
    (hQ : ∀ s : MemSt nD τ sig (Elt Ideal),
      (∀ c : Dev nD, ∀ b ∈ Pipeline.ucRefs τ sig, s.mem (((c : Thread nD τ)).1, b) = W11 m ρ c b) → Q (⟨⟩, s)) :
    θ_run defs (onTc (τ := τ) (main (F := Ideal))) ⟨m, fun _ => 0, ρ⟩ Q :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

/-- THE KERNEL'S RUN: the result buffer ends at `Val.result` of the launched argument arrays, which end unchanged. -/
theorem run : θ_run defs (onTc (τ := τ) (main (F := Ideal))) ⟨m, fun _ => 0, ρ⟩ (fun r => ∀ c : Dev nD,
      r.2.mem ((c.tc : Thread nD τ).loc main_v101) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_all m ρ (fun s h c =>
      ⟨(h c _ (mem_uc main_v101 (by decide))).trans (W11_v101 m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c)⟩)

end Cert.KernelIdeal.Run

end
-- ==== Proof.RefVal.lean ====
/-
  The reference program's five stretches as pure functions of whole arrays, each the composition of that stretch's host
  operations in program order: the first layer's sum of the two relations (with the two mean aggregations of the
  features named), the hidden state, the second layer's sum (with the two mean aggregations of the hidden state named),
  the embedding, and the decoder (with the two gathers of end-point rows named).
-/
import proofs.«106045_j46145128628314_2_alg».proof.Proof.Gen.ReferenceIdeal
import Idealize.ShloMosaic.PureOps.Ideal

set_option maxRecDepth 8192

noncomputable section

namespace Cert.ReferenceIdeal.Val

open Idealize.ShloMosaic Cert.ReferenceIdeal Cert.ReferenceIdeal.Gen

/-- The features' mean over each node's incoming edges. -/
def aggF (x0 : (⟨S50000x64, .f32⟩ : BufTy).Contents (Elt Ideal)) (x1 : (⟨S2x800000, .i32⟩ : BufTy).Contents (Elt Ideal)) : (⟨S50000x64, .f32⟩ : BufTy).Contents (Elt Ideal) :=
  ((Host.divf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun x i u => Host.scatterAdd (F := Ideal) (φ := .f32) scatter_S50000x64_S800000x1_S800000x64_1_0_0_1 x i u) : (⟨S50000x64, .f32⟩ : BufTy).Contents (Elt Ideal) → (⟨S800000x1, .i32⟩ : BufTy).Contents (Elt Ideal) → (⟨S800000x64, .f32⟩ : BufTy).Contents (Elt Ideal) → (⟨S50000x64, .f32⟩ : BufTy).Contents (Elt Ideal)) ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000)) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) x0 ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 50000#32))) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000))))) ((broadcastInDim S50000x64 ![0, 1] bcast_S50000x1_S50000x64_0_1 : (⟨S50000x1, .f32⟩ : BufTy).Contents (Elt Ideal) → (⟨S50000x64, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000)) ((broadcastInDim S800000 ![] bcast_S_S800000 : (⟨S_, .f32⟩ : BufTy).Contents (Elt Ideal) → (⟨S800000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32))))))

/-- The features' mean over each node's outgoing edges. -/
def aggR (x0 : (⟨S50000x64, .f32⟩ : BufTy).Contents (Elt Ideal)) (x1 : (⟨S2x800000, .i32⟩ : BufTy).Contents (Elt Ideal)) : (⟨S50000x64, .f32⟩ : BufTy).Contents (Elt Ideal) :=
  ((Host.divf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun x i u => Host.scatterAdd (F := Ideal) (φ := .f32) scatter_S50000x64_S800000x1_S800000x64_1_0_0_1 x i u) : (⟨S50000x64, .f32⟩ : BufTy).Contents (Elt Ideal) → (⟨S800000x1, .i32⟩ : BufTy).Contents (Elt Ideal) → (⟨S800000x64, .f32⟩ : BufTy).Contents (Elt Ideal) → (⟨S50000x64, .f32⟩ : BufTy).Contents (Elt Ideal)) ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000)) (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) x0 ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 50000#32))) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000))))) ((broadcastInDim S50000x64 ![0, 1] bcast_S50000x1_S50000x64_0_1 : (⟨S50000x1, .f32⟩ : BufTy).Contents (Elt Ideal) → (⟨S50000x64, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000)) ((broadcastInDim S800000 ![] bcast_S_S800000 : (⟨S_, .f32⟩ : BufTy).Contents (Elt Ideal) → (⟨S800000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32))))))

/-- The first layer before its normalisation: the two relations' combines summed. -/
def hlR (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) : (⟨S50000x128, .f32⟩ : BufTy).Contents (Elt Ideal) :=
  ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) (aggF x0 x1) x3) ((broadcastInDim S50000x128 ![0, 1] bcast_S1x128_S50000x128_0_1 : (⟨S1x128, .f32⟩ : BufTy).Contents (Elt Ideal) → (⟨S50000x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x4))) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) x0 x5)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) (aggR x0 x1) x6) ((broadcastInDim S50000x128 ![0, 1] bcast_S1x128_S50000x128_0_1 : (⟨S1x128, .f32⟩ : BufTy).Contents (Elt Ideal) → (⟨S50000x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x7))) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) x0 x8)))

/-- The hidden state from the first layer's sum: normalised along each row, scaled, shifted, clamped. -/
def hR (hl : (⟨S50000x128, .f32⟩ : BufTy).Contents (Elt Ideal)) (x9 : (⟨S128, .f32⟩ : BufTy).Contents (Elt Ideal)) (x10 : (⟨S128, .f32⟩ : BufTy).Contents (Elt Ideal)) : (⟨S50000x128, .f32⟩ : BufTy).Contents (Elt Ideal) :=
  (maximumf (F := Ideal) (φ := .f32) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((subf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) hl ((broadcastInDim S50000x128 ![0, 1] bcast_S50000x1_S50000x128_0_1 : (⟨S50000x1, .f32⟩ : BufTy).Contents (Elt Ideal) → (⟨S50000x128, .f32⟩ : BufTy).Contents (Elt Ideal)) ((Host.divf (F := Ideal) (φ := .f32) : (⟨S50000x1, .f32⟩ : BufTy).Contents (Elt Ideal) → (⟨S50000x1, .f32⟩ : BufTy).Contents (Elt Ideal) → (⟨S50000x1, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) (((fun x v => Host.reduceAdd (F := Ideal) (φ := .f32) x v reducesTo_S50000x128_S50000_d1 h_S_) : (⟨S50000x128, .f32⟩ : BufTy).Contents (Elt Ideal) → (⟨S_, .f32⟩ : BufTy).Contents (Elt Ideal) → (⟨S50000, .f32⟩ : BufTy).Contents (Elt Ideal)) hl (constant (F := Ideal) S_ .f32 0x00000000#32))) ((broadcastInDim S50000x1 ![] bcast_S_S50000x1 : (⟨S_, .f32⟩ : BufTy).Contents (Elt Ideal) → (⟨S50000x1, .f32⟩ : BufTy).Contents (Elt Ideal)) (constant (F := Ideal) S_ .f32 0x43000000#32))))) ((broadcastInDim S50000x128 ![0, 1] bcast_S50000x1_S50000x128_0_1 : (⟨S50000x1, .f32⟩ : BufTy).Contents (Elt Ideal) → (⟨S50000x128, .f32⟩ : BufTy).Contents (Elt Ideal)) ((Host.rsqrt (F := Ideal) (φ := .f32) : (⟨S50000x1, .f32⟩ : BufTy).Contents (Elt Ideal) → (⟨S50000x1, .f32⟩ : BufTy).Contents (Elt Ideal)) ((addf (F := Ideal) (φ := .f32) : (⟨S50000x1, .f32⟩ : BufTy).Contents (Elt Ideal) → (⟨S50000x1, .f32⟩ : BufTy).Contents (Elt Ideal) → (⟨S50000x1, .f32⟩ : BufTy).Contents (Elt Ideal)) ((Host.divf (F := Ideal) (φ := .f32) : (⟨S50000x1, .f32⟩ : BufTy).Contents (Elt Ideal) → (⟨S50000x1, .f32⟩ : BufTy).Contents (Elt Ideal) → (⟨S50000x1, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) (((fun x v => Host.reduceAdd (F := Ideal) (φ := .f32) x v reducesTo_S50000x128_S50000_d1 h_S_) : (⟨S50000x128, .f32⟩ : BufTy).Contents (Elt Ideal) → (⟨S_, .f32⟩ : BufTy).Contents (Elt Ideal) → (⟨S50000, .f32⟩ : BufTy).Contents (Elt Ideal)) ((mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((subf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) hl ((broadcastInDim S50000x128 ![0, 1] bcast_S50000x1_S50000x128_0_1 : (⟨S50000x1, .f32⟩ : BufTy).Contents (Elt Ideal) → (⟨S50000x128, .f32⟩ : BufTy).Contents (Elt Ideal)) ((Host.divf (F := Ideal) (φ := .f32) : (⟨S50000x1, .f32⟩ : BufTy).Contents (Elt Ideal) → (⟨S50000x1, .f32⟩ : BufTy).Contents (Elt Ideal) → (⟨S50000x1, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) (((fun x v => Host.reduceAdd (F := Ideal) (φ := .f32) x v reducesTo_S50000x128_S50000_d1 h_S_) : (⟨S50000x128, .f32⟩ : BufTy).Contents (Elt Ideal) → (⟨S_, .f32⟩ : BufTy).Contents (Elt Ideal) → (⟨S50000, .f32⟩ : BufTy).Contents (Elt Ideal)) hl (constant (F := Ideal) S_ .f32 0x00000000#32))) ((broadcastInDim S50000x1 ![] bcast_S_S50000x1 : (⟨S_, .f32⟩ : BufTy).Contents (Elt Ideal) → (⟨S50000x1, .f32⟩ : BufTy).Contents (Elt Ideal)) (constant (F := Ideal) S_ .f32 0x43000000#32))))) ((subf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) hl ((broadcastInDim S50000x128 ![0, 1] bcast_S50000x1_S50000x128_0_1 : (⟨S50000x1, .f32⟩ : BufTy).Contents (Elt Ideal) → (⟨S50000x128, .f32⟩ : BufTy).Contents (Elt Ideal)) ((Host.divf (F := Ideal) (φ := .f32) : (⟨S50000x1, .f32⟩ : BufTy).Contents (Elt Ideal) → (⟨S50000x1, .f32⟩ : BufTy).Contents (Elt Ideal) → (⟨S50000x1, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) (((fun x v => Host.reduceAdd (F := Ideal) (φ := .f32) x v reducesTo_S50000x128_S50000_d1 h_S_) : (⟨S50000x128, .f32⟩ : BufTy).Contents (Elt Ideal) → (⟨S_, .f32⟩ : BufTy).Contents (Elt Ideal) → (⟨S50000, .f32⟩ : BufTy).Contents (Elt Ideal)) hl (constant (F := Ideal) S_ .f32 0x00000000#32))) ((broadcastInDim S50000x1 ![] bcast_S_S50000x1 : (⟨S_, .f32⟩ : BufTy).Contents (Elt Ideal) → (⟨S50000x1, .f32⟩ : BufTy).Contents (Elt Ideal)) (constant (F := Ideal) S_ .f32 0x43000000#32)))))) (constant (F := Ideal) S_ .f32 0x00000000#32))) ((broadcastInDim S50000x1 ![] bcast_S_S50000x1 : (⟨S_, .f32⟩ : BufTy).Contents (Elt Ideal) → (⟨S50000x1, .f32⟩ : BufTy).Contents (Elt Ideal)) (constant (F := Ideal) S_ .f32 0x43000000#32))) ((broadcastInDim S50000x1 ![] bcast_S_S50000x1 : (⟨S_, .f32⟩ : BufTy).Contents (Elt Ideal) → (⟨S50000x1, .f32⟩ : BufTy).Contents (Elt Ideal)) (constant (F := Ideal) S_ .f32 0x3727C5AC#32)))))) ((broadcastInDim S50000x128 ![0, 1] bcast_S1x128_S50000x128_0_1 : (⟨S1x128, .f32⟩ : BufTy).Contents (Elt Ideal) → (⟨S50000x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x9))) ((broadcastInDim S50000x128 ![0, 1] bcast_S1x128_S50000x128_0_1 : (⟨S1x128, .f32⟩ : BufTy).Contents (Elt Ideal) → (⟨S50000x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x10))) ((broadcastInDim S50000x128 ![] bcast_S_S50000x128) (constant (F := Ideal) S_ .f32 0x00000000#32)))

/-- The hidden state's mean over each node's incoming edges. -/
def agg2F (h : (⟨S50000x128, .f32⟩ : BufTy).Contents (Elt Ideal)) (x1 : (⟨S2x800000, .i32⟩ : BufTy).Contents (Elt Ideal)) : (⟨S50000x128, .f32⟩ : BufTy).Contents (Elt Ideal) :=
  ((Host.divf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000)) (((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)) h ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 50000#32))) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000))))) ((broadcastInDim S50000x128 ![0, 1] bcast_S50000x1_S50000x128_0_1 : (⟨S50000x1, .f32⟩ : BufTy).Contents (Elt Ideal) → (⟨S50000x128, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000)) ((broadcastInDim S800000 ![] bcast_S_S800000 : (⟨S_, .f32⟩ : BufTy).Contents (Elt Ideal) → (⟨S800000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32))))))

/-- The hidden state's mean over each node's outgoing edges. -/
def agg2R (h : (⟨S50000x128, .f32⟩ : BufTy).Contents (Elt Ideal)) (x1 : (⟨S2x800000, .i32⟩ : BufTy).Contents (Elt Ideal)) : (⟨S50000x128, .f32⟩ : BufTy).Contents (Elt Ideal) :=
  ((Host.divf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000)) (((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)) h ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000) ((broadcastInDim S800000 ![] bcast_S_S800000 : (⟨S_, .i32⟩ : BufTy).Contents (Elt Ideal) → (⟨S800000, .i32⟩ : BufTy).Contents (Elt Ideal)) (constantI S_ 32 50000#32))) (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000))))) ((broadcastInDim S50000x128 ![0, 1] bcast_S50000x1_S50000x128_0_1 : (⟨S50000x1, .f32⟩ : BufTy).Contents (Elt Ideal) → (⟨S50000x128, .f32⟩ : BufTy).Contents (Elt Ideal)) ((broadcastInDim S50000x1 ![0] bcast_S50000_S50000x1_0 : (⟨S50000, .f32⟩ : BufTy).Contents (Elt Ideal) → (⟨S50000x1, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000)) ((broadcastInDim S800000 ![] bcast_S_S800000 : (⟨S_, .f32⟩ : BufTy).Contents (Elt Ideal) → (⟨S800000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32))))))

/-- The second layer before its normalisation. -/
def zlR (h : (⟨S50000x128, .f32⟩ : BufTy).Contents (Elt Ideal)) (x1 : (⟨S2x800000, .i32⟩ : BufTy).Contents (Elt Ideal)) (x11 : (⟨S128x64, .f32⟩ : BufTy).Contents (Elt Ideal)) (x12 : (⟨S64, .f32⟩ : BufTy).Contents (Elt Ideal)) (x13 : (⟨S128x64, .f32⟩ : BufTy).Contents (Elt Ideal)) (x14 : (⟨S128x64, .f32⟩ : BufTy).Contents (Elt Ideal)) (x15 : (⟨S64, .f32⟩ : BufTy).Contents (Elt Ideal)) (x16 : (⟨S128x64, .f32⟩ : BufTy).Contents (Elt Ideal)) : (⟨S50000x64, .f32⟩ : BufTy).Contents (Elt Ideal) :=
  ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) (agg2F h x1) x11) ((broadcastInDim S50000x64 ![0, 1] bcast_S1x64_S50000x64_0_1 : (⟨S1x64, .f32⟩ : BufTy).Contents (Elt Ideal) → (⟨S50000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) x12))) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) h x13)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) (agg2R h x1) x14) ((broadcastInDim S50000x64 ![0, 1] bcast_S1x64_S50000x64_0_1 : (⟨S1x64, .f32⟩ : BufTy).Contents (Elt Ideal) → (⟨S50000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) x15))) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) h x16)))

/-- The embedding: each row divided by the larger of its norm and the floor. -/
def zR (zl : (⟨S50000x64, .f32⟩ : BufTy).Contents (Elt Ideal)) : (⟨S50000x64, .f32⟩ : BufTy).Contents (Elt Ideal) :=
  ((Host.divf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) zl ((broadcastInDim S50000x64 ![0, 1] bcast_S50000x1_S50000x64_0_1 : (⟨S50000x1, .f32⟩ : BufTy).Contents (Elt Ideal) → (⟨S50000x64, .f32⟩ : BufTy).Contents (Elt Ideal)) ((maximumf (F := Ideal) (φ := .f32) : (⟨S50000x1, .f32⟩ : BufTy).Contents (Elt Ideal) → (⟨S50000x1, .f32⟩ : BufTy).Contents (Elt Ideal) → (⟨S50000x1, .f32⟩ : BufTy).Contents (Elt Ideal)) (Host.sqrt (F := Ideal) (φ := .f32) ((broadcastInDim S50000x1 ![0] bcast_S50000_S50000x1_0) ((fun x v => Host.reduceAdd (F := Ideal) (φ := .f32) x v reducesTo_S50000x64_S50000_d1 h_S_) (mulf (F := Ideal) (φ := .f32) zl zl) (constant (F := Ideal) S_ .f32 0x00000000#32)))) ((broadcastInDim S50000x1 ![] bcast_S_S50000x1 : (⟨S_, .f32⟩ : BufTy).Contents (Elt Ideal) → (⟨S50000x1, .f32⟩ : BufTy).Contents (Elt Ideal)) (constant (F := Ideal) S_ .f32 0x2B8CBCCC#32)))))

/-- The embeddings of the labelled edges' first end points. -/
def zsR (z : (⟨S50000x64, .f32⟩ : BufTy).Contents (Elt Ideal)) (x2 : (⟨S2x100000, .i32⟩ : BufTy).Contents (Elt Ideal)) : (⟨S100000x64, .f32⟩ : BufTy).Contents (Elt Ideal) :=
  (((fun x i => Host.gather gather_S50000x64_S100000x1_S100000x64_1_0_n_n_0_1_164 x i) : (⟨S50000x64, .f32⟩ : BufTy).Contents (Elt Ideal) → (⟨S100000x1, .i32⟩ : BufTy).Contents (Elt Ideal) → (⟨S100000x64, .f32⟩ : BufTy).Contents (Elt Ideal)) z ((broadcastInDim S100000x1 ![0] bcast_S100000_S100000x1_0 : (⟨S100000, .i32⟩ : BufTy).Contents (Elt Ideal) → (⟨S100000x1, .i32⟩ : BufTy).Contents (Elt Ideal)) ((select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) ((cmpi .slt : (⟨S100000, .i32⟩ : BufTy).Contents (Elt Ideal) → (⟨S100000, .i32⟩ : BufTy).Contents (Elt Ideal) → (⟨S100000, .i1⟩ : BufTy).Contents (Elt Ideal)) (shapeCast _ (((extractStridedSlice S1x100000 ![0, 0] · slices_S2x100000_S1x100000_0_0) : (⟨S2x100000, .i32⟩ : BufTy).Contents (Elt Ideal) → (⟨S1x100000, .i32⟩ : BufTy).Contents (Elt Ideal)) x2) shapeCasts_S1x100000_S100000) ((broadcastInDim S100000 ![] bcast_S_S100000 : (⟨S_, .i32⟩ : BufTy).Contents (Elt Ideal) → (⟨S100000, .i32⟩ : BufTy).Contents (Elt Ideal)) (constantI S_ 32 0#32))) ((addi : (⟨S100000, .i32⟩ : BufTy).Contents (Elt Ideal) → (⟨S100000, .i32⟩ : BufTy).Contents (Elt Ideal) → (⟨S100000, .i32⟩ : BufTy).Contents (Elt Ideal)) (shapeCast _ (((extractStridedSlice S1x100000 ![0, 0] · slices_S2x100000_S1x100000_0_0) : (⟨S2x100000, .i32⟩ : BufTy).Contents (Elt Ideal) → (⟨S1x100000, .i32⟩ : BufTy).Contents (Elt Ideal)) x2) shapeCasts_S1x100000_S100000) ((broadcastInDim S100000 ![] bcast_S_S100000 : (⟨S_, .i32⟩ : BufTy).Contents (Elt Ideal) → (⟨S100000, .i32⟩ : BufTy).Contents (Elt Ideal)) (constantI S_ 32 50000#32))) (shapeCast _ (((extractStridedSlice S1x100000 ![0, 0] · slices_S2x100000_S1x100000_0_0) : (⟨S2x100000, .i32⟩ : BufTy).Contents (Elt Ideal) → (⟨S1x100000, .i32⟩ : BufTy).Contents (Elt Ideal)) x2) shapeCasts_S1x100000_S100000))))

/-- The embeddings of the labelled edges' second end points. -/
def zdR (z : (⟨S50000x64, .f32⟩ : BufTy).Contents (Elt Ideal)) (x2 : (⟨S2x100000, .i32⟩ : BufTy).Contents (Elt Ideal)) : (⟨S100000x64, .f32⟩ : BufTy).Contents (Elt Ideal) :=
  (((fun x i => Host.gather gather_S50000x64_S100000x1_S100000x64_1_0_n_n_0_1_164 x i) : (⟨S50000x64, .f32⟩ : BufTy).Contents (Elt Ideal) → (⟨S100000x1, .i32⟩ : BufTy).Contents (Elt Ideal) → (⟨S100000x64, .f32⟩ : BufTy).Contents (Elt Ideal)) z ((broadcastInDim S100000x1 ![0] bcast_S100000_S100000x1_0 : (⟨S100000, .i32⟩ : BufTy).Contents (Elt Ideal) → (⟨S100000x1, .i32⟩ : BufTy).Contents (Elt Ideal)) ((select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) ((cmpi .slt : (⟨S100000, .i32⟩ : BufTy).Contents (Elt Ideal) → (⟨S100000, .i32⟩ : BufTy).Contents (Elt Ideal) → (⟨S100000, .i1⟩ : BufTy).Contents (Elt Ideal)) (shapeCast _ (((extractStridedSlice S1x100000 ![1, 0] · slices_S2x100000_S1x100000_1_0) : (⟨S2x100000, .i32⟩ : BufTy).Contents (Elt Ideal) → (⟨S1x100000, .i32⟩ : BufTy).Contents (Elt Ideal)) x2) shapeCasts_S1x100000_S100000) ((broadcastInDim S100000 ![] bcast_S_S100000 : (⟨S_, .i32⟩ : BufTy).Contents (Elt Ideal) → (⟨S100000, .i32⟩ : BufTy).Contents (Elt Ideal)) (constantI S_ 32 0#32))) ((addi : (⟨S100000, .i32⟩ : BufTy).Contents (Elt Ideal) → (⟨S100000, .i32⟩ : BufTy).Contents (Elt Ideal) → (⟨S100000, .i32⟩ : BufTy).Contents (Elt Ideal)) (shapeCast _ (((extractStridedSlice S1x100000 ![1, 0] · slices_S2x100000_S1x100000_1_0) : (⟨S2x100000, .i32⟩ : BufTy).Contents (Elt Ideal) → (⟨S1x100000, .i32⟩ : BufTy).Contents (Elt Ideal)) x2) shapeCasts_S1x100000_S100000) ((broadcastInDim S100000 ![] bcast_S_S100000 : (⟨S_, .i32⟩ : BufTy).Contents (Elt Ideal) → (⟨S100000, .i32⟩ : BufTy).Contents (Elt Ideal)) (constantI S_ 32 50000#32))) (shapeCast _ (((extractStridedSlice S1x100000 ![1, 0] · slices_S2x100000_S1x100000_1_0) : (⟨S2x100000, .i32⟩ : BufTy).Contents (Elt Ideal) → (⟨S1x100000, .i32⟩ : BufTy).Contents (Elt Ideal)) x2) shapeCasts_S1x100000_S100000))))

/-- The decoder's score of every labelled edge. -/
def outR (z : (⟨S50000x64, .f32⟩ : BufTy).Contents (Elt Ideal)) (x2 : (⟨S2x100000, .i32⟩ : BufTy).Contents (Elt Ideal)) (x17 : (⟨S192x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal)) : (⟨S100000, .f32⟩ : BufTy).Contents (Elt Ideal) :=
  (shapeCast _ ((addf (F := Ideal) (φ := .f32) : (⟨S100000x1, .f32⟩ : BufTy).Contents (Elt Ideal) → (⟨S100000x1, .f32⟩ : BufTy).Contents (Elt Ideal) → (⟨S100000x1, .f32⟩ : BufTy).Contents (Elt Ideal)) (((fun l r => Host.dotGeneral (F := Ideal) (φ₁ := .f32) (φ₂ := .f32) dot_S100000x32_S32x1_S100000x1_1_0_0_1_n_n none l r) : (⟨S100000x32, .f32⟩ : BufTy).Contents (Elt Ideal) → (⟨S32x1, .f32⟩ : BufTy).Contents (Elt Ideal) → (⟨S100000x1, .f32⟩ : BufTy).Contents (Elt Ideal)) (maximumf (F := Ideal) (φ := .f32) ((addf (F := Ideal) (φ := .f32) : (⟨S100000x32, .f32⟩ : BufTy).Contents (Elt Ideal) → (⟨S100000x32, .f32⟩ : BufTy).Contents (Elt Ideal) → (⟨S100000x32, .f32⟩ : BufTy).Contents (Elt Ideal)) (((fun l r => Host.dotGeneral (F := Ideal) (φ₁ := .f32) (φ₂ := .f32) dot_S100000x64_S64x32_S100000x32_1_0_0_1_n_n none l r) : (⟨S100000x64, .f32⟩ : BufTy).Contents (Elt Ideal) → (⟨S64x32, .f32⟩ : BufTy).Contents (Elt Ideal) → (⟨S100000x32, .f32⟩ : BufTy).Contents (Elt Ideal)) (maximumf (F := Ideal) (φ := .f32) ((addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) (((fun l r => Host.dotGeneral (F := Ideal) (φ₁ := .f32) (φ₂ := .f32) dot_S100000x192_S192x64_S100000x64_1_0_0_1_n_n none l r) : (⟨S100000x192, .f32⟩ : BufTy).Contents (Elt Ideal) → (⟨S192x64, .f32⟩ : BufTy).Contents (Elt Ideal) → (⟨S100000x64, .f32⟩ : BufTy).Contents (Elt Ideal)) (concatenate S100000x192 1 [⟨S100000x64, (zsR z x2)⟩, ⟨S100000x64, (zdR z x2)⟩, ⟨S100000x64, ((mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) (zsR z x2) (zdR z x2))⟩] concatenates_S100000x64_S100000x64_S100000x64_S100000x192_d1) x17) ((broadcastInDim S100000x64 ![0, 1] bcast_S1x64_S100000x64_0_1 : (⟨S1x64, .f32⟩ : BufTy).Contents (Elt Ideal) → (⟨S100000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) x18))) ((broadcastInDim S100000x64 ![] bcast_S_S100000x64) (constant (F := Ideal) S_ .f32 0x00000000#32))) x19) ((broadcastInDim S100000x32 ![0, 1] bcast_S1x32_S100000x32_0_1 : (⟨S1x32, .f32⟩ : BufTy).Contents (Elt Ideal) → (⟨S100000x32, .f32⟩ : BufTy).Contents (Elt Ideal)) ((broadcastInDim S1x32 ![1] bcast_S32_S1x32_1 : (⟨S32, .f32⟩ : BufTy).Contents (Elt Ideal) → (⟨S1x32, .f32⟩ : BufTy).Contents (Elt Ideal)) x20))) ((broadcastInDim S100000x32 ![] bcast_S_S100000x32) (constant (F := Ideal) S_ .f32 0x00000000#32))) x21) ((broadcastInDim S100000x1 ![0, 1] bcast_S1x1_S100000x1_0_1 : (⟨S1x1, .f32⟩ : BufTy).Contents (Elt Ideal) → (⟨S100000x1, .f32⟩ : BufTy).Contents (Elt Ideal)) ((broadcastInDim S1x1 ![1] bcast_S1_S1x1_1 : (⟨S1, .f32⟩ : BufTy).Contents (Elt Ideal) → (⟨S1x1, .f32⟩ : BufTy).Contents (Elt Ideal)) x22))) shapeCasts_S100000x1_S100000)

end Cert.ReferenceIdeal.Val

end
-- ==== Proof.RefRun.lean ====
/-
  The reference program's run. Its @main is a straight line of 227 host operations (an outlined function's operations
  standing at its call); here the line is cut in five — the first layer's sum, the hidden state, the second layer's
  sum, the embedding, the decoder — so that what a buffer holds after the line is read stretch by stretch, each stretch
  a pure function (`RefVal`) of what the one before left: every weakly fair execution terminates with the result buffer
  at the composition `refResult` of the five over the launch contents of the arguments, which end unchanged.
-/
import proofs.«106045_j46145128628314_2_alg».proof.Proof.Gen.ReferenceIdeal
import proofs.«106045_j46145128628314_2_alg».proof.Proof.RefVal
import proofs.«106045_j46145128628314_2_alg».proof.Proof.LibTypedRefs
import Idealize.ShloMosaic.Lib.StableHlo.Run

set_option maxRecDepth 8192

noncomputable section

namespace Cert.ReferenceIdeal.HandRun

open Cert.ReferenceIdeal Cert.ReferenceIdeal.Gen Cert.ReferenceIdeal.Val
open Idealize.ShloMosaic Idealize.ShloMosaic.TcCoe Idealize.SL.Sem Idealize.ShloMosaic.StableHlo

section Ops

variable {F : FTy → Type} [FloatOps F]

/-- The operations up to the first layer's sum: both mean aggregations of the features and the two combines. -/
abbrev opsA1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x64 ![0, 1] bcast_S50000x1_S50000x64_0_1 : (⟨S50000x1, .f32⟩ : BufTy).Contents (Elt F) → (⟨S50000x64, .f32⟩ : BufTy).Contents (Elt F)),
    binary main_v13 main_v21 main_v22 (Host.divf : (⟨S50000x64, .f32⟩ : BufTy).Contents (Elt F) → (⟨S50000x64, .f32⟩ : BufTy).Contents (Elt F) → (⟨S50000x64, .f32⟩ : BufTy).Contents (Elt F)),
    binary main_v22 main_arg3 main_v23 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg4 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    binary main_arg0 main_arg5 main_v27 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v26 main_v27 main_v28 (addf : (⟨S50000x128, .f32⟩ : BufTy).Contents (Elt F) → (⟨S50000x128, .f32⟩ : BufTy).Contents (Elt F) → (⟨S50000x128, .f32⟩ : BufTy).Contents (Elt F)),
    unary main_arg1 main_v29 ((extractStridedSlice S1x800000 ![1, 0] · slices_S2x800000_S1x800000_1_0) : (⟨S2x800000, .i32⟩ : BufTy).Contents (Elt F) → (⟨S1x800000, .i32⟩ : BufTy).Contents (Elt F)),
    reshape main_v29 main_v30 rfl shapeCasts_S1x800000_S800000,
    unary main_arg1 main_v31 ((extractStridedSlice S1x800000 ![0, 0] · slices_S2x800000_S1x800000_0_0) : (⟨S2x800000, .i32⟩ : BufTy).Contents (Elt F) → (⟨S1x800000, .i32⟩ : BufTy).Contents (Elt F)),
    reshape main_v31 main_v32 rfl shapeCasts_S1x800000_S800000,
    nullary main_c_4 (constantI S_ 32 0#32),
    unary main_c_4 main_v33 (broadcastInDim S800000 ![] bcast_S_S800000 : (⟨S_, .i32⟩ : BufTy).Contents (Elt F) → (⟨S800000, .i32⟩ : BufTy).Contents (Elt F)),
    binary main_v30 main_v33 main_v34 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v35 (broadcastInDim S800000 ![] bcast_S_S800000 : (⟨S_, .i32⟩ : BufTy).Contents (Elt F) → (⟨S800000, .i32⟩ : BufTy).Contents (Elt F)),
    binary main_v30 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v30 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_arg0 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_6 (constant S_ .f32 0x00000000#32),
    unary main_cst_6 main_v40 (broadcastInDim S50000x64 ![] bcast_S_S50000x64 : (⟨S_, .f32⟩ : BufTy).Contents (Elt F) → (⟨S50000x64, .f32⟩ : BufTy).Contents (Elt F)),
    unary main_v32 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x3F800000#32),
    unary main_cst_7 main_v43 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v44 (broadcastInDim S50000 ![] bcast_S_S50000 : (⟨S_, .f32⟩ : BufTy).Contents (Elt F) → (⟨S50000, .f32⟩ : BufTy).Contents (Elt F)),
    unary main_v32 main_v45 (broadcastInDim S800000x1 ![0] bcast_S800000_S800000x1_0 : (⟨S800000, .i32⟩ : BufTy).Contents (Elt F) → (⟨S800000x1, .i32⟩ : BufTy).Contents (Elt F)),
    ternary main_v44 main_v45 main_v43 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v47 (broadcastInDim S50000 ![] bcast_S_S50000 : (⟨S_, .f32⟩ : BufTy).Contents (Elt F) → (⟨S50000, .f32⟩ : BufTy).Contents (Elt F)),
    binary main_v46 main_v47 main_v48 (maximumf : (⟨S50000, .f32⟩ : BufTy).Contents (Elt F) → (⟨S50000, .f32⟩ : BufTy).Contents (Elt F) → (⟨S50000, .f32⟩ : BufTy).Contents (Elt F)),
    unary main_v48 main_v49 (broadcastInDim S50000x1 ![0] bcast_S50000_S50000x1_0 : (⟨S50000, .f32⟩ : BufTy).Contents (Elt F) → (⟨S50000x1, .f32⟩ : BufTy).Contents (Elt F)),
    unary main_v49 main_v50 (broadcastInDim S50000x64 ![0, 1] bcast_S50000x1_S50000x64_0_1 : (⟨S50000x1, .f32⟩ : BufTy).Contents (Elt F) → (⟨S50000x64, .f32⟩ : BufTy).Contents (Elt F)),
    binary main_v42 main_v50 main_v51 (Host.divf : (⟨S50000x64, .f32⟩ : BufTy).Contents (Elt F) → (⟨S50000x64, .f32⟩ : BufTy).Contents (Elt F) → (⟨S50000x64, .f32⟩ : BufTy).Contents (Elt F)),
    binary main_v51 main_arg6 main_v52 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg7 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    binary main_arg0 main_arg8 main_v56 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v55 main_v56 main_v57 (addf : (⟨S50000x128, .f32⟩ : BufTy).Contents (Elt F) → (⟨S50000x128, .f32⟩ : BufTy).Contents (Elt F) → (⟨S50000x128, .f32⟩ : BufTy).Contents (Elt F)),
    binary main_v28 main_v57 main_v58 (addf : (⟨S50000x128, .f32⟩ : BufTy).Contents (Elt F) → (⟨S50000x128, .f32⟩ : BufTy).Contents (Elt F) → (⟨S50000x128, .f32⟩ : BufTy).Contents (Elt F)) ]

/-- The normalisation along each row, the scale and shift, the clamp: the hidden state. -/
abbrev opsA2 : List (HloOp τ sig (Elt F)) :=
  [ nullary main_cst_10 (constant S_ .f32 0x00000000#32),
    binary main_v58 main_cst_10 main_v59 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v59 main_v60 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v61 (broadcastInDim S50000x1 ![] bcast_S_S50000x1 : (⟨S_, .f32⟩ : BufTy).Contents (Elt F) → (⟨S50000x1, .f32⟩ : BufTy).Contents (Elt F)),
    binary main_v60 main_v61 main_v62 (Host.divf : (⟨S50000x1, .f32⟩ : BufTy).Contents (Elt F) → (⟨S50000x1, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v58 main_v63 main_v64 (subf : (⟨S50000x128, .f32⟩ : BufTy).Contents (Elt F) → (⟨S50000x128, .f32⟩ : BufTy).Contents (Elt F) → (⟨S50000x128, .f32⟩ : BufTy).Contents (Elt F)),
    binary main_v64 main_v64 main_v65 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v65 main_cst_12 main_v66 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v66 main_v67 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v68 (broadcastInDim S50000x1 ![] bcast_S_S50000x1 : (⟨S_, .f32⟩ : BufTy).Contents (Elt F) → (⟨S50000x1, .f32⟩ : BufTy).Contents (Elt F)),
    binary main_v67 main_v68 main_v69 (Host.divf : (⟨S50000x1, .f32⟩ : BufTy).Contents (Elt F) → (⟨S50000x1, .f32⟩ : BufTy).Contents (Elt F) → (⟨S50000x1, .f32⟩ : BufTy).Contents (Elt F)),
    unary main_v62 main_v70 (broadcastInDim S50000x128 ![0, 1] bcast_S50000x1_S50000x128_0_1 : (⟨S50000x1, .f32⟩ : BufTy).Contents (Elt F) → (⟨S50000x128, .f32⟩ : BufTy).Contents (Elt F)),
    binary main_v58 main_v70 main_v71 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v72 (broadcastInDim S50000x1 ![] bcast_S_S50000x1 : (⟨S_, .f32⟩ : BufTy).Contents (Elt F) → (⟨S50000x1, .f32⟩ : BufTy).Contents (Elt F)),
    binary main_v69 main_v72 main_v73 (addf : (⟨S50000x1, .f32⟩ : BufTy).Contents (Elt F) → (⟨S50000x1, .f32⟩ : BufTy).Contents (Elt F) → (⟨S50000x1, .f32⟩ : BufTy).Contents (Elt F)),
    unary main_v73 main_v74 (Host.rsqrt : (⟨S50000x1, .f32⟩ : BufTy).Contents (Elt F) → (⟨S50000x1, .f32⟩ : BufTy).Contents (Elt F)),
    unary main_v74 main_v75 (broadcastInDim S50000x128 ![0, 1] bcast_S50000x1_S50000x128_0_1 : (⟨S50000x1, .f32⟩ : BufTy).Contents (Elt F) → (⟨S50000x128, .f32⟩ : BufTy).Contents (Elt F)),
    binary main_v71 main_v75 main_v76 (mulf : (⟨S50000x128, .f32⟩ : BufTy).Contents (Elt F) → (⟨S50000x128, .f32⟩ : BufTy).Contents (Elt F) → (⟨S50000x128, .f32⟩ : BufTy).Contents (Elt F)),
    unary main_arg9 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (mulf : (⟨S50000x128, .f32⟩ : BufTy).Contents (Elt F) → (⟨S50000x128, .f32⟩ : BufTy).Contents (Elt F) → (⟨S50000x128, .f32⟩ : BufTy).Contents (Elt F)),
    unary main_arg10 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v82) (TRef.of (T := ⟨S50000x128, .f32⟩) main_call0_v0) (TRef.of (T := ⟨S50000x128, .f32⟩) main_v83) maximumf ]

/-- Both mean aggregations of the hidden state and the two combines: the second layer's sum. -/
abbrev opsB1 : List (HloOp τ sig (Elt F)) :=
  [ unary main_arg1 main_v84 ((extractStridedSlice S1x800000 ![0, 0] · slices_S2x800000_S1x800000_0_0) : (⟨S2x800000, .i32⟩ : BufTy).Contents (Elt F) → (⟨S1x800000, .i32⟩ : BufTy).Contents (Elt F)),
    reshape main_v84 main_v85 rfl shapeCasts_S1x800000_S800000,
    unary main_arg1 main_v86 ((extractStridedSlice S1x800000 ![1, 0] · slices_S2x800000_S1x800000_1_0) : (⟨S2x800000, .i32⟩ : BufTy).Contents (Elt F) → (⟨S1x800000, .i32⟩ : BufTy).Contents (Elt F)),
    reshape main_v86 main_v87 rfl shapeCasts_S1x800000_S800000,
    nullary main_c_15 (constantI S_ 32 0#32),
    unary main_c_15 main_v88 (broadcastInDim S800000 ![] bcast_S_S800000 : (⟨S_, .i32⟩ : BufTy).Contents (Elt F) → (⟨S800000, .i32⟩ : BufTy).Contents (Elt F)),
    binary main_v85 main_v88 main_v89 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v90 (broadcastInDim S800000 ![] bcast_S_S800000 : (⟨S_, .i32⟩ : BufTy).Contents (Elt F) → (⟨S800000, .i32⟩ : BufTy).Contents (Elt F)),
    binary main_v85 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v85 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v83 main_v93 main_v94 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_17 (constant S_ .f32 0x00000000#32),
    unary main_cst_17 main_v95 (broadcastInDim S50000x128 ![] bcast_S_S50000x128 : (⟨S_, .f32⟩ : BufTy).Contents (Elt F) → (⟨S50000x128, .f32⟩ : BufTy).Contents (Elt F)),
    unary main_v87 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_18 (constant S_ .f32 0x3F800000#32),
    unary main_cst_18 main_v98 (broadcastInDim S800000 ![] bcast_S_S800000 : (⟨S_, .f32⟩ : BufTy).Contents (Elt F) → (⟨S800000, .f32⟩ : BufTy).Contents (Elt F)),
    nullary main_cst_19 (constant S_ .f32 0x00000000#32),
    unary main_cst_19 main_v99 (broadcastInDim S50000 ![] bcast_S_S50000 : (⟨S_, .f32⟩ : BufTy).Contents (Elt F) → (⟨S50000, .f32⟩ : BufTy).Contents (Elt F)),
    unary main_v87 main_v100 (broadcastInDim S800000x1 ![0] bcast_S800000_S800000x1_0 : (⟨S800000, .i32⟩ : BufTy).Contents (Elt F) → (⟨S800000x1, .i32⟩ : BufTy).Contents (Elt F)),
    ternary main_v99 main_v100 main_v98 main_v101 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_20 (constant S_ .f32 0x3F800000#32),
    unary main_cst_20 main_v102 (broadcastInDim S50000 ![] bcast_S_S50000 : (⟨S_, .f32⟩ : BufTy).Contents (Elt F) → (⟨S50000, .f32⟩ : BufTy).Contents (Elt F)),
    binary main_v101 main_v102 main_v103 (maximumf : (⟨S50000, .f32⟩ : BufTy).Contents (Elt F) → (⟨S50000, .f32⟩ : BufTy).Contents (Elt F) → (⟨S50000, .f32⟩ : BufTy).Contents (Elt F)),
    unary main_v103 main_v104 (broadcastInDim S50000x1 ![0] bcast_S50000_S50000x1_0 : (⟨S50000, .f32⟩ : BufTy).Contents (Elt F) → (⟨S50000x1, .f32⟩ : BufTy).Contents (Elt F)),
    unary main_v104 main_v105 (broadcastInDim S50000x128 ![0, 1] bcast_S50000x1_S50000x128_0_1 : (⟨S50000x1, .f32⟩ : BufTy).Contents (Elt F) → (⟨S50000x128, .f32⟩ : BufTy).Contents (Elt F)),
    binary main_v97 main_v105 main_v106 (Host.divf : (⟨S50000x128, .f32⟩ : BufTy).Contents (Elt F) → (⟨S50000x128, .f32⟩ : BufTy).Contents (Elt F) → (⟨S50000x128, .f32⟩ : BufTy).Contents (Elt F)),
    binary main_v106 main_arg11 main_v107 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg12 main_v108 (broadcastInDim S1x64 ![1] bcast_S64_S1x64_1 : (⟨S64, .f32⟩ : BufTy).Contents (Elt F) → (⟨S1x64, .f32⟩ : BufTy).Contents (Elt F)),
    unary main_v108 main_v109 (broadcastInDim S50000x64 ![0, 1] bcast_S1x64_S50000x64_0_1 : (⟨S1x64, .f32⟩ : BufTy).Contents (Elt F) → (⟨S50000x64, .f32⟩ : BufTy).Contents (Elt F)),
    binary main_v107 main_v109 main_v110 (addf : (⟨S50000x64, .f32⟩ : BufTy).Contents (Elt F) → (⟨S50000x64, .f32⟩ : BufTy).Contents (Elt F) → (⟨S50000x64, .f32⟩ : BufTy).Contents (Elt F)),
    binary main_v83 main_arg13 main_v111 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v110 main_v111 main_v112 (addf : (⟨S50000x64, .f32⟩ : BufTy).Contents (Elt F) → (⟨S50000x64, .f32⟩ : BufTy).Contents (Elt F) → (⟨S50000x64, .f32⟩ : BufTy).Contents (Elt F)),
    unary main_arg1 main_v113 ((extractStridedSlice S1x800000 ![1, 0] · slices_S2x800000_S1x800000_1_0) : (⟨S2x800000, .i32⟩ : BufTy).Contents (Elt F) → (⟨S1x800000, .i32⟩ : BufTy).Contents (Elt F)),
    reshape main_v113 main_v114 rfl shapeCasts_S1x800000_S800000,
    unary main_arg1 main_v115 ((extractStridedSlice S1x800000 ![0, 0] · slices_S2x800000_S1x800000_0_0) : (⟨S2x800000, .i32⟩ : BufTy).Contents (Elt F) → (⟨S1x800000, .i32⟩ : BufTy).Contents (Elt F)),
    reshape main_v115 main_v116 rfl shapeCasts_S1x800000_S800000,
    nullary main_c_21 (constantI S_ 32 0#32),
    unary main_c_21 main_v117 (broadcastInDim S800000 ![] bcast_S_S800000 : (⟨S_, .i32⟩ : BufTy).Contents (Elt F) → (⟨S800000, .i32⟩ : BufTy).Contents (Elt F)),
    binary main_v114 main_v117 main_v118 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v119 (broadcastInDim S800000 ![] bcast_S_S800000 : (⟨S_, .i32⟩ : BufTy).Contents (Elt F) → (⟨S800000, .i32⟩ : BufTy).Contents (Elt F)),
    binary main_v114 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_v114 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v121 main_v122 (broadcastInDim S800000x1 ![0] bcast_S800000_S800000x1_0 : (⟨S800000, .i32⟩ : BufTy).Contents (Elt F) → (⟨S800000x1, .i32⟩ : BufTy).Contents (Elt F)),
    binary main_v83 main_v122 main_v123 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_23 (constant S_ .f32 0x00000000#32),
    unary main_cst_23 main_v124 (broadcastInDim S50000x128 ![] bcast_S_S50000x128 : (⟨S_, .f32⟩ : BufTy).Contents (Elt F) → (⟨S50000x128, .f32⟩ : BufTy).Contents (Elt F)),
    unary main_v116 main_v125 (broadcastInDim S800000x1 ![0] bcast_S800000_S800000x1_0 : (⟨S800000, .i32⟩ : BufTy).Contents (Elt F) → (⟨S800000x1, .i32⟩ : BufTy).Contents (Elt F)),
    ternary main_v124 main_v125 main_v123 main_v126 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_24 (constant S_ .f32 0x3F800000#32),
    unary main_cst_24 main_v127 (broadcastInDim S800000 ![] bcast_S_S800000 : (⟨S_, .f32⟩ : BufTy).Contents (Elt F) → (⟨S800000, .f32⟩ : BufTy).Contents (Elt F)),
    nullary main_cst_25 (constant S_ .f32 0x00000000#32),
    unary main_cst_25 main_v128 (broadcastInDim S50000 ![] bcast_S_S50000 : (⟨S_, .f32⟩ : BufTy).Contents (Elt F) → (⟨S50000, .f32⟩ : BufTy).Contents (Elt F)),
    unary main_v116 main_v129 (broadcastInDim S800000x1 ![0] bcast_S800000_S800000x1_0 : (⟨S800000, .i32⟩ : BufTy).Contents (Elt F) → (⟨S800000x1, .i32⟩ : BufTy).Contents (Elt F)),
    ternary main_v128 main_v129 main_v127 main_v130 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_26 (constant S_ .f32 0x3F800000#32),
    unary main_cst_26 main_v131 (broadcastInDim S50000 ![] bcast_S_S50000 : (⟨S_, .f32⟩ : BufTy).Contents (Elt F) → (⟨S50000, .f32⟩ : BufTy).Contents (Elt F)),
    binary main_v130 main_v131 main_v132 (maximumf : (⟨S50000, .f32⟩ : BufTy).Contents (Elt F) → (⟨S50000, .f32⟩ : BufTy).Contents (Elt F) → (⟨S50000, .f32⟩ : BufTy).Contents (Elt F)),
    unary main_v132 main_v133 (broadcastInDim S50000x1 ![0] bcast_S50000_S50000x1_0 : (⟨S50000, .f32⟩ : BufTy).Contents (Elt F) → (⟨S50000x1, .f32⟩ : BufTy).Contents (Elt F)),
    unary main_v133 main_v134 (broadcastInDim S50000x128 ![0, 1] bcast_S50000x1_S50000x128_0_1 : (⟨S50000x1, .f32⟩ : BufTy).Contents (Elt F) → (⟨S50000x128, .f32⟩ : BufTy).Contents (Elt F)),
    binary main_v126 main_v134 main_v135 (Host.divf : (⟨S50000x128, .f32⟩ : BufTy).Contents (Elt F) → (⟨S50000x128, .f32⟩ : BufTy).Contents (Elt F) → (⟨S50000x128, .f32⟩ : BufTy).Contents (Elt F)),
    binary main_v135 main_arg14 main_v136 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg15 main_v137 (broadcastInDim S1x64 ![1] bcast_S64_S1x64_1 : (⟨S64, .f32⟩ : BufTy).Contents (Elt F) → (⟨S1x64, .f32⟩ : BufTy).Contents (Elt F)),
    unary main_v137 main_v138 (broadcastInDim S50000x64 ![0, 1] bcast_S1x64_S50000x64_0_1 : (⟨S1x64, .f32⟩ : BufTy).Contents (Elt F) → (⟨S50000x64, .f32⟩ : BufTy).Contents (Elt F)),
    binary main_v136 main_v138 main_v139 (addf : (⟨S50000x64, .f32⟩ : BufTy).Contents (Elt F) → (⟨S50000x64, .f32⟩ : BufTy).Contents (Elt F) → (⟨S50000x64, .f32⟩ : BufTy).Contents (Elt F)),
    binary main_v83 main_arg16 main_v140 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v139 main_v140 main_v141 (addf : (⟨S50000x64, .f32⟩ : BufTy).Contents (Elt F) → (⟨S50000x64, .f32⟩ : BufTy).Contents (Elt F) → (⟨S50000x64, .f32⟩ : BufTy).Contents (Elt F)),
    binary main_v112 main_v141 main_v142 (addf : (⟨S50000x64, .f32⟩ : BufTy).Contents (Elt F) → (⟨S50000x64, .f32⟩ : BufTy).Contents (Elt F) → (⟨S50000x64, .f32⟩ : BufTy).Contents (Elt F)) ]

/-- Each row divided by the larger of its norm and the floor: the embedding. -/
abbrev opsB2 : List (HloOp τ sig (Elt F)) :=
  [ TRef.binary (TRef.of (T := ⟨S50000x64, .f32⟩) main_v142) (TRef.of (T := ⟨S50000x64, .f32⟩) main_v142) (TRef.of (T := ⟨S50000x64, .f32⟩) main_call1_v0) mulf,
    TRef.nullary (TRef.of (T := ⟨S_, .f32⟩) main_call1_cst) (constant S_ .f32 0x00000000#32),
    TRef.binary (TRef.of (T := ⟨S50000x64, .f32⟩) main_call1_v0) (TRef.of (T := ⟨S_, .f32⟩) main_call1_cst) (TRef.of (T := ⟨S50000, .f32⟩) main_call1_v1) (fun x v => Host.reduceAdd x v reducesTo_S50000x64_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v143) Host.sqrt,
    nullary main_cst_27 (constant S_ .f32 0x2B8CBCCC#32),
    unary main_cst_27 main_v144 (broadcastInDim S50000x1 ![] bcast_S_S50000x1 : (⟨S_, .f32⟩ : BufTy).Contents (Elt F) → (⟨S50000x1, .f32⟩ : BufTy).Contents (Elt F)),
    binary main_v143 main_v144 main_v145 (maximumf : (⟨S50000x1, .f32⟩ : BufTy).Contents (Elt F) → (⟨S50000x1, .f32⟩ : BufTy).Contents (Elt F) → (⟨S50000x1, .f32⟩ : BufTy).Contents (Elt F)),
    unary main_v145 main_v146 (broadcastInDim S50000x64 ![0, 1] bcast_S50000x1_S50000x64_0_1 : (⟨S50000x1, .f32⟩ : BufTy).Contents (Elt F) → (⟨S50000x64, .f32⟩ : BufTy).Contents (Elt F)),
    binary main_v142 main_v146 main_v147 (Host.divf : (⟨S50000x64, .f32⟩ : BufTy).Contents (Elt F) → (⟨S50000x64, .f32⟩ : BufTy).Contents (Elt F) → (⟨S50000x64, .f32⟩ : BufTy).Contents (Elt F)) ]

/-- The decoder: the end points' rows gathered, their product, the three joined, three dense layers, the result flattened. -/
abbrev opsC : List (HloOp τ sig (Elt F)) :=
  [ unary main_arg2 main_v148 ((extractStridedSlice S1x100000 ![0, 0] · slices_S2x100000_S1x100000_0_0) : (⟨S2x100000, .i32⟩ : BufTy).Contents (Elt F) → (⟨S1x100000, .i32⟩ : BufTy).Contents (Elt F)),
    reshape main_v148 main_v149 rfl shapeCasts_S1x100000_S100000,
    nullary main_c_28 (constantI S_ 32 0#32),
    unary main_c_28 main_v150 (broadcastInDim S100000 ![] bcast_S_S100000 : (⟨S_, .i32⟩ : BufTy).Contents (Elt F) → (⟨S100000, .i32⟩ : BufTy).Contents (Elt F)),
    binary main_v149 main_v150 main_v151 (cmpi .slt : (⟨S100000, .i32⟩ : BufTy).Contents (Elt F) → (⟨S100000, .i32⟩ : BufTy).Contents (Elt F) → (⟨S100000, .i1⟩ : BufTy).Contents (Elt F)),
    nullary main_c_29 (constantI S_ 32 50000#32),
    unary main_c_29 main_v152 (broadcastInDim S100000 ![] bcast_S_S100000 : (⟨S_, .i32⟩ : BufTy).Contents (Elt F) → (⟨S100000, .i32⟩ : BufTy).Contents (Elt F)),
    binary main_v149 main_v152 main_v153 (addi : (⟨S100000, .i32⟩ : BufTy).Contents (Elt F) → (⟨S100000, .i32⟩ : BufTy).Contents (Elt F) → (⟨S100000, .i32⟩ : BufTy).Contents (Elt F)),
    ternary main_v151 main_v153 main_v149 main_v154 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v154 main_v155 (broadcastInDim S100000x1 ![0] bcast_S100000_S100000x1_0 : (⟨S100000, .i32⟩ : BufTy).Contents (Elt F) → (⟨S100000x1, .i32⟩ : BufTy).Contents (Elt F)),
    binary main_v147 main_v155 main_v156 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    unary main_arg2 main_v157 ((extractStridedSlice S1x100000 ![1, 0] · slices_S2x100000_S1x100000_1_0) : (⟨S2x100000, .i32⟩ : BufTy).Contents (Elt F) → (⟨S1x100000, .i32⟩ : BufTy).Contents (Elt F)),
    reshape main_v157 main_v158 rfl shapeCasts_S1x100000_S100000,
    nullary main_c_30 (constantI S_ 32 0#32),
    unary main_c_30 main_v159 (broadcastInDim S100000 ![] bcast_S_S100000 : (⟨S_, .i32⟩ : BufTy).Contents (Elt F) → (⟨S100000, .i32⟩ : BufTy).Contents (Elt F)),
    binary main_v158 main_v159 main_v160 (cmpi .slt : (⟨S100000, .i32⟩ : BufTy).Contents (Elt F) → (⟨S100000, .i32⟩ : BufTy).Contents (Elt F) → (⟨S100000, .i1⟩ : BufTy).Contents (Elt F)),
    nullary main_c_31 (constantI S_ 32 50000#32),
    unary main_c_31 main_v161 (broadcastInDim S100000 ![] bcast_S_S100000 : (⟨S_, .i32⟩ : BufTy).Contents (Elt F) → (⟨S100000, .i32⟩ : BufTy).Contents (Elt F)),
    binary main_v158 main_v161 main_v162 (addi : (⟨S100000, .i32⟩ : BufTy).Contents (Elt F) → (⟨S100000, .i32⟩ : BufTy).Contents (Elt F) → (⟨S100000, .i32⟩ : BufTy).Contents (Elt F)),
    ternary main_v160 main_v162 main_v158 main_v163 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v163 main_v164 (broadcastInDim S100000x1 ![0] bcast_S100000_S100000x1_0 : (⟨S100000, .i32⟩ : BufTy).Contents (Elt F) → (⟨S100000x1, .i32⟩ : BufTy).Contents (Elt F)),
    binary main_v147 main_v164 main_v165 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    binary main_v156 main_v165 main_v166 (mulf : (⟨S100000x64, .f32⟩ : BufTy).Contents (Elt F) → (⟨S100000x64, .f32⟩ : BufTy).Contents (Elt F) → (⟨S100000x64, .f32⟩ : BufTy).Contents (Elt F)),
    nary ![main_v156, main_v165, main_v166] main_v167 (fun u => concatenate S100000x192 1 [⟨S100000x64, u 0⟩, ⟨S100000x64, u 1⟩, ⟨S100000x64, u 2⟩] concatenates_S100000x64_S100000x64_S100000x64_S100000x192_d1),
    binary main_v167 main_arg17 main_v168 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_arg18 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v168 main_v170 main_v171 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v171) (TRef.of (T := ⟨S100000x64, .f32⟩) main_call2_v0) (TRef.of (T := ⟨S100000x64, .f32⟩) main_v172) maximumf,
    binary main_v172 main_arg19 main_v173 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg20 main_v174 (broadcastInDim S1x32 ![1] bcast_S32_S1x32_1 : (⟨S32, .f32⟩ : BufTy).Contents (Elt F) → (⟨S1x32, .f32⟩ : BufTy).Contents (Elt F)),
    unary main_v174 main_v175 (broadcastInDim S100000x32 ![0, 1] bcast_S1x32_S100000x32_0_1 : (⟨S1x32, .f32⟩ : BufTy).Contents (Elt F) → (⟨S100000x32, .f32⟩ : BufTy).Contents (Elt F)),
    binary main_v173 main_v175 main_v176 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v176) (TRef.of (T := ⟨S100000x32, .f32⟩) main_call3_v0) (TRef.of (T := ⟨S100000x32, .f32⟩) main_v177) maximumf,
    binary main_v177 main_arg21 main_v178 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    unary main_arg22 main_v179 (broadcastInDim S1x1 ![1] bcast_S1_S1x1_1 : (⟨S1, .f32⟩ : BufTy).Contents (Elt F) → (⟨S1x1, .f32⟩ : BufTy).Contents (Elt F)),
    unary main_v179 main_v180 (broadcastInDim S100000x1 ![0, 1] bcast_S1x1_S100000x1_0_1 : (⟨S1x1, .f32⟩ : BufTy).Contents (Elt F) → (⟨S100000x1, .f32⟩ : BufTy).Contents (Elt F)),
    binary main_v178 main_v180 main_v181 (addf : (⟨S100000x1, .f32⟩ : BufTy).Contents (Elt F) → (⟨S100000x1, .f32⟩ : BufTy).Contents (Elt F) → (⟨S100000x1, .f32⟩ : BufTy).Contents (Elt F)),
    reshape main_v181 main_v182 rfl shapeCasts_S100000x1_S100000 ]

/-- @main's operations, in order. -/
abbrev ops : List (HloOp τ sig (Elt F)) := opsA1 ++ (opsA2 ++ (opsB1 ++ (opsB2 ++ opsC)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- The contents after a line followed by another are the second's results over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every weakly fair execution of @main terminates with each buffer at the five stretches' results, one over the
    other, over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsC (after opsB2 (after opsB1 (after opsA2 (after opsA1 (launchContents m d))))) (Proc.devRef .tc b) :=
  (θ_run defs _ _).mono (fun _ h d b => (h d b).trans (by rw [after_append, after_append, after_append, after_append]))
    (run_seq scopedRefs_eq scopedSems_eq defs main (fun _ => ops) main_eq (fun _ => ops_sub) m ρ)

end Ops

/-! ## Each stretch read: its result from what it found, and the arguments it leaves alone -/

theorem A1_v58 (W : Valuation τ sig (Elt Ideal)) : after opsA1 W (Proc.devRef .tc main_v58) = hlR (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  dsimp only [opsA1]
  after_results_simp <;> rfl
theorem A1_arg1 (W : Valuation τ sig (Elt Ideal)) : after opsA1 W (Proc.devRef .tc main_arg1) = (W (Proc.devRef .tc main_arg1)) := by
  dsimp only [opsA1]
  after_results_simp <;> rfl
theorem A1_arg2 (W : Valuation τ sig (Elt Ideal)) : after opsA1 W (Proc.devRef .tc main_arg2) = (W (Proc.devRef .tc main_arg2)) := by
  dsimp only [opsA1]
  after_results_simp <;> rfl
theorem A1_arg9 (W : Valuation τ sig (Elt Ideal)) : after opsA1 W (Proc.devRef .tc main_arg9) = (W (Proc.devRef .tc main_arg9)) := by
  dsimp only [opsA1]
  after_results_simp <;> rfl
theorem A1_arg10 (W : Valuation τ sig (Elt Ideal)) : after opsA1 W (Proc.devRef .tc main_arg10) = (W (Proc.devRef .tc main_arg10)) := by
  dsimp only [opsA1]
  after_results_simp <;> rfl
theorem A1_arg11 (W : Valuation τ sig (Elt Ideal)) : after opsA1 W (Proc.devRef .tc main_arg11) = (W (Proc.devRef .tc main_arg11)) := by
  dsimp only [opsA1]
  after_results_simp <;> rfl
theorem A1_arg12 (W : Valuation τ sig (Elt Ideal)) : after opsA1 W (Proc.devRef .tc main_arg12) = (W (Proc.devRef .tc main_arg12)) := by
  dsimp only [opsA1]
  after_results_simp <;> rfl
theorem A1_arg13 (W : Valuation τ sig (Elt Ideal)) : after opsA1 W (Proc.devRef .tc main_arg13) = (W (Proc.devRef .tc main_arg13)) := by
  dsimp only [opsA1]
  after_results_simp <;> rfl
theorem A1_arg14 (W : Valuation τ sig (Elt Ideal)) : after opsA1 W (Proc.devRef .tc main_arg14) = (W (Proc.devRef .tc main_arg14)) := by
  dsimp only [opsA1]
  after_results_simp <;> rfl
theorem A1_arg15 (W : Valuation τ sig (Elt Ideal)) : after opsA1 W (Proc.devRef .tc main_arg15) = (W (Proc.devRef .tc main_arg15)) := by
  dsimp only [opsA1]
  after_results_simp <;> rfl
theorem A1_arg16 (W : Valuation τ sig (Elt Ideal)) : after opsA1 W (Proc.devRef .tc main_arg16) = (W (Proc.devRef .tc main_arg16)) := by
  dsimp only [opsA1]
  after_results_simp <;> rfl
theorem A1_arg17 (W : Valuation τ sig (Elt Ideal)) : after opsA1 W (Proc.devRef .tc main_arg17) = (W (Proc.devRef .tc main_arg17)) := by
  dsimp only [opsA1]
  after_results_simp <;> rfl
theorem A1_arg18 (W : Valuation τ sig (Elt Ideal)) : after opsA1 W (Proc.devRef .tc main_arg18) = (W (Proc.devRef .tc main_arg18)) := by
  dsimp only [opsA1]
  after_results_simp <;> rfl
theorem A1_arg19 (W : Valuation τ sig (Elt Ideal)) : after opsA1 W (Proc.devRef .tc main_arg19) = (W (Proc.devRef .tc main_arg19)) := by
  dsimp only [opsA1]
  after_results_simp <;> rfl
theorem A1_arg20 (W : Valuation τ sig (Elt Ideal)) : after opsA1 W (Proc.devRef .tc main_arg20) = (W (Proc.devRef .tc main_arg20)) := by
  dsimp only [opsA1]
  after_results_simp <;> rfl
theorem A1_arg21 (W : Valuation τ sig (Elt Ideal)) : after opsA1 W (Proc.devRef .tc main_arg21) = (W (Proc.devRef .tc main_arg21)) := by
  dsimp only [opsA1]
  after_results_simp <;> rfl
theorem A1_arg22 (W : Valuation τ sig (Elt Ideal)) : after opsA1 W (Proc.devRef .tc main_arg22) = (W (Proc.devRef .tc main_arg22)) := by
  dsimp only [opsA1]
  after_results_simp <;> rfl
theorem A2_v83 (W : Valuation τ sig (Elt Ideal)) : after opsA2 W (Proc.devRef .tc main_v83) = hR (W (Proc.devRef .tc main_v58)) (W (Proc.devRef .tc main_arg9)) (W (Proc.devRef .tc main_arg10)) := by
  dsimp only [opsA2]
  after_results_simp
  simp only [Cert.Lib.TypedRefs.ofBuf_toBuf]
  rfl
theorem A2_arg1 (W : Valuation τ sig (Elt Ideal)) : after opsA2 W (Proc.devRef .tc main_arg1) = (W (Proc.devRef .tc main_arg1)) := by
  dsimp only [opsA2]
  after_results_simp <;> rfl
theorem A2_arg2 (W : Valuation τ sig (Elt Ideal)) : after opsA2 W (Proc.devRef .tc main_arg2) = (W (Proc.devRef .tc main_arg2)) := by
  dsimp only [opsA2]
  after_results_simp <;> rfl
theorem A2_arg11 (W : Valuation τ sig (Elt Ideal)) : after opsA2 W (Proc.devRef .tc main_arg11) = (W (Proc.devRef .tc main_arg11)) := by
  dsimp only [opsA2]
  after_results_simp <;> rfl
theorem A2_arg12 (W : Valuation τ sig (Elt Ideal)) : after opsA2 W (Proc.devRef .tc main_arg12) = (W (Proc.devRef .tc main_arg12)) := by
  dsimp only [opsA2]
  after_results_simp <;> rfl
theorem A2_arg13 (W : Valuation τ sig (Elt Ideal)) : after opsA2 W (Proc.devRef .tc main_arg13) = (W (Proc.devRef .tc main_arg13)) := by
  dsimp only [opsA2]
  after_results_simp <;> rfl
theorem A2_arg14 (W : Valuation τ sig (Elt Ideal)) : after opsA2 W (Proc.devRef .tc main_arg14) = (W (Proc.devRef .tc main_arg14)) := by
  dsimp only [opsA2]
  after_results_simp <;> rfl
theorem A2_arg15 (W : Valuation τ sig (Elt Ideal)) : after opsA2 W (Proc.devRef .tc main_arg15) = (W (Proc.devRef .tc main_arg15)) := by
  dsimp only [opsA2]
  after_results_simp <;> rfl
theorem A2_arg16 (W : Valuation τ sig (Elt Ideal)) : after opsA2 W (Proc.devRef .tc main_arg16) = (W (Proc.devRef .tc main_arg16)) := by
  dsimp only [opsA2]
  after_results_simp <;> rfl
theorem A2_arg17 (W : Valuation τ sig (Elt Ideal)) : after opsA2 W (Proc.devRef .tc main_arg17) = (W (Proc.devRef .tc main_arg17)) := by
  dsimp only [opsA2]
  after_results_simp <;> rfl
theorem A2_arg18 (W : Valuation τ sig (Elt Ideal)) : after opsA2 W (Proc.devRef .tc main_arg18) = (W (Proc.devRef .tc main_arg18)) := by
  dsimp only [opsA2]
  after_results_simp <;> rfl
theorem A2_arg19 (W : Valuation τ sig (Elt Ideal)) : after opsA2 W (Proc.devRef .tc main_arg19) = (W (Proc.devRef .tc main_arg19)) := by
  dsimp only [opsA2]
  after_results_simp <;> rfl
theorem A2_arg20 (W : Valuation τ sig (Elt Ideal)) : after opsA2 W (Proc.devRef .tc main_arg20) = (W (Proc.devRef .tc main_arg20)) := by
  dsimp only [opsA2]
  after_results_simp <;> rfl
theorem A2_arg21 (W : Valuation τ sig (Elt Ideal)) : after opsA2 W (Proc.devRef .tc main_arg21) = (W (Proc.devRef .tc main_arg21)) := by
  dsimp only [opsA2]
  after_results_simp <;> rfl
theorem A2_arg22 (W : Valuation τ sig (Elt Ideal)) : after opsA2 W (Proc.devRef .tc main_arg22) = (W (Proc.devRef .tc main_arg22)) := by
  dsimp only [opsA2]
  after_results_simp <;> rfl
theorem B1_v142 (W : Valuation τ sig (Elt Ideal)) : after opsB1 W (Proc.devRef .tc main_v142) = zlR (W (Proc.devRef .tc main_v83)) (W (Proc.devRef .tc main_arg1)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  dsimp only [opsB1]
  after_results_simp <;> rfl
theorem B1_arg2 (W : Valuation τ sig (Elt Ideal)) : after opsB1 W (Proc.devRef .tc main_arg2) = (W (Proc.devRef .tc main_arg2)) := by
  dsimp only [opsB1]
  after_results_simp <;> rfl
theorem B1_arg17 (W : Valuation τ sig (Elt Ideal)) : after opsB1 W (Proc.devRef .tc main_arg17) = (W (Proc.devRef .tc main_arg17)) := by
  dsimp only [opsB1]
  after_results_simp <;> rfl
theorem B1_arg18 (W : Valuation τ sig (Elt Ideal)) : after opsB1 W (Proc.devRef .tc main_arg18) = (W (Proc.devRef .tc main_arg18)) := by
  dsimp only [opsB1]
  after_results_simp <;> rfl
theorem B1_arg19 (W : Valuation τ sig (Elt Ideal)) : after opsB1 W (Proc.devRef .tc main_arg19) = (W (Proc.devRef .tc main_arg19)) := by
  dsimp only [opsB1]
  after_results_simp <;> rfl
theorem B1_arg20 (W : Valuation τ sig (Elt Ideal)) : after opsB1 W (Proc.devRef .tc main_arg20) = (W (Proc.devRef .tc main_arg20)) := by
  dsimp only [opsB1]
  after_results_simp <;> rfl
theorem B1_arg21 (W : Valuation τ sig (Elt Ideal)) : after opsB1 W (Proc.devRef .tc main_arg21) = (W (Proc.devRef .tc main_arg21)) := by
  dsimp only [opsB1]
  after_results_simp <;> rfl
theorem B1_arg22 (W : Valuation τ sig (Elt Ideal)) : after opsB1 W (Proc.devRef .tc main_arg22) = (W (Proc.devRef .tc main_arg22)) := by
  dsimp only [opsB1]
  after_results_simp <;> rfl
theorem B2_v147 (W : Valuation τ sig (Elt Ideal)) : after opsB2 W (Proc.devRef .tc main_v147) = zR (W (Proc.devRef .tc main_v142)) := by
  dsimp only [opsB2]
  after_results_simp
  simp only [Cert.Lib.TypedRefs.ofBuf_toBuf]
  rfl
theorem B2_arg2 (W : Valuation τ sig (Elt Ideal)) : after opsB2 W (Proc.devRef .tc main_arg2) = (W (Proc.devRef .tc main_arg2)) := by
  dsimp only [opsB2]
  after_results_simp <;> rfl
theorem B2_arg17 (W : Valuation τ sig (Elt Ideal)) : after opsB2 W (Proc.devRef .tc main_arg17) = (W (Proc.devRef .tc main_arg17)) := by
  dsimp only [opsB2]
  after_results_simp <;> rfl
theorem B2_arg18 (W : Valuation τ sig (Elt Ideal)) : after opsB2 W (Proc.devRef .tc main_arg18) = (W (Proc.devRef .tc main_arg18)) := by
  dsimp only [opsB2]
  after_results_simp <;> rfl
theorem B2_arg19 (W : Valuation τ sig (Elt Ideal)) : after opsB2 W (Proc.devRef .tc main_arg19) = (W (Proc.devRef .tc main_arg19)) := by
  dsimp only [opsB2]
  after_results_simp <;> rfl
theorem B2_arg20 (W : Valuation τ sig (Elt Ideal)) : after opsB2 W (Proc.devRef .tc main_arg20) = (W (Proc.devRef .tc main_arg20)) := by
  dsimp only [opsB2]
  after_results_simp <;> rfl
theorem B2_arg21 (W : Valuation τ sig (Elt Ideal)) : after opsB2 W (Proc.devRef .tc main_arg21) = (W (Proc.devRef .tc main_arg21)) := by
  dsimp only [opsB2]
  after_results_simp <;> rfl
theorem B2_arg22 (W : Valuation τ sig (Elt Ideal)) : after opsB2 W (Proc.devRef .tc main_arg22) = (W (Proc.devRef .tc main_arg22)) := by
  dsimp only [opsB2]
  after_results_simp <;> rfl
theorem C_v182 (W : Valuation τ sig (Elt Ideal)) : after opsC W (Proc.devRef .tc main_v182) = outR (W (Proc.devRef .tc main_v147)) (W (Proc.devRef .tc main_arg2)) (W (Proc.devRef .tc main_arg17)) (W (Proc.devRef .tc main_arg18)) (W (Proc.devRef .tc main_arg19)) (W (Proc.devRef .tc main_arg20)) (W (Proc.devRef .tc main_arg21)) (W (Proc.devRef .tc main_arg22)) := by
  dsimp only [opsC]
  after_results_simp
  simp only [Cert.Lib.TypedRefs.ofBuf_toBuf]
  rfl

/-- The five stretches composed: the reference's result as one function of the 23 argument arrays. -/
def refResult (x0 : (⟨S50000x64, .f32⟩ : BufTy).Contents (Elt Ideal)) (x1 : (⟨S2x800000, .i32⟩ : BufTy).Contents (Elt Ideal)) (x2 : (⟨S2x100000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (x13 : (⟨S128x64, .f32⟩ : BufTy).Contents (Elt Ideal)) (x14 : (⟨S128x64, .f32⟩ : BufTy).Contents (Elt Ideal)) (x15 : (⟨S64, .f32⟩ : BufTy).Contents (Elt Ideal)) (x16 : (⟨S128x64, .f32⟩ : BufTy).Contents (Elt Ideal)) (x17 : (⟨S192x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal)) : (⟨S100000, .f32⟩ : BufTy).Contents (Elt Ideal) :=
  outR (zR (zlR (hR (hlR x0 x1 x3 x4 x5 x6 x7 x8) x9 x10) x1 x11 x12 x13 x14 x15 x16)) x2 x17 x18 x19 x20 x21 x22

/-- The result buffer after the whole line, from any contents `W` the line starts at. -/
theorem result_eq (W : Valuation τ sig (Elt Ideal)) :
    after opsC (after opsB2 (after opsB1 (after opsA2 (after opsA1 W)))) (Proc.devRef .tc main_v182)
      = refResult (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) := by
  rw [C_v182, B2_v147, B1_v142, A2_v83, A1_v58,
    B2_arg2, B2_arg17, B2_arg18, B2_arg19, B2_arg20, B2_arg21, B2_arg22,
    B1_arg2, B1_arg17, B1_arg18, B1_arg19, B1_arg20, B1_arg21, B1_arg22,
    A2_arg1, A2_arg2, A2_arg11, A2_arg12, A2_arg13, A2_arg14, A2_arg15, A2_arg16, A2_arg17, A2_arg18, A2_arg19, A2_arg20, A2_arg21, A2_arg22,
    A1_arg1, A1_arg2, A1_arg9, A1_arg10, A1_arg11, A1_arg12, A1_arg13, A1_arg14, A1_arg15, A1_arg16, A1_arg17, A1_arg18, A1_arg19, A1_arg20, A1_arg21, A1_arg22]
  rfl

end Cert.ReferenceIdeal.HandRun

end
-- ==== Proof.RefKeep.lean ====
/-
  The reference's arguments end unchanged: none of the 227 operations writes an argument's buffer, so what such a buffer
  holds after the five stretches is what it held at launch.
-/
import proofs.«106045_j46145128628314_2_alg».proof.Proof.RefRun

set_option maxRecDepth 100000

noncomputable section

namespace Cert.ReferenceIdeal.HandRun

open Cert.ReferenceIdeal Cert.ReferenceIdeal.Gen
open Idealize.ShloMosaic Idealize.ShloMosaic.TcCoe Idealize.SL.Sem Idealize.ShloMosaic.StableHlo

theorem keep_arg0 (W : Valuation τ sig (Elt Ideal)) :
    after opsC (after opsB2 (after opsB1 (after opsA2 (after opsA1 W)))) (Proc.devRef .tc main_arg0) = W (Proc.devRef .tc main_arg0) := by
  dsimp only [opsA1, opsA2, opsB1, opsB2, opsC]
  after_results_simp <;> rfl
theorem keep_arg1 (W : Valuation τ sig (Elt Ideal)) :
    after opsC (after opsB2 (after opsB1 (after opsA2 (after opsA1 W)))) (Proc.devRef .tc main_arg1) = W (Proc.devRef .tc main_arg1) := by
  dsimp only [opsA1, opsA2, opsB1, opsB2, opsC]
  after_results_simp <;> rfl
theorem keep_arg2 (W : Valuation τ sig (Elt Ideal)) :
    after opsC (after opsB2 (after opsB1 (after opsA2 (after opsA1 W)))) (Proc.devRef .tc main_arg2) = W (Proc.devRef .tc main_arg2) := by
  dsimp only [opsA1, opsA2, opsB1, opsB2, opsC]
  after_results_simp <;> rfl
theorem keep_arg3 (W : Valuation τ sig (Elt Ideal)) :
    after opsC (after opsB2 (after opsB1 (after opsA2 (after opsA1 W)))) (Proc.devRef .tc main_arg3) = W (Proc.devRef .tc main_arg3) := by
  dsimp only [opsA1, opsA2, opsB1, opsB2, opsC]
  after_results_simp <;> rfl
theorem keep_arg4 (W : Valuation τ sig (Elt Ideal)) :
    after opsC (after opsB2 (after opsB1 (after opsA2 (after opsA1 W)))) (Proc.devRef .tc main_arg4) = W (Proc.devRef .tc main_arg4) := by
  dsimp only [opsA1, opsA2, opsB1, opsB2, opsC]
  after_results_simp <;> rfl
theorem keep_arg5 (W : Valuation τ sig (Elt Ideal)) :
    after opsC (after opsB2 (after opsB1 (after opsA2 (after opsA1 W)))) (Proc.devRef .tc main_arg5) = W (Proc.devRef .tc main_arg5) := by
  dsimp only [opsA1, opsA2, opsB1, opsB2, opsC]
  after_results_simp <;> rfl
theorem keep_arg6 (W : Valuation τ sig (Elt Ideal)) :
    after opsC (after opsB2 (after opsB1 (after opsA2 (after opsA1 W)))) (Proc.devRef .tc main_arg6) = W (Proc.devRef .tc main_arg6) := by
  dsimp only [opsA1, opsA2, opsB1, opsB2, opsC]
  after_results_simp <;> rfl
theorem keep_arg7 (W : Valuation τ sig (Elt Ideal)) :
    after opsC (after opsB2 (after opsB1 (after opsA2 (after opsA1 W)))) (Proc.devRef .tc main_arg7) = W (Proc.devRef .tc main_arg7) := by
  dsimp only [opsA1, opsA2, opsB1, opsB2, opsC]
  after_results_simp <;> rfl
theorem keep_arg8 (W : Valuation τ sig (Elt Ideal)) :
    after opsC (after opsB2 (after opsB1 (after opsA2 (after opsA1 W)))) (Proc.devRef .tc main_arg8) = W (Proc.devRef .tc main_arg8) := by
  dsimp only [opsA1, opsA2, opsB1, opsB2, opsC]
  after_results_simp <;> rfl
theorem keep_arg9 (W : Valuation τ sig (Elt Ideal)) :
    after opsC (after opsB2 (after opsB1 (after opsA2 (after opsA1 W)))) (Proc.devRef .tc main_arg9) = W (Proc.devRef .tc main_arg9) := by
  dsimp only [opsA1, opsA2, opsB1, opsB2, opsC]
  after_results_simp <;> rfl
theorem keep_arg10 (W : Valuation τ sig (Elt Ideal)) :
    after opsC (after opsB2 (after opsB1 (after opsA2 (after opsA1 W)))) (Proc.devRef .tc main_arg10) = W (Proc.devRef .tc main_arg10) := by
  dsimp only [opsA1, opsA2, opsB1, opsB2, opsC]
  after_results_simp <;> rfl
theorem keep_arg11 (W : Valuation τ sig (Elt Ideal)) :
    after opsC (after opsB2 (after opsB1 (after opsA2 (after opsA1 W)))) (Proc.devRef .tc main_arg11) = W (Proc.devRef .tc main_arg11) := by
  dsimp only [opsA1, opsA2, opsB1, opsB2, opsC]
  after_results_simp <;> rfl
theorem keep_arg12 (W : Valuation τ sig (Elt Ideal)) :
    after opsC (after opsB2 (after opsB1 (after opsA2 (after opsA1 W)))) (Proc.devRef .tc main_arg12) = W (Proc.devRef .tc main_arg12) := by
  dsimp only [opsA1, opsA2, opsB1, opsB2, opsC]
  after_results_simp <;> rfl
theorem keep_arg13 (W : Valuation τ sig (Elt Ideal)) :
    after opsC (after opsB2 (after opsB1 (after opsA2 (after opsA1 W)))) (Proc.devRef .tc main_arg13) = W (Proc.devRef .tc main_arg13) := by
  dsimp only [opsA1, opsA2, opsB1, opsB2, opsC]
  after_results_simp <;> rfl
theorem keep_arg14 (W : Valuation τ sig (Elt Ideal)) :
    after opsC (after opsB2 (after opsB1 (after opsA2 (after opsA1 W)))) (Proc.devRef .tc main_arg14) = W (Proc.devRef .tc main_arg14) := by
  dsimp only [opsA1, opsA2, opsB1, opsB2, opsC]
  after_results_simp <;> rfl
theorem keep_arg15 (W : Valuation τ sig (Elt Ideal)) :
    after opsC (after opsB2 (after opsB1 (after opsA2 (after opsA1 W)))) (Proc.devRef .tc main_arg15) = W (Proc.devRef .tc main_arg15) := by
  dsimp only [opsA1, opsA2, opsB1, opsB2, opsC]
  after_results_simp <;> rfl
theorem keep_arg16 (W : Valuation τ sig (Elt Ideal)) :
    after opsC (after opsB2 (after opsB1 (after opsA2 (after opsA1 W)))) (Proc.devRef .tc main_arg16) = W (Proc.devRef .tc main_arg16) := by
  dsimp only [opsA1, opsA2, opsB1, opsB2, opsC]
  after_results_simp <;> rfl
theorem keep_arg17 (W : Valuation τ sig (Elt Ideal)) :
    after opsC (after opsB2 (after opsB1 (after opsA2 (after opsA1 W)))) (Proc.devRef .tc main_arg17) = W (Proc.devRef .tc main_arg17) := by
  dsimp only [opsA1, opsA2, opsB1, opsB2, opsC]
  after_results_simp <;> rfl
theorem keep_arg18 (W : Valuation τ sig (Elt Ideal)) :
    after opsC (after opsB2 (after opsB1 (after opsA2 (after opsA1 W)))) (Proc.devRef .tc main_arg18) = W (Proc.devRef .tc main_arg18) := by
  dsimp only [opsA1, opsA2, opsB1, opsB2, opsC]
  after_results_simp <;> rfl
theorem keep_arg19 (W : Valuation τ sig (Elt Ideal)) :
    after opsC (after opsB2 (after opsB1 (after opsA2 (after opsA1 W)))) (Proc.devRef .tc main_arg19) = W (Proc.devRef .tc main_arg19) := by
  dsimp only [opsA1, opsA2, opsB1, opsB2, opsC]
  after_results_simp <;> rfl
theorem keep_arg20 (W : Valuation τ sig (Elt Ideal)) :
    after opsC (after opsB2 (after opsB1 (after opsA2 (after opsA1 W)))) (Proc.devRef .tc main_arg20) = W (Proc.devRef .tc main_arg20) := by
  dsimp only [opsA1, opsA2, opsB1, opsB2, opsC]
  after_results_simp <;> rfl
theorem keep_arg21 (W : Valuation τ sig (Elt Ideal)) :
    after opsC (after opsB2 (after opsB1 (after opsA2 (after opsA1 W)))) (Proc.devRef .tc main_arg21) = W (Proc.devRef .tc main_arg21) := by
  dsimp only [opsA1, opsA2, opsB1, opsB2, opsC]
  after_results_simp <;> rfl
theorem keep_arg22 (W : Valuation τ sig (Elt Ideal)) :
    after opsC (after opsB2 (after opsB1 (after opsA2 (after opsA1 W)))) (Proc.devRef .tc main_arg22) = W (Proc.devRef .tc main_arg22) := by
  dsimp only [opsA1, opsA2, opsB1, opsB2, opsC]
  after_results_simp <;> rfl

end Cert.ReferenceIdeal.HandRun

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«106045_j46145128628314_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«106045_j46145128628314_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«106045_j46145128628314_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.RefRead.lean ====
/-
  The reference's stretches read at an entry. Each stretch of `RefVal` is a composition of host operations on whole
  arrays; here entry `(p, q)` of each is the row-level mathematics of `Spec` applied to row `p` of what the stretch
  was given: the hidden state is `lnRelu` of the row, the embedding `l2` of the row, the two layers' sums `hlin` and
  `zlin` of the rows of the aggregated arrays and of the node's own row.
-/
import proofs.«106045_j46145128628314_2_alg».proof.Proof.RefVal
import proofs.«106045_j46145128628314_2_alg».proof.Proof.Spec
import proofs.«106045_j46145128628314_2_alg».proof.Proof.Rows
import proofs.«106045_j46145128628314_2_alg».proof.Proof.LibMatProd
import proofs.«106045_j46145128628314_2_alg».proof.Proof.LibRowReductions
import proofs.«106045_j46145128628314_2_alg».proof.Proof.LibRowVector
import proofs.«106045_j46145128628314_2_alg».proof.Proof.LibHostRows
import Idealize.ShloMosaic.Lib.ValueIdx
import Idealize.ShloMosaic.Lib.Pipeline.Value
import Idealize.ShloMosaic.PureOps.Ideal.Laws

set_option maxRecDepth 100000

noncomputable section

namespace Cert.ReferenceIdeal.Read

open Idealize.ShloMosaic Idealize.ShloMosaic.ValueIdx Cert.ReferenceIdeal Cert.ReferenceIdeal.Gen Cert.ReferenceIdeal.Val Cert.Sage
open Cert.Lib.MatProd Cert.Lib.RowReductions Cert.Lib.RowVector Cert.Lib.HostRows

theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl
theorem hsqrt_apply {s : Shape} (a : FVec Ideal s .f32) (i : s.Idx) : Host.sqrt a i = Ideal.sqrt (a i) := rfl

open scoped BigOperators

/-! ## A host broadcast read at an entry (the axis map a variable, its value an equation closed by `rfl`) -/

theorem bcCols {α : Type} {n c : Nat} (d : Fin 2 → Fin 2) (x : (⟨2, ![n, 1]⟩ : Shape).Idx → α)
    (h : (⟨2, ![n, 1]⟩ : Shape).BroadcastsInDim ⟨2, ![n, c]⟩ d) (hd : d = ![0, 1]) (p : Fin n) (q : Fin c) :
    broadcastInDim ⟨2, ![n, c]⟩ d h x (ix2 p q) = x (ix2 p 0) := by
  subst hd; exact bcastInDim_cols_apply x h p q
theorem bcRows {α : Type} {r c : Nat} (d : Fin 2 → Fin 2) (x : (⟨2, ![1, c]⟩ : Shape).Idx → α)
    (h : (⟨2, ![1, c]⟩ : Shape).BroadcastsInDim ⟨2, ![r, c]⟩ d) (hd : d = ![0, 1]) (p : Fin r) (q : Fin c) :
    broadcastInDim ⟨2, ![r, c]⟩ d h x (ix2 p q) = x (ix2 0 q) := by
  subst hd; exact bcastInDim_rows_apply x h p q
theorem bcCol {α : Type} {n : Nat} (d : Fin 1 → Fin 2) (x : (⟨1, ![n]⟩ : Shape).Idx → α)
    (h : (⟨1, ![n]⟩ : Shape).BroadcastsInDim ⟨2, ![n, 1]⟩ d) (hd : d = ![0]) (p : Fin n) :
    broadcastInDim ⟨2, ![n, 1]⟩ d h x (ix2 p 0) = x (ix1 p) := by
  subst hd; exact bcastInDim_col_apply x h p
theorem bcRow {α : Type} {n : Nat} (d : Fin 1 → Fin 2) (x : (⟨1, ![n]⟩ : Shape).Idx → α)
    (h : (⟨1, ![n]⟩ : Shape).BroadcastsInDim ⟨2, ![1, n]⟩ d) (hd : d = ![1]) (q : Fin n) :
    broadcastInDim ⟨2, ![1, n]⟩ d h x (ix2 0 q) = x (ix1 q) := by
  subst hd; rw [bcastInDim_eq_asRow]; rfl
theorem bcScalar {α : Type} {s : Shape} (d : Fin 0 → Fin s.rank) (x : (⟨0, ![]⟩ : Shape).Idx → α)
    (h : (⟨0, ![]⟩ : Shape).BroadcastsInDim s d) (i : s.Idx) : broadcastInDim s d h x i = x ix0 := by
  obtain rfl : d = ![] := Subsingleton.elim _ _
  exact Cert.Lib.RowVector.bcastInDim_scalar_apply x h i

/-! ## The reference's row sums and products read at an entry -/

theorem rowsum_S50000x128 (x : (⟨S50000x128, .f32⟩ : BufTy).Contents (Elt Ideal)) (init : (⟨S_, .f32⟩ : BufTy).Contents (Elt Ideal)) (p : Fin 50000) :
    Host.reduceAdd (F := Ideal) (φ := .f32) x init reducesTo_S50000x128_S50000_d1 h_S_ (ix1 p) = init (Shape.Idx.first h_S_) + ∑ k : Fin 128, x (ix2 p k) :=
  host_rowsum_apply x init _ _ p
theorem rowsum_S50000x64 (x : (⟨S50000x64, .f32⟩ : BufTy).Contents (Elt Ideal)) (init : (⟨S_, .f32⟩ : BufTy).Contents (Elt Ideal)) (p : Fin 50000) :
    Host.reduceAdd (F := Ideal) (φ := .f32) x init reducesTo_S50000x64_S50000_d1 h_S_ (ix1 p) = init (Shape.Idx.first h_S_) + ∑ k : Fin 64, x (ix2 p k) :=
  host_rowsum_apply x init _ _ p
theorem dot_S50000x64_S64x128_S50000x128_1_0_0_1_n_n_at (A : (⟨S50000x64, .f32⟩ : BufTy).Contents (Elt Ideal)) (B : (⟨S64x128, .f32⟩ : BufTy).Contents (Elt Ideal)) (p : Fin 50000) (q : Fin 128) :
    Host.dotGeneral (F := Ideal) (φ₁ := .f32) (φ₂ := .f32) dot_S50000x64_S64x128_S50000x128_1_0_0_1_n_n none A B (ix2 p q) = dot (row A p) (mat B) q := by
  rw [show Host.dotGeneral (F := Ideal) (φ₁ := .f32) (φ₂ := .f32) dot_S50000x64_S64x128_S50000x128_1_0_0_1_n_n none A B = matProd A B from dotGeneral_eq_matProd dot_S50000x64_S64x128_S50000x128_1_0_0_1_n_n rfl rfl rfl rfl rfl rfl none _ A B]
  rfl
theorem dot_S50000x128_S128x64_S50000x64_1_0_0_1_n_n_at (A : (⟨S50000x128, .f32⟩ : BufTy).Contents (Elt Ideal)) (B : (⟨S128x64, .f32⟩ : BufTy).Contents (Elt Ideal)) (p : Fin 50000) (q : Fin 64) :
    Host.dotGeneral (F := Ideal) (φ₁ := .f32) (φ₂ := .f32) dot_S50000x128_S128x64_S50000x64_1_0_0_1_n_n none A B (ix2 p q) = dot (row A p) (mat B) q := by
  rw [show Host.dotGeneral (F := Ideal) (φ₁ := .f32) (φ₂ := .f32) dot_S50000x128_S128x64_S50000x64_1_0_0_1_n_n none A B = matProd A B from dotGeneral_eq_matProd dot_S50000x128_S128x64_S50000x64_1_0_0_1_n_n rfl rfl rfl rfl rfl rfl none _ A B]
  rfl
theorem dot_S100000x192_S192x64_S100000x64_1_0_0_1_n_n_at (A : (⟨S100000x192, .f32⟩ : BufTy).Contents (Elt Ideal)) (B : (⟨S192x64, .f32⟩ : BufTy).Contents (Elt Ideal)) (p : Fin 100000) (q : Fin 64) :
    Host.dotGeneral (F := Ideal) (φ₁ := .f32) (φ₂ := .f32) dot_S100000x192_S192x64_S100000x64_1_0_0_1_n_n none A B (ix2 p q) = dot (row A p) (mat B) q := by
  rw [show Host.dotGeneral (F := Ideal) (φ₁ := .f32) (φ₂ := .f32) dot_S100000x192_S192x64_S100000x64_1_0_0_1_n_n none A B = matProd A B from dotGeneral_eq_matProd dot_S100000x192_S192x64_S100000x64_1_0_0_1_n_n rfl rfl rfl rfl rfl rfl none _ A B]
  rfl
theorem dot_S100000x64_S64x32_S100000x32_1_0_0_1_n_n_at (A : (⟨S100000x64, .f32⟩ : BufTy).Contents (Elt Ideal)) (B : (⟨S64x32, .f32⟩ : BufTy).Contents (Elt Ideal)) (p : Fin 100000) (q : Fin 32) :
    Host.dotGeneral (F := Ideal) (φ₁ := .f32) (φ₂ := .f32) dot_S100000x64_S64x32_S100000x32_1_0_0_1_n_n none A B (ix2 p q) = dot (row A p) (mat B) q := by
  rw [show Host.dotGeneral (F := Ideal) (φ₁ := .f32) (φ₂ := .f32) dot_S100000x64_S64x32_S100000x32_1_0_0_1_n_n none A B = matProd A B from dotGeneral_eq_matProd dot_S100000x64_S64x32_S100000x32_1_0_0_1_n_n rfl rfl rfl rfl rfl rfl none _ A B]
  rfl
theorem dot_S100000x32_S32x1_S100000x1_1_0_0_1_n_n_at (A : (⟨S100000x32, .f32⟩ : BufTy).Contents (Elt Ideal)) (B : (⟨S32x1, .f32⟩ : BufTy).Contents (Elt Ideal)) (p : Fin 100000) (q : Fin 1) :
    Host.dotGeneral (F := Ideal) (φ₁ := .f32) (φ₂ := .f32) dot_S100000x32_S32x1_S100000x1_1_0_0_1_n_n none A B (ix2 p q) = dot (row A p) (mat B) q := by
  rw [show Host.dotGeneral (F := Ideal) (φ₁ := .f32) (φ₂ := .f32) dot_S100000x32_S32x1_S100000x1_1_0_0_1_n_n none A B = matProd A B from dotGeneral_eq_matProd dot_S100000x32_S32x1_S100000x1_1_0_0_1_n_n rfl rfl rfl rfl rfl rfl none _ A B]
  rfl

/-! ## The stretches -/

/-- The hidden state at an entry: the row's normalisation, scale, shift and clamp. -/
theorem hR_apply (hl : (⟨S50000x128, .f32⟩ : BufTy).Contents (Elt Ideal)) (x9 x10 : (⟨S128, .f32⟩ : BufTy).Contents (Elt Ideal)) (p : Fin 50000) (q : Fin 128) :
    hR hl x9 x10 (ix2 p q) = lnRelu (row hl p) (vec0 x9) (vec0 x10) q := by
  unfold hR
  simp (disch := rfl) only [maximumf_apply, addf_apply, mulf_apply, subf_apply, hdivf_apply, hrsqrt_apply, hsqrt_apply, constant_apply, bcCols, bcRows, bcCol, bcRow, bcScalar, rowsum_S50000x128, rowsum_S50000x64, Ideal.ofBits_zero_f32, zero_add]
  rfl

/-- The embedding at an entry: the row divided by the larger of its norm and the floor. -/
theorem zR_apply (zl : (⟨S50000x64, .f32⟩ : BufTy).Contents (Elt Ideal)) (p : Fin 50000) (q : Fin 64) :
    zR zl (ix2 p q) = l2 (row zl p) q := by
  unfold zR
  simp (disch := rfl) only [maximumf_apply, addf_apply, mulf_apply, subf_apply, hdivf_apply, hrsqrt_apply, hsqrt_apply, constant_apply, bcCols, bcRows, bcCol, bcRow, bcScalar, rowsum_S50000x128, rowsum_S50000x64, Ideal.ofBits_zero_f32, zero_add]
  rfl

/-! ## The three stretches that take aggregated arrays or gathered rows, with those as variables -/

/-- The first layer's sum as a function of the two aggregated arrays. -/
def hlR' (aF : (⟨S50000x64, .f32⟩ : BufTy).Contents (Elt Ideal)) (aR : (⟨S50000x64, .f32⟩ : BufTy).Contents (Elt Ideal)) (x0 : (⟨S50000x64, .f32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) : (⟨S50000x128, .f32⟩ : BufTy).Contents (Elt Ideal) :=
  ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) aF x3) ((broadcastInDim S50000x128 ![0, 1] bcast_S1x128_S50000x128_0_1 : (⟨S1x128, .f32⟩ : BufTy).Contents (Elt Ideal) → (⟨S50000x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x4))) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) x0 x5)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ((addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) aR x6) ((broadcastInDim S50000x128 ![0, 1] bcast_S1x128_S50000x128_0_1 : (⟨S1x128, .f32⟩ : BufTy).Contents (Elt Ideal) → (⟨S50000x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x7))) (((fun l r => Host.dotGeneral (F := Ideal) (φ₁ := .f32) (φ₂ := .f32) dot_S50000x64_S64x128_S50000x128_1_0_0_1_n_n none l r) : (⟨S50000x64, .f32⟩ : BufTy).Contents (Elt Ideal) → (⟨S64x128, .f32⟩ : BufTy).Contents (Elt Ideal) → (⟨S50000x128, .f32⟩ : BufTy).Contents (Elt Ideal)) x0 x8)))
theorem hlR_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) :
    hlR x0 x1 x3 x4 x5 x6 x7 x8 = hlR' (aggF x0 x1) (aggR x0 x1) x0 x3 x4 x5 x6 x7 x8 := rfl

/-- The second layer's sum as a function of the two aggregated arrays. -/
def zlR' (a2F : (⟨S50000x128, .f32⟩ : BufTy).Contents (Elt Ideal)) (a2R : (⟨S50000x128, .f32⟩ : BufTy).Contents (Elt Ideal)) (h : (⟨S50000x128, .f32⟩ : BufTy).Contents (Elt Ideal)) (x11 : (⟨S128x64, .f32⟩ : BufTy).Contents (Elt Ideal)) (x12 : (⟨S64, .f32⟩ : BufTy).Contents (Elt Ideal)) (x13 : (⟨S128x64, .f32⟩ : BufTy).Contents (Elt Ideal)) (x14 : (⟨S128x64, .f32⟩ : BufTy).Contents (Elt Ideal)) (x15 : (⟨S64, .f32⟩ : BufTy).Contents (Elt Ideal)) (x16 : (⟨S128x64, .f32⟩ : BufTy).Contents (Elt Ideal)) : (⟨S50000x64, .f32⟩ : BufTy).Contents (Elt Ideal) :=
  ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) a2F x11) ((broadcastInDim S50000x64 ![0, 1] bcast_S1x64_S50000x64_0_1 : (⟨S1x64, .f32⟩ : BufTy).Contents (Elt Ideal) → (⟨S50000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) x12))) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) h x13)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) ((addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal)) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) a2R x14) ((broadcastInDim S50000x64 ![0, 1] bcast_S1x64_S50000x64_0_1 : (⟨S1x64, .f32⟩ : BufTy).Contents (Elt Ideal) → (⟨S50000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) x15))) (((fun l r => Host.dotGeneral (F := Ideal) (φ₁ := .f32) (φ₂ := .f32) dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal)) h x16)))
theorem zlR_eq (h : (⟨S50000x128, .f32⟩ : BufTy).Contents (Elt Ideal)) (x1 : (⟨S2x800000, .i32⟩ : BufTy).Contents (Elt Ideal)) (x11 : (⟨S128x64, .f32⟩ : BufTy).Contents (Elt Ideal)) (x12 : (⟨S64, .f32⟩ : BufTy).Contents (Elt Ideal)) (x13 : (⟨S128x64, .f32⟩ : BufTy).Contents (Elt Ideal)) (x14 : (⟨S128x64, .f32⟩ : BufTy).Contents (Elt Ideal)) (x15 : (⟨S64, .f32⟩ : BufTy).Contents (Elt Ideal)) (x16 : (⟨S128x64, .f32⟩ : BufTy).Contents (Elt Ideal)) :
    zlR h x1 x11 x12 x13 x14 x15 x16 = zlR' (agg2F h x1) (agg2R h x1) h x11 x12 x13 x14 x15 x16 := rfl

/-- The decoder as a function of the two gathered arrays of end-point rows. -/
def outR' (zs : (⟨S100000x64, .f32⟩ : BufTy).Contents (Elt Ideal)) (zd : (⟨S100000x64, .f32⟩ : BufTy).Contents (Elt Ideal)) (x17 : (⟨S192x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal)) : (⟨S100000, .f32⟩ : BufTy).Contents (Elt Ideal) :=
  (shapeCast _ ((addf (F := Ideal) (φ := .f32) : (⟨S100000x1, .f32⟩ : BufTy).Contents (Elt Ideal) → (⟨S100000x1, .f32⟩ : BufTy).Contents (Elt Ideal) → (⟨S100000x1, .f32⟩ : BufTy).Contents (Elt Ideal)) (((fun l r => Host.dotGeneral (F := Ideal) (φ₁ := .f32) (φ₂ := .f32) dot_S100000x32_S32x1_S100000x1_1_0_0_1_n_n none l r) : (⟨S100000x32, .f32⟩ : BufTy).Contents (Elt Ideal) → (⟨S32x1, .f32⟩ : BufTy).Contents (Elt Ideal) → (⟨S100000x1, .f32⟩ : BufTy).Contents (Elt Ideal)) (maximumf (F := Ideal) (φ := .f32) ((addf (F := Ideal) (φ := .f32) : (⟨S100000x32, .f32⟩ : BufTy).Contents (Elt Ideal) → (⟨S100000x32, .f32⟩ : BufTy).Contents (Elt Ideal) → (⟨S100000x32, .f32⟩ : BufTy).Contents (Elt Ideal)) (((fun l r => Host.dotGeneral (F := Ideal) (φ₁ := .f32) (φ₂ := .f32) dot_S100000x64_S64x32_S100000x32_1_0_0_1_n_n none l r) : (⟨S100000x64, .f32⟩ : BufTy).Contents (Elt Ideal) → (⟨S64x32, .f32⟩ : BufTy).Contents (Elt Ideal) → (⟨S100000x32, .f32⟩ : BufTy).Contents (Elt Ideal)) (maximumf (F := Ideal) (φ := .f32) ((addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) (((fun l r => Host.dotGeneral (F := Ideal) (φ₁ := .f32) (φ₂ := .f32) dot_S100000x192_S192x64_S100000x64_1_0_0_1_n_n none l r) : (⟨S100000x192, .f32⟩ : BufTy).Contents (Elt Ideal) → (⟨S192x64, .f32⟩ : BufTy).Contents (Elt Ideal) → (⟨S100000x64, .f32⟩ : BufTy).Contents (Elt Ideal)) (concatenate S100000x192 1 [⟨S100000x64, zs⟩, ⟨S100000x64, zd⟩, ⟨S100000x64, ((mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) zs zd)⟩] concatenates_S100000x64_S100000x64_S100000x64_S100000x192_d1) x17) ((broadcastInDim S100000x64 ![0, 1] bcast_S1x64_S100000x64_0_1 : (⟨S1x64, .f32⟩ : BufTy).Contents (Elt Ideal) → (⟨S100000x64, .f32⟩ : BufTy).Contents (Elt Ideal)) ((broadcastInDim S1x64 ![1] bcast_S64_S1x64_1 : (⟨S64, .f32⟩ : BufTy).Contents (Elt Ideal) → (⟨S1x64, .f32⟩ : BufTy).Contents (Elt Ideal)) x18))) ((broadcastInDim S100000x64 ![] bcast_S_S100000x64) (constant (F := Ideal) S_ .f32 0x00000000#32))) x19) ((broadcastInDim S100000x32 ![0, 1] bcast_S1x32_S100000x32_0_1 : (⟨S1x32, .f32⟩ : BufTy).Contents (Elt Ideal) → (⟨S100000x32, .f32⟩ : BufTy).Contents (Elt Ideal)) ((broadcastInDim S1x32 ![1] bcast_S32_S1x32_1 : (⟨S32, .f32⟩ : BufTy).Contents (Elt Ideal) → (⟨S1x32, .f32⟩ : BufTy).Contents (Elt Ideal)) x20))) ((broadcastInDim S100000x32 ![] bcast_S_S100000x32) (constant (F := Ideal) S_ .f32 0x00000000#32))) x21) ((broadcastInDim S100000x1 ![0, 1] bcast_S1x1_S100000x1_0_1 : (⟨S1x1, .f32⟩ : BufTy).Contents (Elt Ideal) → (⟨S100000x1, .f32⟩ : BufTy).Contents (Elt Ideal)) ((broadcastInDim S1x1 ![1] bcast_S1_S1x1_1 : (⟨S1, .f32⟩ : BufTy).Contents (Elt Ideal) → (⟨S1x1, .f32⟩ : BufTy).Contents (Elt Ideal)) x22))) shapeCasts_S100000x1_S100000)
theorem outR_eq (z : (⟨S50000x64, .f32⟩ : BufTy).Contents (Elt Ideal)) (x2 : (⟨S2x100000, .i32⟩ : BufTy).Contents (Elt Ideal)) (x17 : (⟨S192x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal)) :
    outR z x2 x17 x18 x19 x20 x21 x22 = outR' (zsR z x2) (zdR z x2) x17 x18 x19 x20 x21 x22 := rfl

/-- The first layer's sum at an entry: the two relations' combines of the aggregated rows and the node's own row. -/
theorem hlR'_apply (aF : (⟨S50000x64, .f32⟩ : BufTy).Contents (Elt Ideal)) (aR : (⟨S50000x64, .f32⟩ : BufTy).Contents (Elt Ideal)) (x0 : (⟨S50000x64, .f32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) (p : Fin 50000) (q : Fin 128) :
    hlR' aF aR x0 x3 x4 x5 x6 x7 x8 (ix2 p q)
      = hlin (row aF p) (row aR p) (row x0 p) (mat x3) (vec0 x4) (mat x5) (mat x6) (vec0 x7) (mat x8) q := by
  unfold hlR'
  simp (disch := rfl) only [addf_apply, bcRows, bcRow, dot_S50000x64_S64x128_S50000x128_1_0_0_1_n_n_at]
  rfl

/-- The second layer's sum at an entry: the aggregated hidden rows through the left weights, the biases, the node's own
    hidden row through the right weights. -/
theorem zlR'_apply (a2F : (⟨S50000x128, .f32⟩ : BufTy).Contents (Elt Ideal)) (a2R : (⟨S50000x128, .f32⟩ : BufTy).Contents (Elt Ideal)) (h : (⟨S50000x128, .f32⟩ : BufTy).Contents (Elt Ideal)) (x11 : (⟨S128x64, .f32⟩ : BufTy).Contents (Elt Ideal)) (x12 : (⟨S64, .f32⟩ : BufTy).Contents (Elt Ideal)) (x13 : (⟨S128x64, .f32⟩ : BufTy).Contents (Elt Ideal)) (x14 : (⟨S128x64, .f32⟩ : BufTy).Contents (Elt Ideal)) (x15 : (⟨S64, .f32⟩ : BufTy).Contents (Elt Ideal)) (x16 : (⟨S128x64, .f32⟩ : BufTy).Contents (Elt Ideal)) (p : Fin 50000) (q : Fin 64) :
    zlR' a2F a2R h x11 x12 x13 x14 x15 x16 (ix2 p q)
      = zlin (dot (row a2F p) (mat x11)) (dot (row a2R p) (mat x14)) (row h p) (vec0 x12) (mat x13) (vec0 x15) (mat x16) q := by
  unfold zlR'
  simp (disch := rfl) only [addf_apply, bcRows, bcRow, dot_S50000x128_S128x64_S50000x64_1_0_0_1_n_n_at]
  rfl

end Cert.ReferenceIdeal.Read

end
-- ==== Proof.LayersAt.lean ====
/-
  The four whole-array stages of `Layers` at an entry: entry `(p, q)` is the row-level mathematics applied to row `p` of
  the row-wise operands.
-/
import proofs.«106045_j46145128628314_2_alg».proof.Proof.Layers

noncomputable section

namespace Cert.Sage

open Idealize.ShloMosaic Idealize.ShloMosaic.ValueIdx

variable {r : Nat}

/-! ## The stages at an entry -/

theorem hidden_apply (Af Ar X : (⟨2, ![r, 64]⟩ : Shape).Idx → EReal) (Wlf : (⟨2, ![64, 128]⟩ : Shape).Idx → EReal)
    (blf : (⟨2, ![1, 128]⟩ : Shape).Idx → EReal) (Wrf Wlr : (⟨2, ![64, 128]⟩ : Shape).Idx → EReal)
    (blr : (⟨2, ![1, 128]⟩ : Shape).Idx → EReal) (Wrr : (⟨2, ![64, 128]⟩ : Shape).Idx → EReal)
    (g b : (⟨2, ![1, 128]⟩ : Shape).Idx → EReal) (p : Fin r) (q : Fin 128) :
    hidden Af Ar X Wlf blf Wrf Wlr blr Wrr g b (ix2 p q)
      = lnRelu (hlin (row Af p) (row Ar p) (row X p) (mat Wlf) (vec1 blf) (mat Wrf) (mat Wlr) (vec1 blr) (mat Wrr)) (vec1 g) (vec1 b) q := rfl

theorem project_apply (H : (⟨2, ![r, 128]⟩ : Shape).Idx → EReal) (W : (⟨2, ![128, 64]⟩ : Shape).Idx → EReal) (p : Fin r) (q : Fin 64) :
    project H W (ix2 p q) = dot (row H p) (mat W) q := rfl

theorem embed_apply (Af Ar : (⟨2, ![r, 64]⟩ : Shape).Idx → EReal) (H : (⟨2, ![r, 128]⟩ : Shape).Idx → EReal)
    (blf : (⟨2, ![1, 64]⟩ : Shape).Idx → EReal) (Wrf : (⟨2, ![128, 64]⟩ : Shape).Idx → EReal)
    (blr : (⟨2, ![1, 64]⟩ : Shape).Idx → EReal) (Wrr : (⟨2, ![128, 64]⟩ : Shape).Idx → EReal) (p : Fin r) (q : Fin 64) :
    embed Af Ar H blf Wrf blr Wrr (ix2 p q) = l2 (zlin (row Af p) (row Ar p) (row H p) (vec1 blf) (mat Wrf) (vec1 blr) (mat Wrr)) q := rfl

theorem decode_apply {n : Nat} (Zs Zd : (⟨2, ![r, 64]⟩ : Shape).Idx → EReal) (Wa Wb Wc : (⟨2, ![64, 64]⟩ : Shape).Idx → EReal)
    (b1 : (⟨2, ![1, 64]⟩ : Shape).Idx → EReal) (W2 : (⟨2, ![64, 32]⟩ : Shape).Idx → EReal) (b2 : (⟨2, ![1, 32]⟩ : Shape).Idx → EReal)
    (W3 : (⟨2, ![32, n]⟩ : Shape).Idx → EReal) (b3 : (⟨2, ![1, n]⟩ : Shape).Idx → EReal) (p : Fin r) (q : Fin n) :
    decode Zs Zd Wa Wb Wc b1 W2 b2 W3 b3 (ix2 p q)
      = affine (dense (dec1 (row Zs p) (row Zd p) (mat Wa) (mat Wb) (mat Wc) (vec1 b1)) (mat W2) (vec1 b2)) (mat W3) (vec1 b3) q := rfl

end Cert.Sage

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«106045_j46145128628314_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.Reals.lean ====
/-
  Where the proof needs real numbers. The extended reals lose distributivity at the infinities, and one step of the
  comparison — moving the second layer's left weights inside the mean over a node's edges — is linearity; so the hidden
  state's entries, the weights and the edge counts are shown to be reals, and the step is taken there:
  * the words `128.0`, `1.0` and the two floors as reals (the floors positive);
  * a row's layer normalisation and clamp (`lnRelu`) and the two relations' sum (`hlin`) of reals are reals;
  * `seg_law`: for reals `a e k`, `w k` and a real `c ≠ 0`,
      `(Σ_{e ∈ P} Σ_k a e k · w k) / c = Σ_k ((Σ_{e ∈ P} a e k) / c) · w k`.
-/
import proofs.«106045_j46145128628314_2_alg».proof.Proof.Spec
import proofs.«106045_j46145128628314_2_alg».proof.Proof.LibIdealSums
import proofs.«106045_j46145128628314_2_alg».proof.Proof.LibRealSums

noncomputable section

namespace Cert.Sage

open scoped BigOperators
open Idealize.ShloMosaic Cert.Lib.IdealSums Cert.Lib.RealSums

/-! ## The words -/

theorem c128_eq : c128 = ((128 : ℝ) : EReal) := by
  unfold c128; simp [Ideal.ofBits, Ideal.ieee, -EReal.coe_mul]; norm_num
theorem one_word : Ideal.ofBits .f32 0x3F800000#32 = 1 := by
  simp [Ideal.ofBits, Ideal.ieee, -EReal.coe_mul]; norm_num
theorem lnEps_pos : (0 : EReal) < lnEps := by
  unfold lnEps; simp [Ideal.ofBits, Ideal.ieee, -EReal.coe_mul]
theorem lnEps_isReal : IsReal lnEps :=
  isReal_iff.2 ⟨by unfold lnEps; simp [Ideal.ofBits, Ideal.ieee, -EReal.coe_mul], by unfold lnEps; simp [Ideal.ofBits, Ideal.ieee, -EReal.coe_mul]⟩

/-! ## Reals in, reals out -/

/-- The reciprocal square root of a positive real is a real. -/
theorem isReal_rsqrt {x : EReal} (hx : IsReal x) (h0 : 0 < x) : IsReal (Ideal.rsqrt x) := by
  obtain ⟨r, rfl⟩ := hx
  have hr : 0 < r := by exact_mod_cast h0
  have e : Ideal.rsqrt (r : EReal) = (((Real.sqrt r)⁻¹ : ℝ) : EReal) := by
    show (if r < 0 then (⊥ : EReal) else if r = 0 then ⊤ else (((Real.sqrt r)⁻¹ : ℝ) : EReal)) = _
    rw [if_neg (not_lt.2 hr.le), if_neg hr.ne']
  rw [e]; exact isReal_coe _

theorem dot_isReal {k n : Nat} (a : Fin k → EReal) (W : Fin k → Fin n → EReal) (ha : ∀ c, IsReal (a c))
    (hW : ∀ c q, IsReal (W c q)) (q : Fin n) : IsReal (dot a W q) :=
  IsReal.sum _ fun c _ => (ha c).mul (hW c q)

theorem sage_isReal {k n : Nat} (a x : Fin k → EReal) (Wl : Fin k → Fin n → EReal) (bl : Fin n → EReal) (Wr : Fin k → Fin n → EReal)
    (ha : ∀ c, IsReal (a c)) (hx : ∀ c, IsReal (x c)) (hWl : ∀ c q, IsReal (Wl c q)) (hbl : ∀ q, IsReal (bl q))
    (hWr : ∀ c q, IsReal (Wr c q)) (q : Fin n) : IsReal (sage a x Wl bl Wr q) :=
  ((dot_isReal a Wl ha hWl q).add (hbl q)).add (dot_isReal x Wr hx hWr q)

theorem mean_isReal {n : Nat} (v : Fin n → EReal) (hv : ∀ j, IsReal (v j)) : IsReal (mean v) := by
  unfold mean; rw [c128_eq]
  exact IsReal.div (IsReal.sum _ fun j _ => hv j) (isReal_coe _) (by exact_mod_cast (by norm_num : (128 : ℝ) ≠ 0))

/-- A row of reals, normalised by its mean and mean squared deviation, scaled, shifted and clamped, is a row of reals:
    the mean squared deviation is a real ≥ 0, so with the positive floor added its reciprocal square root is a real. -/
theorem lnRelu_isReal {n : Nat} (v g b : Fin n → EReal) (hv : ∀ j, IsReal (v j)) (hg : ∀ j, IsReal (g j))
    (hb : ∀ j, IsReal (b j)) (q : Fin n) : IsReal (lnRelu v g b q) := by
  have hm := mean_isReal v hv
  have hd : ∀ j, IsReal (v j - mean v) := fun j => (hv j).sub hm
  choose d hd' using hd
  have hvar : mean (fun j => (v j - mean v) * (v j - mean v)) = (((∑ j, d j * d j) / 128 : ℝ) : EReal) := by
    simp only [hd']
    show Ideal.div (∑ j, ((d j : ℝ) : EReal) * ((d j : ℝ) : EReal)) c128 = _
    rw [← coe_sum_mul, c128_eq, div_coe_coe _ (by norm_num)]
  have hnn : (0 : ℝ) ≤ (∑ j, d j * d j) / 128 := div_nonneg (Finset.sum_nonneg fun j _ => mul_self_nonneg _) (by norm_num)
  have hpos : (0 : EReal) < (((∑ j, d j * d j) / 128 : ℝ) : EReal) + lnEps := by
    obtain ⟨e, he⟩ := lnEps_isReal
    have he0 : 0 < e := by have h := lnEps_pos; rw [he] at h; exact_mod_cast h
    rw [he, ← EReal.coe_add]
    exact_mod_cast add_pos_of_nonneg_of_pos hnn he0
  unfold lnRelu
  rw [hvar]
  exact isReal_max (((((hv q).sub hm).mul (isReal_rsqrt ((isReal_coe _).add lnEps_isReal) hpos)).mul (hg q)).add (hb q)) isReal_zero

/-! ## Linearity of the mean over a node's edges -/

theorem coe_ite {p : Prop} [Decidable p] (x : ℝ) : (((if p then x else 0 : ℝ)) : EReal) = if p then (x : EReal) else 0 := by
  split_ifs <;> simp

theorem seg_law_real {E K : Type} [Fintype E] [Fintype K] (P : E → Prop) [DecidablePred P] (a : E → K → ℝ) (w : K → ℝ) (c : ℝ) :
    (∑ e, if P e then ∑ k, a e k * w k else 0) / c = ∑ k, (∑ e, if P e then a e k else 0) / c * w k := by
  simp only [Finset.sum_div, Finset.sum_mul]
  rw [Finset.sum_comm]
  refine Finset.sum_congr rfl fun e _ => ?_
  by_cases h : P e
  · simp only [if_pos h, Finset.sum_div]
    refine Finset.sum_congr rfl fun k _ => ?_
    ring
  · simp only [if_neg h, zero_div, zero_mul, Finset.sum_const_zero]

/-- The same on the extended reals, for real entries and a real divisor other than 0. -/
theorem seg_law {E K : Type} [Fintype E] [Fintype K] (P : E → Prop) [DecidablePred P] (a : E → K → EReal) (w : K → EReal)
    (c : EReal) (ha : ∀ e k, IsReal (a e k)) (hw : ∀ k, IsReal (w k)) (hc : IsReal c) (hc0 : c ≠ 0) :
    Ideal.div (0 + ∑ e, if P e then ∑ k, a e k * w k else 0) c
      = ∑ k, Ideal.div (0 + ∑ e, if P e then a e k else 0) c * w k := by
  choose a' ha' using ha
  choose w' hw' using hw
  obtain ⟨c', rfl⟩ := hc
  have hc' : c' ≠ 0 := fun h => hc0 (by rw [h]; rfl)
  simp only [ha', hw', zero_add]
  have L : (∑ e, if P e then ∑ k, ((a' e k : ℝ) : EReal) * ((w' k : ℝ) : EReal) else 0)
      = (((∑ e, if P e then ∑ k, a' e k * w' k else 0 : ℝ)) : EReal) := by
    rw [coe_sum_univ]; refine Finset.sum_congr rfl fun e _ => ?_
    rw [coe_ite, coe_sum_mul]
  have R : ∀ k, (∑ e, if P e then ((a' e k : ℝ) : EReal) else 0) = (((∑ e, if P e then a' e k else 0 : ℝ)) : EReal) := fun k => by
    rw [coe_sum_univ]; exact Finset.sum_congr rfl fun e _ => (coe_ite _).symm
  rw [L, div_coe_coe _ hc']
  simp only [R, div_coe_coe _ hc', ← EReal.coe_mul]
  rw [← coe_sum_univ, seg_law_real]

end Cert.Sage

end
-- ==== Proof.LibScatterRows.lean ====
/-
  A host scatter whose every update is one row of D entries, addressed by a one-component index: the operand is
  an N×D array, there are M update rows, and row r of the updates is aimed at the operand row whose number is the
  signed reading of index word r; its entry q goes to entry q of that row. An update row whose number is outside
  0 … N − 1 is dropped. Here: update (r, q) lands on element (p, q') exactly when index word r reads p and q = q';
  and, on the extended reals with an add body, the result at (p, q') is the operand's element plus the sum of the
  update entries (r, q') over the rows r whose index word reads p.
-/
import Idealize.ShloMosaic.PureOps.Ideal
import Idealize.ShloMosaic.PureOps.Ideal.Laws
import Idealize.ShloMosaic.Lib.ValueIdx

noncomputable section

namespace Cert.Lib.ScatterRows

open Idealize.ShloMosaic Idealize.ShloMosaic.ValueIdx

variable {N M D w : Nat}

/-- The dimension numbers of such a scatter: axis 1 of the updates is the window axis (a row's entries), the
    operand's axis 0 is inserted and addressed by component 0 of the index vector, the index vector along axis 1. -/
abbrev dims (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ :=
  ScatterDims.mk [1] [0] [0] 1 wf

/-- Update (r, q) reads its index at row r of the M×1 index array. -/
theorem siIdx_eq (wf : ScatterDims.WF ⟨2, ![N, D]⟩ ⟨2, ![M, 1]⟩ ⟨2, ![M, D]⟩ [1] [0] [0] 1)
    (j : (⟨2, ![M, D]⟩ : Shape).Idx) (c : Fin (dims wf).scatterDimsToOperandDims.length) :
    (dims wf).siIdx j c = ix2 (⟨(j 0).val, idx2_lt0 j⟩ : Fin M) (0 : Fin 1) := by
  funext b
  apply Fin.ext
  match b with
  | ⟨0, _⟩ => rfl
  | ⟨1, _⟩ =>
    have : c.val < 1 := c.isLt
    have : c.val = 0 := by omega
    show c.val = 0
    exact this

/-- On the operand's row axis the start of update (r, q) is the signed reading of index word r. -/
theorem start_zero (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (0 : Fin 2) = (idx (ix2 (⟨(j 0).val, idx2_lt0 j⟩ : Fin M) (0 : Fin 1))).toInt := by
  unfold ScatterDims.start
  have ha : (0 : Fin 2) ∈ ([0] : List (Fin 2)) := List.mem_singleton_self _
  rw [dif_pos ha]
  exact congrArg (fun k => (idx k).toInt) (siIdx_eq wf j _)

/-- On the operand's entry axis, which no index component names, the start is 0. -/
theorem start_one (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (1 : Fin 2) = 0 := by
  unfold ScatterDims.start
  rw [dif_neg (show (1 : Fin 2) ∉ ([0] : List (Fin 2)) from by decide)]

/-- An update has no extent along the operand's row axis. -/
theorem window_zero (wf : ScatterDims.WF ⟨2, ![N, D]⟩ ⟨2, ![M, 1]⟩ ⟨2, ![M, D]⟩ [1] [0] [0] 1)
    (j : (⟨2, ![M, D]⟩ : Shape).Idx) : (dims wf).window j (0 : Fin 2) = 0 := by
  unfold ScatterDims.window
  rw [dif_neg]
  show (0 : Fin 2) ∉ (List.finRange 2).filter (· ∉ ([0] : List (Fin 2)))
  decide

/-- Along the operand's entry axis the window coordinate of update (r, q) is q. -/
theorem window_one (wf : ScatterDims.WF ⟨2, ![N, D]⟩ ⟨2, ![M, 1]⟩ ⟨2, ![M, D]⟩ [1] [0] [0] 1)
    (j : (⟨2, ![M, D]⟩ : Shape).Idx) : (dims wf).window j (1 : Fin 2) = (j 1).val := by
  unfold ScatterDims.window
  have h1 : (1 : Fin 2) ∈ (dims wf).sKept := by
    show (1 : Fin 2) ∈ (List.finRange 2).filter (· ∉ ([0] : List (Fin 2)))
    decide
  rw [dif_pos h1]
  rfl

/-- Update (r, q) lands on element (p, q') exactly when the index word of row r, read signed, is p, and q = q'. -/
theorem resultIdx_iff (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) (i : (⟨2, ![N, D]⟩ : Shape).Idx) :
    (dims wf).resultIdx? j idx = some i ↔
      (idx (ix2 (⟨(j 0).val, idx2_lt0 j⟩ : Fin M) (0 : Fin 1))).toInt = ((i 0).val : Int) ∧ (j 1).val = (i 1).val := by
  unfold ScatterDims.resultIdx?
  have hlt0 : (i 0).val < N := idx2_lt0 i
  have hlt1 : (i 1).val < D := idx2_lt1 i
  have hj1 : (j 1).val < D := idx2_lt1 j
  constructor
  · intro h
    split_ifs at h with hc
    have h0 : ((dims wf).start j idx 0 + ((dims wf).window j 0 : Nat)).toNat = (i 0).val :=
      congrArg (fun k => (k 0).val) (Option.some.inj h)
    have h1 : ((dims wf).start j idx 1 + ((dims wf).window j 1 : Nat)).toNat = (i 1).val :=
      congrArg (fun k => (k 1).val) (Option.some.inj h)
    have hc0 := hc 0
    rw [start_zero, window_zero] at hc0 h0
    rw [start_one, window_one] at h1
    constructor
    · omega
    · omega
  · rintro ⟨h, hq⟩
    have hc : ∀ a : Fin 2, 0 ≤ (dims wf).start j idx a + ((dims wf).window j a : Nat)
        ∧ (dims wf).start j idx a + ((dims wf).window j a : Nat) < ((⟨2, ![N, D]⟩ : Shape).size a : Nat) := fun a => by
      match a with
      | ⟨0, _⟩ =>
        show 0 ≤ (dims wf).start j idx (0 : Fin 2) + ((dims wf).window j (0 : Fin 2) : Nat)
          ∧ (dims wf).start j idx (0 : Fin 2) + ((dims wf).window j (0 : Fin 2) : Nat) < (N : Int)
        rw [start_zero, window_zero, h]
        omega
      | ⟨1, _⟩ =>
        show 0 ≤ (dims wf).start j idx (1 : Fin 2) + ((dims wf).window j (1 : Fin 2) : Nat)
          ∧ (dims wf).start j idx (1 : Fin 2) + ((dims wf).window j (1 : Fin 2) : Nat) < (D : Int)
        rw [start_one, window_one]
        omega
    rw [dif_pos hc]
    congr 1
    funext a
    apply Fin.ext
    match a with
    | ⟨0, _⟩ =>
      show ((dims wf).start j idx (0 : Fin 2) + ((dims wf).window j (0 : Fin 2) : Nat)).toNat = (i 0).val
      rw [start_zero, window_zero, h]
      omega
    | ⟨1, _⟩ =>
      show ((dims wf).start j idx (1 : Fin 2) + ((dims wf).window j (1 : Fin 2) : Nat)).toNat = (i 1).val
      rw [start_one, window_one]
      omega

/-- The accumulating scatter at element (p, q'): the operand's element plus the update entries (r, q) with q = q'
    whose row's index word reads p. -/
theorem scatterAdd_apply (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : (⟨2, ![N, D]⟩ : Shape).Idx) :
    Ideal.hostScatterAdd (dims wf) x idx upd i
      = x i + ∑ j : (⟨2, ![M, D]⟩ : Shape).Idx,
          if (idx (ix2 (⟨(j 0).val, idx2_lt0 j⟩ : Fin M) (0 : Fin 1))).toInt = ((i 0).val : Int) ∧ (j 1).val = (i 1).val
          then upd j else 0 := by
  unfold Ideal.hostScatterAdd
  rw [Finset.sum_filter]
  congr 1
  refine Finset.sum_congr rfl fun j _ => ?_
  simp only [resultIdx_iff]

end Cert.Lib.ScatterRows

end
-- ==== Proof.LibScatterSeg.lean ====
/-
  The host's accumulating scatter of rows read as a sum over the update rows: with operand N×D, indices M×1 and updates
  M×D, the result at (n, q) is the operand's entry plus the sum, over the update rows e whose index word read signed is
  n, of the update's entry (e, q). (The double sum over update elements collapses along the row: only column q of an
  update row lands on column q.)
-/
import Idealize.ShloMosaic.PureOps.Ideal
import Idealize.ShloMosaic.PureOps.Ideal.Laws
import Idealize.ShloMosaic.Lib.ValueIdx
import proofs.«106045_j46145128628314_2_alg».proof.Proof.LibScatterRows

open scoped BigOperators

noncomputable section

namespace Cert.Lib.ScatterSeg

open Idealize.ShloMosaic Idealize.ShloMosaic.ValueIdx

variable {N M D w : Nat}

/-- The accumulating row scatter at (n, q): the operand's entry plus the sum over the update rows aimed at n. -/
theorem scatterAdd_seg (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd (Cert.Lib.ScatterRows.dims wf) x idx upd (ix2 n q)
      = x (ix2 n q) + ∑ e : Fin M, if (idx (ix2 e 0)).toInt = ((n.val : Nat) : Int) then upd (ix2 e q) else 0 := by
  rw [Cert.Lib.ScatterRows.scatterAdd_apply, sum_idx2]
  congr 1
  refine Finset.sum_congr rfl fun e _ => ?_
  by_cases h : (idx (ix2 e 0)).toInt = ((n.val : Nat) : Int)
  · rw [if_pos h]
    rw [Finset.sum_eq_single q]
    · have h' : (idx (ix2 (⟨((ix2 e q : (⟨2, ![M, D]⟩ : Shape).Idx) 0).val, idx2_lt0 _⟩ : Fin M) (0 : Fin 1))).toInt
          = (((ix2 n q : (⟨2, ![N, D]⟩ : Shape).Idx) 0).val : Int) := h
      exact if_pos ⟨h', rfl⟩
    · intro b _ hb
      refine if_neg fun hc => hb (Fin.ext ?_)
      exact hc.2
    · intro hq; exact absurd (Finset.mem_univ q) hq
  · rw [if_neg h]
    refine Finset.sum_eq_zero fun b _ => if_neg fun hc => h ?_
    exact hc.1

end Cert.Lib.ScatterSeg

end
-- ==== Proof.LibRowGather.lean ====
/-
  Rows of a table picked by an array of integer words: what `table[idx]` lowers to on the host, read at an index.
  The table has N rows of D entries. Every start word is read as a signed integer and clamped into [0, N − 1]
  (StableHLO's gather clamps each start index so that the one-row slice fits); the result's row b is the table's
  row at that clamped position, entry for entry. Two spellings of the index array occur: B×1 words giving a B×D
  result, and B×1×1 words giving a B×1×D result. Nothing here mentions a program.
-/
import Idealize.ShloMosaic.PureOps.ShapeOps
import Idealize.ShloMosaic.Lib.ValueIdx

namespace Cert.Lib.RowGather

open Idealize.ShloMosaic Idealize.ShloMosaic.ValueIdx

section Rows
variable {α : Type}

/-- The row of an N-row table that a start word selects: the word read signed, clamped into [0, N − 1]. -/
def rowOf (N : Nat) (hN : 0 < N) {w : Nat} (v : BitVec w) : Fin N := ⟨min v.toInt.toNat (N - 1), by omega⟩

/-- The dimension numbers of a row gather with a B×1 index array: the result's axis 1 is the row's entries, the
    table's axis 0 is collapsed and addressed by the one component of each start index. -/
abbrev rowsDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Entry (b, q) of the gathered rows is entry q of the table's row selected by the word at (b, 0). -/
theorem gather_rows_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (q : Fin D) :
    Host.gather (rowsDims N B D wf) x idx (ix2 b q) = x (ix2 (rowOf N hN (idx (ix2 b 0))) q) := by
  unfold Host.gather
  refine congrArg x ?_
  funext a
  refine Fin.ext ?_
  match a with
  | ⟨0, _⟩ =>
    show (rowsDims N B D wf).start (ix2 b q) idx (0 : Fin 2) + (rowsDims N B D wf).batchCoord (ix2 b q) (0 : Fin 2)
        + (rowsDims N B D wf).offCoord (ix2 b q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B D wf).startIndexMap from List.mem_singleton.mpr rfl)]
    have hsi : (rowsDims N B D wf).siIdx (ix2 b q) ⟨List.idxOf (0 : Fin 2) (rowsDims N B D wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    have hs : (rowsDims N B D wf).start (ix2 b q) idx (1 : Fin 2) = 0 := by
      unfold GatherDims.start
      rw [dif_neg (show (1 : Fin 2) ∉ [(0 : Fin 2)] from by decide)]
    have ho : (rowsDims N B D wf).offCoord (ix2 b q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims N B D wf).start (ix2 b q) idx (1 : Fin 2) + (rowsDims N B D wf).batchCoord (ix2 b q) (1 : Fin 2)
        + (rowsDims N B D wf).offCoord (ix2 b q) (1 : Fin 2) = q.val
    rw [GatherDims.batchCoord_eq_zero _ _ _ List.not_mem_nil, hs, ho]; omega

/-- The dimension numbers of a row gather with a B×1×1 index array: the result is B×1×D, its last axis the row's
    entries. -/
abbrev rowsDims3 (N B D : Nat)
    (wf : GatherDims.WF ⟨2, ![N, D]⟩ ⟨3, ![B, 1, 1]⟩ ⟨3, ![B, 1, D]⟩ [2] [0] [] [0] [] 2 ![1, D]) :
    GatherDims ⟨2, ![N, D]⟩ ⟨3, ![B, 1, 1]⟩ ⟨3, ![B, 1, D]⟩ where
  offsetDims := [2]
  collapsedSliceDims := [0]
  operandBatchingDims := []
  startIndicesBatchingDims := []
  startIndexMap := [0]
  indexVectorDim := 2
  sliceSizes := ![1, D]
  wf := wf

/-- Entry (b, 0, q) of the gathered rows is entry q of the table's row selected by the word at (b, 0, 0). -/
theorem gather_rows3_apply {N B D w : Nat} (hN : 0 < N)
    (wf : GatherDims.WF ⟨2, ![N, D]⟩ ⟨3, ![B, 1, 1]⟩ ⟨3, ![B, 1, D]⟩ [2] [0] [] [0] [] 2 ![1, D])
    (x : (⟨2, ![N, D]⟩ : Shape).Idx → α) (idx : IVec ⟨3, ![B, 1, 1]⟩ w) (b : Fin B) (q : Fin D) :
    Host.gather (rowsDims3 N B D wf) x idx (ix3 b 0 q) = x (ix2 (rowOf N hN (idx (ix3 b 0 0))) q) := by
  unfold Host.gather
  refine congrArg x ?_
  funext a
  refine Fin.ext ?_
  match a with
  | ⟨0, _⟩ =>
    show (rowsDims3 N B D wf).start (ix3 b 0 q) idx (0 : Fin 2) + (rowsDims3 N B D wf).batchCoord (ix3 b 0 q) (0 : Fin 2)
        + (rowsDims3 N B D wf).offCoord (ix3 b 0 q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N B D wf).startIndexMap from List.mem_singleton.mpr rfl)]
    have hsi : (rowsDims3 N B D wf).siIdx (ix3 b 0 q) ⟨List.idxOf (0 : Fin 2) (rowsDims3 N B D wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  | ⟨1, _⟩ =>
    have hs : (rowsDims3 N B D wf).start (ix3 b 0 q) idx (1 : Fin 2) = 0 := by
      unfold GatherDims.start
      rw [dif_neg (show (1 : Fin 2) ∉ [(0 : Fin 2)] from by decide)]
    have ho : (rowsDims3 N B D wf).offCoord (ix3 b 0 q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims3 N B D wf).start (ix3 b 0 q) idx (1 : Fin 2) + (rowsDims3 N B D wf).batchCoord (ix3 b 0 q) (1 : Fin 2)
        + (rowsDims3 N B D wf).offCoord (ix3 b 0 q) (1 : Fin 2) = q.val
    rw [GatherDims.batchCoord_eq_zero _ _ _ List.not_mem_nil, hs, ho]; omega

end Rows

end Cert.Lib.RowGather
-- ==== Proof.SegMean.lean ====
/-
  The mean over a node's edges, for a table of any width. `segMean` is the host's spelling — rows of a table `T` gathered
  by one index array, scatter-added by another into zeros, each row divided by a count column — over the generic forms of
  the scatter and gather records. At an entry `(n, q)` it is
      `(0 + Σ_{e : the edge's target word is n} T (the edge's source row, q)) / col n`.
  For a table of reals and a count column of reals other than 0: its entries are reals, and — linearity — the mean of
  the rows of `T·W` is the mean of the rows of `T`, times `W`.
-/
import proofs.«106045_j46145128628314_2_alg».proof.Proof.Spec
import proofs.«106045_j46145128628314_2_alg».proof.Proof.Rows
import proofs.«106045_j46145128628314_2_alg».proof.Proof.Reals
import proofs.«106045_j46145128628314_2_alg».proof.Proof.LibScatterSeg
import proofs.«106045_j46145128628314_2_alg».proof.Proof.LibRowGather
import proofs.«106045_j46145128628314_2_alg».proof.Proof.LibRowReductions
import Idealize.ShloMosaic.Lib.ValueIdx
import Idealize.ShloMosaic.PureOps.Ideal.Laws

noncomputable section

namespace Cert.Sage

open scoped BigOperators
open Idealize.ShloMosaic Idealize.ShloMosaic.ValueIdx Cert.Lib.IdealSums
open Cert.Lib.ScatterRows Cert.Lib.ScatterSeg Cert.Lib.RowGather Cert.Lib.RowReductions

variable {N M D : Nat}

/-- The host's mean aggregation over the generic record forms. -/
def segMean (wfS : ScatterDims.WF ⟨2, ![N, D]⟩ ⟨2, ![M, 1]⟩ ⟨2, ![M, D]⟩ [1] [0] [0] 1)
    (wfG : GatherDims.WF ⟨2, ![N, D]⟩ ⟨2, ![M, 1]⟩ ⟨2, ![M, D]⟩ [1] [0] [] [0] [] 1 ![1, D])
    (hz : (⟨0, ![]⟩ : Shape).BroadcastsInDim ⟨2, ![N, D]⟩ ![])
    (hc : (⟨2, ![N, 1]⟩ : Shape).BroadcastsInDim ⟨2, ![N, D]⟩ ![0, 1])
    (T : (⟨2, ![N, D]⟩ : Shape).Idx → EReal) (gI sI : IVec ⟨2, ![M, 1]⟩ 32) (col : (⟨2, ![N, 1]⟩ : Shape).Idx → EReal) :
    (⟨2, ![N, D]⟩ : Shape).Idx → EReal :=
  Host.divf (F := Ideal) (φ := .f32)
    (Host.scatterAdd (F := Ideal) (φ := .f32) (Cert.Lib.ScatterRows.dims wfS)
      (broadcastInDim ⟨2, ![N, D]⟩ ![] hz (constant (F := Ideal) ⟨0, ![]⟩ .f32 0x00000000#32)) sI
      (Host.gather (rowsDims N M D wfG) T gI))
    (broadcastInDim ⟨2, ![N, D]⟩ ![0, 1] hc col)

/-- The edges' part of an entry: the sum over the edges whose target word is `n` of the source row's entry. -/
def segSum (hN : 0 < N) (T : (⟨2, ![N, D]⟩ : Shape).Idx → EReal) (gI sI : IVec ⟨2, ![M, 1]⟩ 32) (n : Fin N) (q : Fin D) : EReal :=
  ∑ e : Fin M, if (sI (ix2 e 0)).toInt = ((n.val : Nat) : Int) then T (ix2 (rowOf N hN (gI (ix2 e 0))) q) else 0

theorem segMean_apply (hN : 0 < N) (wfS : ScatterDims.WF ⟨2, ![N, D]⟩ ⟨2, ![M, 1]⟩ ⟨2, ![M, D]⟩ [1] [0] [0] 1)
    (wfG : GatherDims.WF ⟨2, ![N, D]⟩ ⟨2, ![M, 1]⟩ ⟨2, ![M, D]⟩ [1] [0] [] [0] [] 1 ![1, D])
    (hz : (⟨0, ![]⟩ : Shape).BroadcastsInDim ⟨2, ![N, D]⟩ ![])
    (hc : (⟨2, ![N, 1]⟩ : Shape).BroadcastsInDim ⟨2, ![N, D]⟩ ![0, 1])
    (T : (⟨2, ![N, D]⟩ : Shape).Idx → EReal) (gI sI : IVec ⟨2, ![M, 1]⟩ 32) (col : (⟨2, ![N, 1]⟩ : Shape).Idx → EReal)
    (n : Fin N) (q : Fin D) :
    segMean wfS wfG hz hc T gI sI col (ix2 n q) = Ideal.div (0 + segSum hN T gI sI n q) (col (ix2 n 0)) := by
  unfold segMean segSum
  show Ideal.div (Ideal.hostScatterAdd (Cert.Lib.ScatterRows.dims wfS) _ sI _ (ix2 n q)) (broadcastInDim ⟨2, ![N, D]⟩ ![0, 1] hc col (ix2 n q)) = _
  rw [bcastInDim_cols_apply, scatterAdd_seg wfS]
  refine congrArg (fun s => Ideal.div s _) ?_
  rw [show broadcastInDim ⟨2, ![N, D]⟩ ![] hz (constant (F := Ideal) ⟨0, ![]⟩ .f32 0x00000000#32) (ix2 n q) = 0 from
    (Cert.Lib.RowReductions.bcastInDim_scalar_apply _ hz _).trans Ideal.ofBits_zero_f32]
  refine congrArg (fun s => (0 : EReal) + s) (Finset.sum_congr rfl fun e _ => ?_)
  rw [gather_rows_apply hN wfG]

/-- Reals in, reals out. -/
theorem segMean_isReal (hN : 0 < N) (wfS : ScatterDims.WF ⟨2, ![N, D]⟩ ⟨2, ![M, 1]⟩ ⟨2, ![M, D]⟩ [1] [0] [0] 1)
    (wfG : GatherDims.WF ⟨2, ![N, D]⟩ ⟨2, ![M, 1]⟩ ⟨2, ![M, D]⟩ [1] [0] [] [0] [] 1 ![1, D])
    (hz : (⟨0, ![]⟩ : Shape).BroadcastsInDim ⟨2, ![N, D]⟩ ![])
    (hc : (⟨2, ![N, 1]⟩ : Shape).BroadcastsInDim ⟨2, ![N, D]⟩ ![0, 1])
    (T : (⟨2, ![N, D]⟩ : Shape).Idx → EReal) (gI sI : IVec ⟨2, ![M, 1]⟩ 32) (col : (⟨2, ![N, 1]⟩ : Shape).Idx → EReal)
    (hT : ∀ i, IsReal (T i)) (hcol : ∀ n : Fin N, IsReal (col (ix2 n 0)) ∧ col (ix2 n 0) ≠ 0) (n : Fin N) (q : Fin D) :
    IsReal (segMean wfS wfG hz hc T gI sI col (ix2 n q)) := by
  rw [segMean_apply hN]
  refine IsReal.div (isReal_zero.add (IsReal.sum _ fun e _ => ?_)) (hcol n).1 (hcol n).2
  split_ifs
  · exact hT _
  · exact isReal_zero

/-- LINEARITY: the mean over a node's edges of the rows of `T·W` is the mean of the rows of `T`, times `W` — for a table and
    a matrix of reals and a count column of reals other than 0. `T'` is any table whose rows are those products. -/
theorem segMean_project {D' : Nat} (hN : 0 < N)
    (wfS : ScatterDims.WF ⟨2, ![N, D]⟩ ⟨2, ![M, 1]⟩ ⟨2, ![M, D]⟩ [1] [0] [0] 1)
    (wfG : GatherDims.WF ⟨2, ![N, D]⟩ ⟨2, ![M, 1]⟩ ⟨2, ![M, D]⟩ [1] [0] [] [0] [] 1 ![1, D])
    (hz : (⟨0, ![]⟩ : Shape).BroadcastsInDim ⟨2, ![N, D]⟩ ![])
    (hc : (⟨2, ![N, 1]⟩ : Shape).BroadcastsInDim ⟨2, ![N, D]⟩ ![0, 1])
    (wfS' : ScatterDims.WF ⟨2, ![N, D']⟩ ⟨2, ![M, 1]⟩ ⟨2, ![M, D']⟩ [1] [0] [0] 1)
    (wfG' : GatherDims.WF ⟨2, ![N, D']⟩ ⟨2, ![M, 1]⟩ ⟨2, ![M, D']⟩ [1] [0] [] [0] [] 1 ![1, D'])
    (hz' : (⟨0, ![]⟩ : Shape).BroadcastsInDim ⟨2, ![N, D']⟩ ![])
    (hc' : (⟨2, ![N, 1]⟩ : Shape).BroadcastsInDim ⟨2, ![N, D']⟩ ![0, 1])
    (T : (⟨2, ![N, D]⟩ : Shape).Idx → EReal) (W : (⟨2, ![D, D']⟩ : Shape).Idx → EReal) (T' : (⟨2, ![N, D']⟩ : Shape).Idx → EReal)
    (hT' : ∀ (i : Fin N) (q : Fin D'), T' (ix2 i q) = dot (row T i) (mat W) q)
    (gI sI : IVec ⟨2, ![M, 1]⟩ 32) (col : (⟨2, ![N, 1]⟩ : Shape).Idx → EReal)
    (hT : ∀ i, IsReal (T i)) (hW : ∀ i, IsReal (W i)) (hcol : ∀ n : Fin N, IsReal (col (ix2 n 0)) ∧ col (ix2 n 0) ≠ 0)
    (n : Fin N) (q : Fin D') :
    segMean wfS' wfG' hz' hc' T' gI sI col (ix2 n q) = dot (row (segMean wfS wfG hz hc T gI sI col) n) (mat W) q := by
  rw [segMean_apply hN]
  show _ = ∑ k : Fin D, segMean wfS wfG hz hc T gI sI col (ix2 n k) * W (ix2 k q)
  simp only [segMean_apply hN, segSum, hT', dot]
  exact seg_law (fun e : Fin M => (sI (ix2 e 0)).toInt = ((n.val : Nat) : Int))
    (fun e k => T (ix2 (rowOf N hN (gI (ix2 e 0))) k)) (fun k => W (ix2 k q)) (col (ix2 n 0))
    (fun e k => hT _) (fun k => hW _) (hcol n).1 (hcol n).2

end Cert.Sage

end
-- ==== Proof.LibScatterScale.lean ====
import Idealize.ShloMosaic.PureOps.Ideal
import Idealize.ShloMosaic.PureOps.Ideal.Laws

/-!
  Scaling an accumulating scatter of extended reals by a real constant.

  Multiplication of extended reals does not distribute over addition in general
  (`0 * (⊤ + ⊥)` against `0 * ⊤ + 0 * ⊥`, or `⊤ * (1 + -1)` against `⊤ * 1 + ⊤ * -1`),
  so `c * ∑ f = ∑ c * f` needs a hypothesis. The one used here: every number involved is
  a real, `IsReal`. The reals inside the extended reals are closed under `+`, `*` and
  finite sums, and on them the coercion `ℝ → EReal` is a ring homomorphism, so the identity
  is the one of `ℝ` pulled back through the coercion.
-/

namespace Cert.LibScatterScale

open Idealize.ShloMosaic
open scoped BigOperators

/-- An extended real that is (the coercion of) a real number: neither `⊤` nor `⊥`. -/
def IsReal (x : EReal) : Prop := ∃ r : ℝ, x = (r : EReal)

/-- The product of two reals is a real: `↑a * ↑b = ↑(a * b)`. -/
theorem IsReal.mul {x y : EReal} : IsReal x → IsReal y → IsReal (x * y) := by
  rintro ⟨a, rfl⟩ ⟨b, rfl⟩
  exact ⟨a * b, (EReal.coe_mul a b).symm⟩

/-- The sum of two reals is a real: `↑a + ↑b = ↑(a + b)`. -/
theorem IsReal.add {x y : EReal} : IsReal x → IsReal y → IsReal (x + y) := by
  rintro ⟨a, rfl⟩ ⟨b, rfl⟩
  exact ⟨a + b, (EReal.coe_add a b).symm⟩

/-- Zero is a real. -/
theorem IsReal.zero : IsReal (0 : EReal) := ⟨0, EReal.coe_zero.symm⟩

/-- A finite sum of reals is a real (induction on the index set, by `IsReal.add`). -/
theorem isReal_sum {ι : Type*} (s : Finset ι) (f : ι → EReal) (h : ∀ j ∈ s, IsReal (f j)) :
    IsReal (∑ j ∈ s, f j) := by
  classical
  induction s using Finset.induction_on with
  | empty => simpa using IsReal.zero
  | insert a s ha ih =>
    rw [Finset.sum_insert ha]
    exact IsReal.add (h a (Finset.mem_insert_self a s))
      (ih fun j hj => h j (Finset.mem_insert_of_mem hj))

/-- A real constant distributes over a finite sum of reals. Induction on the index set; at the
    step `c * (f a + S) = c * f a + c * S` all three of `c`, `f a`, `S` are reals, so both sides
    are the coercion of the same real by `mul_add` in `ℝ`. -/
theorem mul_sum_of_isReal {ι : Type*} (s : Finset ι) (c : EReal) (f : ι → EReal) (hc : IsReal c)
    (h : ∀ j ∈ s, IsReal (f j)) : c * ∑ j ∈ s, f j = ∑ j ∈ s, c * f j := by
  classical
  induction s using Finset.induction_on with
  | empty => simp
  | insert a s ha ih =>
    have hs : ∀ j ∈ s, IsReal (f j) := fun j hj => h j (Finset.mem_insert_of_mem hj)
    rw [Finset.sum_insert ha, Finset.sum_insert ha, ← ih hs]
    obtain ⟨r, rfl⟩ := hc
    obtain ⟨x, hx⟩ := h a (Finset.mem_insert_self a s)
    obtain ⟨y, hy⟩ := isReal_sum s f hs
    rw [hx, hy, ← EReal.coe_add, ← EReal.coe_mul, ← EReal.coe_mul, ← EReal.coe_mul,
      ← EReal.coe_add, mul_add]

/-- An accumulating scatter into zeros of the messages `(c * v j) * g j` is `c` times the
    accumulating scatter into zeros of `v j * g j`, when `c` and every `v j`, `g j` are reals:
    at each result element both sides are sums over the same set of update positions (those whose
    result index is that element), and the real constant moves out of the sum. -/
theorem hostScatterAdd_scale {s si su : Shape} (d : ScatterDims s si su) {w : Nat} (idx : IVec si w)
    (c : EReal) (v g : su.Idx → EReal) (hc : IsReal c) (hv : ∀ j, IsReal (v j))
    (hg : ∀ j, IsReal (g j)) (i : s.Idx) :
    Ideal.hostScatterAdd d (fun _ => (0 : EReal)) idx (fun j => (c * v j) * g j) i
      = c * Ideal.hostScatterAdd d (fun _ => (0 : EReal)) idx (fun j => v j * g j) i := by
  unfold Ideal.hostScatterAdd
  simp only [zero_add]
  rw [mul_sum_of_isReal _ c _ hc (fun j _ => (hv j).mul (hg j))]
  exact Finset.sum_congr rfl fun j _ => mul_assoc _ _ _

/-- An accumulating scatter of reals into reals is a real at every element. -/
theorem isReal_hostScatterAdd {s si su : Shape} (d : ScatterDims s si su) {w : Nat}
    (x : s.Idx → EReal) (idx : IVec si w) (upd : su.Idx → EReal) (hx : ∀ i, IsReal (x i))
    (hu : ∀ j, IsReal (upd j)) (i : s.Idx) : IsReal (Ideal.hostScatterAdd d x idx upd i) := by
  unfold Ideal.hostScatterAdd
  exact (hx i).add (isReal_sum _ _ fun j _ => hu j)

/-- A contraction of real operands onto a zero accumulator is a real at every element: it is a
    finite sum of products of reals. -/
theorem isReal_matmul_zero {sl sr so : Shape} (d : DotDims sl sr so) (lhs : sl.Idx → EReal)
    (rhs : sr.Idx → EReal) (hl : ∀ i, IsReal (lhs i)) (hr : ∀ i, IsReal (rhs i)) (j : so.Idx) :
    IsReal (Ideal.matmul d lhs rhs (fun _ => (0 : EReal)) j) := by
  unfold Ideal.matmul
  exact IsReal.zero.add (isReal_sum _ _ fun k _ => (hl _).mul (hr _))

/-- A contraction of real operands onto a real accumulator is a real at every element. -/
theorem isReal_matmul {sl sr so : Shape} (d : DotDims sl sr so) (lhs : sl.Idx → EReal)
    (rhs : sr.Idx → EReal) (acc : so.Idx → EReal) (hl : ∀ i, IsReal (lhs i))
    (hr : ∀ i, IsReal (rhs i)) (ha : ∀ j, IsReal (acc j)) (j : so.Idx) :
    IsReal (Ideal.matmul d lhs rhs acc j) := by
  unfold Ideal.matmul
  exact (ha j).add (isReal_sum _ _ fun k _ => (hl _).mul (hr _))

end Cert.LibScatterScale
-- ==== Proof.CountCol.lean ====
/-
  The number of edges landing on each node, joined with one, as a column: the host's spelling over a generic scatter
  record — ones scatter-added by an index array into zeros, the maximum with one, laid out as an `N×1` column. Every
  entry is a real (a finite sum of ones joined with one) and at least one, so not 0.
-/
import proofs.«106045_j46145128628314_2_alg».proof.Proof.Reals
import proofs.«106045_j46145128628314_2_alg».proof.Proof.LibScatterScale
import proofs.«106045_j46145128628314_2_alg».proof.Proof.LibRowReductions
import proofs.«106045_j46145128628314_2_alg».proof.Proof.LibRowVector
import Idealize.ShloMosaic.Lib.ValueIdx
import Idealize.ShloMosaic.PureOps.Ideal.Laws

noncomputable section

namespace Cert.Sage

open Idealize.ShloMosaic Idealize.ShloMosaic.ValueIdx Cert.Lib.IdealSums Cert.Lib.RealSums Cert.Lib.RowReductions

variable {N M : Nat}

def countColG (d : ScatterDims ⟨1, ![N]⟩ ⟨2, ![M, 1]⟩ ⟨1, ![M]⟩) (hz : (⟨0, ![]⟩ : Shape).BroadcastsInDim ⟨1, ![N]⟩ ![])
    (ho : (⟨0, ![]⟩ : Shape).BroadcastsInDim ⟨1, ![M]⟩ ![]) (hc : (⟨1, ![N]⟩ : Shape).BroadcastsInDim ⟨2, ![N, 1]⟩ ![0])
    (I : IVec ⟨2, ![M, 1]⟩ 32) : (⟨2, ![N, 1]⟩ : Shape).Idx → EReal :=
  broadcastInDim ⟨2, ![N, 1]⟩ ![0] hc
    (maximumf (F := Ideal) (φ := .f32)
      (Host.scatterAdd (F := Ideal) (φ := .f32) d (broadcastInDim ⟨1, ![N]⟩ ![] hz (constant (F := Ideal) ⟨0, ![]⟩ .f32 0x00000000#32)) I
        (broadcastInDim ⟨1, ![M]⟩ ![] ho (constant (F := Ideal) ⟨0, ![]⟩ .f32 0x3F800000#32)))
      (broadcastInDim ⟨1, ![N]⟩ ![] hz (constant (F := Ideal) ⟨0, ![]⟩ .f32 0x3F800000#32)))

theorem countColG_real (d : ScatterDims ⟨1, ![N]⟩ ⟨2, ![M, 1]⟩ ⟨1, ![M]⟩) (hz : (⟨0, ![]⟩ : Shape).BroadcastsInDim ⟨1, ![N]⟩ ![])
    (ho : (⟨0, ![]⟩ : Shape).BroadcastsInDim ⟨1, ![M]⟩ ![]) (hc : (⟨1, ![N]⟩ : Shape).BroadcastsInDim ⟨2, ![N, 1]⟩ ![0])
    (I : IVec ⟨2, ![M, 1]⟩ 32) (n : Fin N) :
    IsReal (countColG d hz ho hc I (ix2 n 0)) ∧ countColG d hz ho hc I (ix2 n 0) ≠ 0 := by
  unfold countColG
  rw [bcastInDim_col_apply]
  simp only [maximumf_apply]
  rw [Cert.Lib.RowVector.bcastInDim_scalar_apply, constant_apply, one_word]
  refine ⟨isReal_max ?_ isReal_one, ne_of_gt (lt_of_lt_of_le zero_lt_one (le_max_right _ _))⟩
  exact Cert.LibScatterScale.isReal_hostScatterAdd d _ I _
    (fun i => ⟨0, (Cert.Lib.RowVector.bcastInDim_scalar_apply _ _ i).trans Ideal.ofBits_zero_f32⟩)
    (fun j => ⟨1, (Cert.Lib.RowVector.bcastInDim_scalar_apply _ _ j).trans one_word⟩) _

end Cert.Sage

end
-- ==== Proof.Bridge.lean ====
/-
  The two programs' encoders are one function. With the reference's stretches and the kernel's stages both read as the
  row-level mathematics of `Spec`:
  * the hidden state: both are `lnRelu (hlin …)` of the same aggregated rows (the two programs spell the mean
    aggregations of the features identically) and the same weights, the bias vectors read as rows;
  * the embedding: both are `l2 (zlin …)`; the kernel aggregates the hidden state ALREADY multiplied by the left
    weights where the reference multiplies the aggregated hidden state, and for a hidden state, weights and edge counts
    that are reals the two agree (`segMean_project`).
  The hidden state's entries are reals when the features, the first layer's weights and biases and the normalisation's
  scale and shift are; an edge count joined with one is a real other than 0.
-/
import proofs.«106045_j46145128628314_2_alg».proof.Proof.KernelVal
import proofs.«106045_j46145128628314_2_alg».proof.Proof.RefVal
import proofs.«106045_j46145128628314_2_alg».proof.Proof.RefRead
import proofs.«106045_j46145128628314_2_alg».proof.Proof.LayersAt
import proofs.«106045_j46145128628314_2_alg».proof.Proof.SegMean
import proofs.«106045_j46145128628314_2_alg».proof.Proof.Reals
import proofs.«106045_j46145128628314_2_alg».proof.Proof.CountCol
import proofs.«106045_j46145128628314_2_alg».proof.Proof.LibScatterScale
import proofs.«106045_j46145128628314_2_alg».proof.Proof.LibRowReductions
import Idealize.ShloMosaic.Lib.ValueIdx

set_option maxRecDepth 100000

noncomputable section

namespace Cert.Bridge

open scoped BigOperators
open Idealize.ShloMosaic Idealize.ShloMosaic.ValueIdx Cert.Sage Cert.Lib.IdealSums Cert.Lib.RealSums Cert.Lib.RowReductions

/-! ## Bias vectors as rows -/

theorem vec1_row128 (x : (⟨Cert.KernelIdeal.S128, .f32⟩ : BufTy).Contents (Elt Ideal)) : vec1 (Cert.KernelIdeal.Val.row128 x) = vec0 x :=
  funext fun q => shapeCast_rowvec_apply x _ q
theorem vec1_row64 (x : (⟨Cert.KernelIdeal.S64, .f32⟩ : BufTy).Contents (Elt Ideal)) : vec1 (Cert.KernelIdeal.Val.row64 x) = vec0 x :=
  funext fun q => shapeCast_rowvec_apply x _ q
theorem vec1_row32 (x : (⟨Cert.KernelIdeal.S32, .f32⟩ : BufTy).Contents (Elt Ideal)) : vec1 (Cert.KernelIdeal.Val.row32 x) = vec0 x :=
  funext fun q => shapeCast_rowvec_apply x _ q

/-! ## The mean aggregations, in the generic form -/

section Agg

open Cert.KernelIdeal Cert.KernelIdeal.Gen

theorem hN : 0 < 50000 := by decide

/-- An index vector as the `800000×1` array the gather and the scatter take. -/
abbrev idxCol (v : (⟨Cert.KernelIdeal.S800000, .i32⟩ : BufTy).Contents (Elt Ideal)) : IVec ⟨2, ![800000, 1]⟩ 32 := broadcastInDim S800000x1 ![0] bcast_S800000_S800000x1_0 v

/-- The kernel's mean aggregation of a 64-wide table is the generic one. -/
theorem segmean_eq (T : (⟨Cert.KernelIdeal.S50000x64, .f32⟩ : BufTy).Contents (Elt Ideal)) (g s : (⟨Cert.KernelIdeal.S800000, .i32⟩ : BufTy).Contents (Elt Ideal)) (col : (⟨Cert.KernelIdeal.S50000x1, .f32⟩ : BufTy).Contents (Elt Ideal)) :
    Cert.KernelIdeal.Val.segmean T g s col
      = segMean scatter_S50000x64_S800000x1_S800000x64_1_0_0_1_wf gather_S50000x64_S800000x1_S800000x64_1_0_n_n_0_1_164_wf
          bcast_S_S50000x64 bcast_S50000x1_S50000x64_0_1 T (idxCol (Cert.KernelIdeal.Val.wrap g)) (idxCol s) col := rfl

end Agg

section Agg128

open Cert.ReferenceIdeal Cert.ReferenceIdeal.Gen

/-- The reference's mean aggregations of the hidden state are the generic one at width 128, over the kernel's spelling of
    the edge list's rows and counts. -/
theorem agg2F_eq (h : (⟨Cert.KernelIdeal.S50000x128, .f32⟩ : BufTy).Contents (Elt Ideal)) (x1 : (⟨Cert.KernelIdeal.S2x800000, .i32⟩ : BufTy).Contents (Elt Ideal)) :
    Cert.ReferenceIdeal.Val.agg2F h x1
      = segMean scatter_S50000x128_S800000x1_S800000x128_1_0_0_1_wf gather_S50000x128_S800000x1_S800000x128_1_0_n_n_0_1_1128_wf
          bcast_S_S50000x128 bcast_S50000x1_S50000x128_0_1 h (idxCol (Cert.KernelIdeal.Val.wrap (Cert.KernelIdeal.Val.srcOf x1)))
          (idxCol (Cert.KernelIdeal.Val.dstOf x1)) (Cert.KernelIdeal.Val.countCol (Cert.KernelIdeal.Val.dstOf x1)) := rfl
theorem agg2R_eq (h : (⟨Cert.KernelIdeal.S50000x128, .f32⟩ : BufTy).Contents (Elt Ideal)) (x1 : (⟨Cert.KernelIdeal.S2x800000, .i32⟩ : BufTy).Contents (Elt Ideal)) :
    Cert.ReferenceIdeal.Val.agg2R h x1
      = segMean scatter_S50000x128_S800000x1_S800000x128_1_0_0_1_wf gather_S50000x128_S800000x1_S800000x128_1_0_n_n_0_1_1128_wf
          bcast_S_S50000x128 bcast_S50000x1_S50000x128_0_1 h (idxCol (Cert.KernelIdeal.Val.wrap (Cert.KernelIdeal.Val.dstOf x1)))
          (idxCol (Cert.KernelIdeal.Val.srcOf x1)) (Cert.KernelIdeal.Val.countCol (Cert.KernelIdeal.Val.srcOf x1)) := rfl

/-- The two programs spell the mean aggregations of the features identically. -/
theorem aggF_eq (x0 : (⟨Cert.KernelIdeal.S50000x64, .f32⟩ : BufTy).Contents (Elt Ideal)) (x1 : (⟨Cert.KernelIdeal.S2x800000, .i32⟩ : BufTy).Contents (Elt Ideal)) :
    Cert.ReferenceIdeal.Val.aggF x0 x1 = Cert.KernelIdeal.Val.aggF x0 x1 := rfl
theorem aggR_eq (x0 : (⟨Cert.KernelIdeal.S50000x64, .f32⟩ : BufTy).Contents (Elt Ideal)) (x1 : (⟨Cert.KernelIdeal.S2x800000, .i32⟩ : BufTy).Contents (Elt Ideal)) :
    Cert.ReferenceIdeal.Val.aggR x0 x1 = Cert.KernelIdeal.Val.aggR x0 x1 := rfl

end Agg128

/-! ## The edge counts are reals other than 0 -/

section Count

open Cert.KernelIdeal Cert.KernelIdeal.Gen

theorem countCol_eq (idx : (⟨Cert.KernelIdeal.S800000, .i32⟩ : BufTy).Contents (Elt Ideal)) :
    Cert.KernelIdeal.Val.countCol idx
      = countColG scatter_S50000_S800000x1_S800000_n_0_0_1 bcast_S_S50000 bcast_S_S800000 bcast_S50000_S50000x1_0 (idxCol idx) := rfl

theorem countCol_real (idx : (⟨Cert.KernelIdeal.S800000, .i32⟩ : BufTy).Contents (Elt Ideal)) (n : Fin 50000) :
    IsReal (Cert.KernelIdeal.Val.countCol idx (ix2 n 0)) ∧ Cert.KernelIdeal.Val.countCol idx (ix2 n 0) ≠ 0 := by
  rw [countCol_eq]; exact countColG_real _ _ _ _ _ n

end Count

/-! ## The hidden state -/

section Hidden

variable (x0 : (⟨Cert.KernelIdeal.S50000x64, .f32⟩ : BufTy).Contents (Elt Ideal)) (x1 : (⟨Cert.KernelIdeal.S2x800000, .i32⟩ : BufTy).Contents (Elt Ideal)) (x3 : (⟨Cert.KernelIdeal.S64x128, .f32⟩ : BufTy).Contents (Elt Ideal)) (x4 : (⟨Cert.KernelIdeal.S128, .f32⟩ : BufTy).Contents (Elt Ideal)) (x5 x6 : (⟨Cert.KernelIdeal.S64x128, .f32⟩ : BufTy).Contents (Elt Ideal)) (x7 : (⟨Cert.KernelIdeal.S128, .f32⟩ : BufTy).Contents (Elt Ideal)) (x8 : (⟨Cert.KernelIdeal.S64x128, .f32⟩ : BufTy).Contents (Elt Ideal)) (x9 x10 : (⟨Cert.KernelIdeal.S128, .f32⟩ : BufTy).Contents (Elt Ideal))

/-- The aggregated features are reals when the features are. -/
theorem aggF_real (h0 : ∀ i, IsReal (x0 i)) (i : Cert.KernelIdeal.S50000x64.Idx) : IsReal (Cert.KernelIdeal.Val.aggF x0 x1 i) := by
  obtain ⟨p, q, rfl⟩ : ∃ (p : Fin 50000) (q : Fin 64), i = ix2 p q := ⟨i 0, i 1, eq_ix2 i⟩
  unfold Cert.KernelIdeal.Val.aggF
  rw [segmean_eq]
  exact segMean_isReal hN _ _ _ _ x0 _ _ _ h0 (fun n => countCol_real _ n) p q
theorem aggR_real (h0 : ∀ i, IsReal (x0 i)) (i : Cert.KernelIdeal.S50000x64.Idx) : IsReal (Cert.KernelIdeal.Val.aggR x0 x1 i) := by
  obtain ⟨p, q, rfl⟩ : ∃ (p : Fin 50000) (q : Fin 64), i = ix2 p q := ⟨i 0, i 1, eq_ix2 i⟩
  unfold Cert.KernelIdeal.Val.aggR
  rw [segmean_eq]
  exact segMean_isReal hN _ _ _ _ x0 _ _ _ h0 (fun n => countCol_real _ n) p q

/-- The hidden state's entries are reals when the features, the first layer's weights and biases and the normalisation's
    scale and shift are. -/
theorem hid_real (h0 : ∀ i, IsReal (x0 i)) (h3 : ∀ i, IsReal (x3 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i)) (h10 : ∀ i, IsReal (x10 i)) (i : Cert.KernelIdeal.S50000x128.Idx) :
    IsReal (Cert.KernelIdeal.Val.hid x0 x1 x3 x4 x5 x6 x7 x8 x9 x10 i) := by
  obtain ⟨p, q, rfl⟩ : ∃ (p : Fin 50000) (q : Fin 128), i = ix2 p q := ⟨i 0, i 1, eq_ix2 i⟩
  unfold Cert.KernelIdeal.Val.hid
  rw [hidden_apply, vec1_row128, vec1_row128, vec1_row128, vec1_row128]
  refine lnRelu_isReal _ _ _ (fun j => ?_) (fun j => h9 _) (fun j => h10 _) q
  unfold hlin
  exact (sage_isReal _ _ _ _ _ (fun c => aggF_real x0 x1 h0 _) (fun c => h0 _) (fun c q => h3 _) (fun q => h4 _) (fun c q => h5 _) j).add
    (sage_isReal _ _ _ _ _ (fun c => aggR_real x0 x1 h0 _) (fun c => h0 _) (fun c q => h6 _) (fun q => h7 _) (fun c q => h8 _) j)

/-- THE HIDDEN STATE: the reference's two stretches composed are the kernel's stage. -/
theorem hid_eq : Cert.ReferenceIdeal.Val.hR (Cert.ReferenceIdeal.Val.hlR x0 x1 x3 x4 x5 x6 x7 x8) x9 x10
    = Cert.KernelIdeal.Val.hid x0 x1 x3 x4 x5 x6 x7 x8 x9 x10 := by
  funext i
  obtain ⟨p, q, rfl⟩ : ∃ (p : Fin 50000) (q : Fin 128), i = ix2 p q := ⟨i 0, i 1, eq_ix2 i⟩
  rw [Cert.ReferenceIdeal.Read.hR_apply, Cert.ReferenceIdeal.Read.hlR_eq, aggF_eq, aggR_eq]
  unfold Cert.KernelIdeal.Val.hid
  rw [hidden_apply, vec1_row128, vec1_row128, vec1_row128, vec1_row128]
  refine congrArg (fun v => lnRelu v (vec0 x9) (vec0 x10) q) (funext fun j => ?_)
  exact Cert.ReferenceIdeal.Read.hlR'_apply _ _ _ _ _ _ _ _ _ p j

end Hidden

/-! ## The embedding -/

section Embedding

open Cert.KernelIdeal Cert.KernelIdeal.Gen

variable (x0 : (⟨Cert.KernelIdeal.S50000x64, .f32⟩ : BufTy).Contents (Elt Ideal)) (x1 : (⟨Cert.KernelIdeal.S2x800000, .i32⟩ : BufTy).Contents (Elt Ideal)) (x3 : (⟨Cert.KernelIdeal.S64x128, .f32⟩ : BufTy).Contents (Elt Ideal)) (x4 : (⟨Cert.KernelIdeal.S128, .f32⟩ : BufTy).Contents (Elt Ideal)) (x5 x6 : (⟨Cert.KernelIdeal.S64x128, .f32⟩ : BufTy).Contents (Elt Ideal)) (x7 : (⟨Cert.KernelIdeal.S128, .f32⟩ : BufTy).Contents (Elt Ideal)) (x8 : (⟨Cert.KernelIdeal.S64x128, .f32⟩ : BufTy).Contents (Elt Ideal)) (x9 x10 : (⟨Cert.KernelIdeal.S128, .f32⟩ : BufTy).Contents (Elt Ideal)) (x11 : (⟨Cert.KernelIdeal.S128x64, .f32⟩ : BufTy).Contents (Elt Ideal)) (x12 : (⟨Cert.KernelIdeal.S64, .f32⟩ : BufTy).Contents (Elt Ideal)) (x13 x14 : (⟨Cert.KernelIdeal.S128x64, .f32⟩ : BufTy).Contents (Elt Ideal)) (x15 : (⟨Cert.KernelIdeal.S64, .f32⟩ : BufTy).Contents (Elt Ideal)) (x16 : (⟨Cert.KernelIdeal.S128x64, .f32⟩ : BufTy).Contents (Elt Ideal))

/-- THE EMBEDDING: the reference's two stretches on the hidden state are the kernel's stage — the left weights moved
    inside the means over the edges by linearity, the hidden state, the weights and the counts being reals. -/
theorem emb_eq (h0 : ∀ i, IsReal (x0 i)) (h3 : ∀ i, IsReal (x3 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i)) (h10 : ∀ i, IsReal (x10 i)) (h11 : ∀ i, IsReal (x11 i)) (h14 : ∀ i, IsReal (x14 i)) :
    Cert.ReferenceIdeal.Val.zR (Cert.ReferenceIdeal.Val.zlR (Cert.KernelIdeal.Val.hid x0 x1 x3 x4 x5 x6 x7 x8 x9 x10) x1 x11 x12 x13 x14 x15 x16)
      = Cert.KernelIdeal.Val.emb x0 x1 x3 x4 x5 x6 x7 x8 x9 x10 x11 x12 x13 x14 x15 x16 := by
  have hH := hid_real x0 x1 x3 x4 x5 x6 x7 x8 x9 x10 h0 h3 h4 h5 h6 h7 h8 h9 h10
  funext i
  obtain ⟨p, q, rfl⟩ : ∃ (p : Fin 50000) (q : Fin 64), i = ix2 p q := ⟨i 0, i 1, eq_ix2 i⟩
  rw [Cert.ReferenceIdeal.Read.zR_apply, Cert.ReferenceIdeal.Read.zlR_eq]
  unfold Cert.KernelIdeal.Val.emb
  rw [embed_apply, vec1_row64, vec1_row64]
  refine congrArg (fun v => l2 v q) (funext fun j => ?_)
  refine (Cert.ReferenceIdeal.Read.zlR'_apply _ _ _ _ _ _ _ _ _ p j).trans ?_
  have eF : row (Cert.KernelIdeal.Val.agg2F x0 x1 x3 x4 x5 x6 x7 x8 x9 x10 x11) p
      = dot (row (Cert.ReferenceIdeal.Val.agg2F (Cert.KernelIdeal.Val.hid x0 x1 x3 x4 x5 x6 x7 x8 x9 x10) x1) p) (mat x11) := funext fun q' => by
    unfold Cert.KernelIdeal.Val.agg2F
    rw [segmean_eq, agg2F_eq]
    exact segMean_project hN _ _ _ _ _ _ _ _ (Cert.KernelIdeal.Val.hid x0 x1 x3 x4 x5 x6 x7 x8 x9 x10) x11 _
      (fun i q => project_apply _ _ i q) _ _ _ hH h11 (fun n => countCol_real _ n) p q'
  have eR : row (Cert.KernelIdeal.Val.agg2R x0 x1 x3 x4 x5 x6 x7 x8 x9 x10 x14) p
      = dot (row (Cert.ReferenceIdeal.Val.agg2R (Cert.KernelIdeal.Val.hid x0 x1 x3 x4 x5 x6 x7 x8 x9 x10) x1) p) (mat x14) := funext fun q' => by
    unfold Cert.KernelIdeal.Val.agg2R
    rw [segmean_eq, agg2R_eq]
    exact segMean_project hN _ _ _ _ _ _ _ _ (Cert.KernelIdeal.Val.hid x0 x1 x3 x4 x5 x6 x7 x8 x9 x10) x14 _
      (fun i q => project_apply _ _ i q) _ _ _ hH h14 (fun n => countCol_real _ n) p q'
  rw [eF, eR]

end Embedding

end Cert.Bridge

end
-- ==== Proof.RefDecoder.lean ====
/-
  The reference's decoder read at an entry. Its first layer multiplies the 192-column array that joins the two end
  points' rows and their product, side by side, with the whole 192×64 weight matrix; entry `p` of the result is three
  dense layers of row `p` of that joined array. The joined array is read column by column: columns 0–63 are the first
  end point's row, 64–127 the second's, 128–191 their product.
-/
import proofs.«106045_j46145128628314_2_alg».proof.Proof.RefRead

set_option maxRecDepth 100000

noncomputable section

namespace Cert.ReferenceIdeal.Read

open scoped BigOperators
open Idealize.ShloMosaic Idealize.ShloMosaic.ValueIdx Cert.ReferenceIdeal Cert.ReferenceIdeal.Gen Cert.ReferenceIdeal.Val Cert.Sage
open Cert.Lib.MatProd Cert.Lib.RowReductions Cert.Lib.RowVector Cert.Lib.HostRows

/-- An `a×1` column flattened to a vector reads its entry `(p, 0)` at `p`. -/
theorem shapeCast_flat_apply {α : Type} {a : Nat} (x : (⟨2, ![a, 1]⟩ : Shape).Idx → α)
    (h : (⟨2, ![a, 1]⟩ : Shape).ShapeCasts ⟨1, ![a]⟩) (p : Fin a) : shapeCast ⟨1, ![a]⟩ x h (ix1 p) = x (ix2 p 0) := by
  refine shapeCast_apply x h _ _ ?_
  rw [Shape.rowMajor_val_one, Shape.rowMajor_val_two]
  show p.val * 1 + 0 = p.val
  omega

/-- The two end points' rows and their product, joined side by side. -/
def cat3 (zs zd : (⟨S100000x64, .f32⟩ : BufTy).Contents (Elt Ideal)) : (⟨S100000x192, .f32⟩ : BufTy).Contents (Elt Ideal) :=
  concatenate S100000x192 1 [⟨S100000x64, zs⟩, ⟨S100000x64, zd⟩, ⟨S100000x64, mulf (F := Ideal) (φ := .f32) zs zd⟩]
    concatenates_S100000x64_S100000x64_S100000x64_S100000x192_d1

theorem cat3_left (zs zd : (⟨S100000x64, .f32⟩ : BufTy).Contents (Elt Ideal)) (p : Fin 100000) (k : Fin 64) :
    cat3 zs zd (ix2 p (⟨k.val, by omega⟩ : Fin 192)) = zs (ix2 p k) := by
  unfold cat3
  refine concatenate_apply_piece (1 : Fin 2) _ _ (ix2 p (⟨k.val, by omega⟩ : Fin 192)) 0 ?_ S100000x64 zs ?_ rfl 0 ?_ (ix2 p k) ?_ ?_
  · show 0 < 3; decide
  · rfl
  · rfl
  · intro b hb; match b with | ⟨0, _⟩ => rfl | ⟨1, _⟩ => exact absurd rfl hb
  · show 0 + k.val = k.val; omega

theorem cat3_mid (zs zd : (⟨S100000x64, .f32⟩ : BufTy).Contents (Elt Ideal)) (p : Fin 100000) (k : Fin 64) :
    cat3 zs zd (ix2 p (⟨64 + k.val, by omega⟩ : Fin 192)) = zd (ix2 p k) := by
  unfold cat3
  refine concatenate_apply_piece (1 : Fin 2) _ _ (ix2 p (⟨64 + k.val, by omega⟩ : Fin 192)) 1 ?_ S100000x64 zd ?_ rfl 64 ?_ (ix2 p k) ?_ ?_
  · show 1 < 3; decide
  · rfl
  · rfl
  · intro b hb; match b with | ⟨0, _⟩ => rfl | ⟨1, _⟩ => exact absurd rfl hb
  · show 64 + k.val = 64 + k.val; omega

theorem cat3_right (zs zd : (⟨S100000x64, .f32⟩ : BufTy).Contents (Elt Ideal)) (p : Fin 100000) (k : Fin 64) :
    cat3 zs zd (ix2 p (⟨64 + (64 + k.val), by omega⟩ : Fin 192)) = zs (ix2 p k) * zd (ix2 p k) := by
  unfold cat3
  refine concatenate_apply_piece (1 : Fin 2) _ _ (ix2 p (⟨64 + (64 + k.val), by omega⟩ : Fin 192)) 2 ?_ S100000x64 (mulf (F := Ideal) (φ := .f32) zs zd) ?_ rfl 128 ?_ (ix2 p k) ?_ ?_
  · show 2 < 3; decide
  · rfl
  · rfl
  · intro b hb; match b with | ⟨0, _⟩ => rfl | ⟨1, _⟩ => exact absurd rfl hb
  · show 128 + k.val = 64 + (64 + k.val); omega

theorem dot_S100000x192_S192x64_S100000x64_1_0_0_1_n_n_sum (A : (⟨S100000x192, .f32⟩ : BufTy).Contents (Elt Ideal)) (B : (⟨S192x64, .f32⟩ : BufTy).Contents (Elt Ideal)) (p : Fin 100000) (q : Fin 64) :
    Host.dotGeneral (F := Ideal) (φ₁ := .f32) (φ₂ := .f32) dot_S100000x192_S192x64_S100000x64_1_0_0_1_n_n none A B (ix2 p q) = ∑ c : Fin 192, A (ix2 p c) * B (ix2 c q) :=
  dot_S100000x192_S192x64_S100000x64_1_0_0_1_n_n_at A B p q
theorem dot_S100000x64_S64x32_S100000x32_1_0_0_1_n_n_sum (A : (⟨S100000x64, .f32⟩ : BufTy).Contents (Elt Ideal)) (B : (⟨S64x32, .f32⟩ : BufTy).Contents (Elt Ideal)) (p : Fin 100000) (q : Fin 32) :
    Host.dotGeneral (F := Ideal) (φ₁ := .f32) (φ₂ := .f32) dot_S100000x64_S64x32_S100000x32_1_0_0_1_n_n none A B (ix2 p q) = ∑ c : Fin 64, A (ix2 p c) * B (ix2 c q) :=
  dot_S100000x64_S64x32_S100000x32_1_0_0_1_n_n_at A B p q
theorem dot_S100000x32_S32x1_S100000x1_1_0_0_1_n_n_sum (A : (⟨S100000x32, .f32⟩ : BufTy).Contents (Elt Ideal)) (B : (⟨S32x1, .f32⟩ : BufTy).Contents (Elt Ideal)) (p : Fin 100000) (q : Fin 1) :
    Host.dotGeneral (F := Ideal) (φ₁ := .f32) (φ₂ := .f32) dot_S100000x32_S32x1_S100000x1_1_0_0_1_n_n none A B (ix2 p q) = ∑ c : Fin 32, A (ix2 p c) * B (ix2 c q) :=
  dot_S100000x32_S32x1_S100000x1_1_0_0_1_n_n_at A B p q

/-- The decoder at an entry: three dense layers of the joined row. -/
theorem outR'_apply (zs : (⟨S100000x64, .f32⟩ : BufTy).Contents (Elt Ideal)) (zd : (⟨S100000x64, .f32⟩ : BufTy).Contents (Elt Ideal)) (x17 : (⟨S192x64, .f32⟩ : BufTy).Contents (Elt Ideal)) (x18 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal)) (p : Fin 100000) :
    outR' zs zd x17 x18 x19 x20 x21 x22 (ix1 p)
      = affine (dense (dense (row (cat3 zs zd) p) (mat x17) (vec0 x18)) (mat x19) (vec0 x20)) (mat x21) (vec0 x22) 0 := by
  unfold outR'
  refine (shapeCast_flat_apply _ _ p).trans ?_
  simp (disch := rfl) only [addf_apply, maximumf_apply, constant_apply, bcRows, bcRow, bcScalar, Ideal.ofBits_zero_f32,
    dot_S100000x192_S192x64_S100000x64_1_0_0_1_n_n_sum, dot_S100000x64_S64x32_S100000x32_1_0_0_1_n_n_sum,
    dot_S100000x32_S32x1_S100000x1_1_0_0_1_n_n_sum]
  rfl

end Cert.ReferenceIdeal.Read

end
-- ==== Proof.BridgeDecoder.lean ====
/-
  The two programs' decoders are one function of the embedding. The reference multiplies the 192-column array joining the
  end points' rows and their product with the whole 192×64 matrix; the kernel multiplies the three 64-column pieces with
  the matrix's three 64-row bands and adds: a sum over 192 split as 64 + (64 + 64) and regrouped, with no finiteness.
  The kernel's last layer is 128 columns wide, the weight column and the bias entry padded with zeros on the right, and
  only column 0 is kept: at column 0 the padded arrays are the unpadded ones.
-/
import proofs.«106045_j46145128628314_2_alg».proof.Proof.Bridge
import proofs.«106045_j46145128628314_2_alg».proof.Proof.RefDecoder
import Idealize.ShloMosaic.Lib.KernelVsHost

set_option maxRecDepth 100000

noncomputable section

namespace Cert.Bridge

open scoped BigOperators
open Idealize.ShloMosaic Idealize.ShloMosaic.ValueIdx Cert.Sage Cert.Lib.IdealSums Cert.Lib.RowReductions
open Cert.ReferenceIdeal.Read

section Layout

open Cert.KernelIdeal Cert.KernelIdeal.Gen

theorem bandA_at (x17 : (⟨Cert.KernelIdeal.S192x64, .f32⟩ : BufTy).Contents (Elt Ideal)) (k q : Fin 64) :
    Cert.KernelIdeal.Val.bandA x17 (ix2 k q) = x17 (ix2 (⟨k.val, by omega⟩ : Fin 192) q) :=
  extractStridedSlice_apply _ x17 _ (ix2 k q) (ix2 (⟨k.val, by omega⟩ : Fin 192) q) fun a => by
    match a with
    | ⟨0, _⟩ => show k.val = 0 + k.val; omega
    | ⟨1, _⟩ => show q.val = 0 + q.val; omega
theorem bandB_at (x17 : (⟨Cert.KernelIdeal.S192x64, .f32⟩ : BufTy).Contents (Elt Ideal)) (k q : Fin 64) :
    Cert.KernelIdeal.Val.bandB x17 (ix2 k q) = x17 (ix2 (⟨64 + k.val, by omega⟩ : Fin 192) q) :=
  extractStridedSlice_apply _ x17 _ (ix2 k q) (ix2 (⟨64 + k.val, by omega⟩ : Fin 192) q) fun a => by
    match a with
    | ⟨0, _⟩ => show 64 + k.val = 64 + k.val; rfl
    | ⟨1, _⟩ => show q.val = 0 + q.val; omega
theorem bandC_at (x17 : (⟨Cert.KernelIdeal.S192x64, .f32⟩ : BufTy).Contents (Elt Ideal)) (k q : Fin 64) :
    Cert.KernelIdeal.Val.bandC x17 (ix2 k q) = x17 (ix2 (⟨64 + (64 + k.val), by omega⟩ : Fin 192) q) :=
  extractStridedSlice_apply _ x17 _ (ix2 k q) (ix2 (⟨64 + (64 + k.val), by omega⟩ : Fin 192) q) fun a => by
    match a with
    | ⟨0, _⟩ => show 64 + (64 + k.val) = 128 + k.val; omega
    | ⟨1, _⟩ => show q.val = 0 + q.val; omega

/-- The padded weight column at column 0 is the weight column. -/
theorem padW3_at (x21 : (⟨Cert.KernelIdeal.S32x1, .f32⟩ : BufTy).Contents (Elt Ideal)) (c : Fin 32) :
    Cert.KernelIdeal.Val.padW3 x21 (ix2 c (0 : Fin 128)) = x21 (ix2 c (0 : Fin 1)) :=
  pad_apply_of_inside _ _ _ x21 _ _ _ (ix2 c (0 : Fin 128)) (ix2 c (0 : Fin 1)) fun a => by
    match a with
    | ⟨0, _⟩ => show c.val = 0 + c.val * (0 + 1); omega
    | ⟨1, _⟩ => show (0 : Nat) = 0 + 0 * (0 + 1); rfl
/-- The padded bias row at column 0 is the bias entry. -/
theorem padB3_at (x22 : (⟨Cert.KernelIdeal.S1, .f32⟩ : BufTy).Contents (Elt Ideal)) :
    Cert.KernelIdeal.Val.padB3 x22 (ix2 (0 : Fin 1) (0 : Fin 128)) = x22 (ix1 (0 : Fin 1)) :=
  (pad_apply_of_inside _ _ _ _ _ _ _ (ix2 (0 : Fin 1) (0 : Fin 128)) (ix2 (0 : Fin 1) (0 : Fin 1)) fun a => by
    match a with
    | ⟨0, _⟩ => show (0 : Nat) = 0 + 0 * (0 + 1); rfl
    | ⟨1, _⟩ => show (0 : Nat) = 0 + 0 * (0 + 1); rfl).trans (shapeCast_rowvec_apply x22 _ 0)

end Layout

/-- The joined row against the whole matrix is the three pieces against its three bands. -/
theorem dot_cat (zs zd : (⟨Cert.KernelIdeal.S100000x64, .f32⟩ : BufTy).Contents (Elt Ideal)) (x17 : (⟨Cert.KernelIdeal.S192x64, .f32⟩ : BufTy).Contents (Elt Ideal)) (p : Fin 100000) (q : Fin 64) :
    dot (row (cat3 zs zd) p) (mat x17) q
      = (dot (row zs p) (mat (Cert.KernelIdeal.Val.bandA x17)) q + dot (row zd p) (mat (Cert.KernelIdeal.Val.bandB x17)) q)
        + dot (fun c => zs (ix2 p c) * zd (ix2 p c)) (mat (Cert.KernelIdeal.Val.bandC x17)) q := by
  unfold dot
  rw [sum_fin_split (show 192 = 64 + 128 from rfl), sum_fin_split (show 128 = 64 + 64 from rfl), ← add_assoc]
  refine congrArg₂ (· + ·) (congrArg₂ (· + ·) ?_ ?_) ?_
  · refine Finset.sum_congr rfl fun k _ => ?_
    show cat3 zs zd (ix2 p (⟨k.val, _⟩ : Fin 192)) * x17 (ix2 (⟨k.val, _⟩ : Fin 192) q) = zs (ix2 p k) * Cert.KernelIdeal.Val.bandA x17 (ix2 k q)
    rw [cat3_left, bandA_at]
  · refine Finset.sum_congr rfl fun k _ => ?_
    show cat3 zs zd (ix2 p (⟨64 + k.val, _⟩ : Fin 192)) * x17 (ix2 (⟨64 + k.val, _⟩ : Fin 192) q) = zd (ix2 p k) * Cert.KernelIdeal.Val.bandB x17 (ix2 k q)
    rw [cat3_mid, bandB_at]
  · refine Finset.sum_congr rfl fun k _ => ?_
    show cat3 zs zd (ix2 p (⟨64 + (64 + k.val), _⟩ : Fin 192)) * x17 (ix2 (⟨64 + (64 + k.val), _⟩ : Fin 192) q)
      = (zs (ix2 p k) * zd (ix2 p k)) * Cert.KernelIdeal.Val.bandC x17 (ix2 k q)
    rw [cat3_right, bandC_at]

section Decoder

open Cert.KernelIdeal Cert.KernelIdeal.Gen

variable (Z : (⟨Cert.KernelIdeal.S50000x64, .f32⟩ : BufTy).Contents (Elt Ideal)) (x2 : (⟨Cert.KernelIdeal.S2x100000, .i32⟩ : BufTy).Contents (Elt Ideal)) (x17 : (⟨Cert.KernelIdeal.S192x64, .f32⟩ : BufTy).Contents (Elt Ideal)) (x18 : (⟨Cert.KernelIdeal.S64, .f32⟩ : BufTy).Contents (Elt Ideal)) (x19 : (⟨Cert.KernelIdeal.S64x32, .f32⟩ : BufTy).Contents (Elt Ideal)) (x20 : (⟨Cert.KernelIdeal.S32, .f32⟩ : BufTy).Contents (Elt Ideal)) (x21 : (⟨Cert.KernelIdeal.S32x1, .f32⟩ : BufTy).Contents (Elt Ideal)) (x22 : (⟨Cert.KernelIdeal.S1, .f32⟩ : BufTy).Contents (Elt Ideal))

/-- The two programs gather the end points' rows identically. -/
theorem zs_eq : Cert.ReferenceIdeal.Val.zsR Z x2 = Cert.KernelIdeal.Val.rowsAt Z (Cert.KernelIdeal.Val.labelRow0 x2) := rfl
theorem zd_eq : Cert.ReferenceIdeal.Val.zdR Z x2 = Cert.KernelIdeal.Val.rowsAt Z (Cert.KernelIdeal.Val.labelRow1 x2) := rfl

/-- THE DECODER: the reference's last stretch on an embedding is column 0 of the kernel's decoder on it. -/
theorem out_eq :
    Cert.ReferenceIdeal.Val.outR Z x2 x17 x18 x19 x20 x21 x22
      = shapeCast S100000 (extractStridedSlice S100000x1 ![0, 0]
          (decode (n := 128) (Cert.KernelIdeal.Val.rowsAt Z (Cert.KernelIdeal.Val.labelRow0 x2)) (Cert.KernelIdeal.Val.rowsAt Z (Cert.KernelIdeal.Val.labelRow1 x2))
            (Cert.KernelIdeal.Val.bandA x17) (Cert.KernelIdeal.Val.bandB x17) (Cert.KernelIdeal.Val.bandC x17) (Cert.KernelIdeal.Val.row64 x18) x19
            (Cert.KernelIdeal.Val.row32 x20) (Cert.KernelIdeal.Val.padW3 x21) (Cert.KernelIdeal.Val.padB3 x22))
          slices_S100000x128_S100000x1_0_0) shapeCasts_S100000x1_S100000 := by
  funext i
  obtain ⟨p, rfl⟩ : ∃ p : Fin 100000, i = ix1 p := ⟨i 0, eq_ix1 i⟩
  rw [outR_eq, outR'_apply, zs_eq, zd_eq, shapeCast_flat_apply]
  rw [extractStridedSlice_apply _ _ _ (ix2 p (0 : Fin 1)) (ix2 p (0 : Fin 128)) (fun a => by
    match a with
    | ⟨0, _⟩ => show p.val = 0 + p.val; omega
    | ⟨1, _⟩ => show (0 : Nat) = 0 + 0; rfl)]
  rw [decode_apply, vec1_row64, vec1_row32]
  have e1 : dense (row (cat3 (Cert.KernelIdeal.Val.rowsAt Z (Cert.KernelIdeal.Val.labelRow0 x2)) (Cert.KernelIdeal.Val.rowsAt Z (Cert.KernelIdeal.Val.labelRow1 x2))) p) (mat x17) (vec0 x18)
      = dec1 (row (Cert.KernelIdeal.Val.rowsAt Z (Cert.KernelIdeal.Val.labelRow0 x2)) p) (row (Cert.KernelIdeal.Val.rowsAt Z (Cert.KernelIdeal.Val.labelRow1 x2)) p)
          (mat (Cert.KernelIdeal.Val.bandA x17)) (mat (Cert.KernelIdeal.Val.bandB x17)) (mat (Cert.KernelIdeal.Val.bandC x17)) (vec0 x18) := funext fun q => by
    unfold dense dec1
    rw [dot_cat]
  rw [e1]
  unfold affine dot
  refine congrArg₂ (· + ·) (Finset.sum_congr rfl fun c _ => ?_) (padB3_at x22).symm
  show _ * x21 (ix2 c (0 : Fin 1)) = _ * Cert.KernelIdeal.Val.padW3 x21 (ix2 c (0 : Fin 128))
  rw [padW3_at]

end Decoder

end Cert.Bridge

end
-- ==== Proof.Final.lean ====
/-
  The two programs compute one function. The kernel's result (`KernelVal.result`) and the reference's
  (`RefRun.refResult`) of the same 23 argument arrays are equal when the features, the first layer's weights and biases,
  the normalisation's scale and shift, and the second layer's two left weight matrices have real entries: the hidden
  state, the embedding and the decoder agree stage by stage.
-/
import proofs.«106045_j46145128628314_2_alg».proof.Proof.Bridge
import proofs.«106045_j46145128628314_2_alg».proof.Proof.BridgeDecoder
import proofs.«106045_j46145128628314_2_alg».proof.Proof.RefRun

set_option maxRecDepth 100000

noncomputable section

namespace Cert.Bridge

open Idealize.ShloMosaic Cert.Sage Cert.Lib.IdealSums

theorem result_eq (x0 : (⟨Cert.KernelIdeal.S50000x64, .f32⟩ : BufTy).Contents (Elt Ideal)) (x1 : (⟨Cert.KernelIdeal.S2x800000, .i32⟩ : BufTy).Contents (Elt Ideal)) (x2 : (⟨Cert.KernelIdeal.S2x100000, .i32⟩ : BufTy).Contents (Elt Ideal)) (x3 : (⟨Cert.KernelIdeal.S64x128, .f32⟩ : BufTy).Contents (Elt Ideal)) (x4 : (⟨Cert.KernelIdeal.S128, .f32⟩ : BufTy).Contents (Elt Ideal)) (x5 : (⟨Cert.KernelIdeal.S64x128, .f32⟩ : BufTy).Contents (Elt Ideal)) (x6 : (⟨Cert.KernelIdeal.S64x128, .f32⟩ : BufTy).Contents (Elt Ideal)) (x7 : (⟨Cert.KernelIdeal.S128, .f32⟩ : BufTy).Contents (Elt Ideal)) (x8 : (⟨Cert.KernelIdeal.S64x128, .f32⟩ : BufTy).Contents (Elt Ideal)) (x9 : (⟨Cert.KernelIdeal.S128, .f32⟩ : BufTy).Contents (Elt Ideal)) (x10 : (⟨Cert.KernelIdeal.S128, .f32⟩ : BufTy).Contents (Elt Ideal)) (x11 : (⟨Cert.KernelIdeal.S128x64, .f32⟩ : BufTy).Contents (Elt Ideal)) (x12 : (⟨Cert.KernelIdeal.S64, .f32⟩ : BufTy).Contents (Elt Ideal)) (x13 : (⟨Cert.KernelIdeal.S128x64, .f32⟩ : BufTy).Contents (Elt Ideal)) (x14 : (⟨Cert.KernelIdeal.S128x64, .f32⟩ : BufTy).Contents (Elt Ideal)) (x15 : (⟨Cert.KernelIdeal.S64, .f32⟩ : BufTy).Contents (Elt Ideal)) (x16 : (⟨Cert.KernelIdeal.S128x64, .f32⟩ : BufTy).Contents (Elt Ideal)) (x17 : (⟨Cert.KernelIdeal.S192x64, .f32⟩ : BufTy).Contents (Elt Ideal)) (x18 : (⟨Cert.KernelIdeal.S64, .f32⟩ : BufTy).Contents (Elt Ideal)) (x19 : (⟨Cert.KernelIdeal.S64x32, .f32⟩ : BufTy).Contents (Elt Ideal)) (x20 : (⟨Cert.KernelIdeal.S32, .f32⟩ : BufTy).Contents (Elt Ideal)) (x21 : (⟨Cert.KernelIdeal.S32x1, .f32⟩ : BufTy).Contents (Elt Ideal)) (x22 : (⟨Cert.KernelIdeal.S1, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i)) (h10 : ∀ i, IsReal (x10 i)) (h11 : ∀ i, IsReal (x11 i)) (h14 : ∀ i, IsReal (x14 i)) :
    Cert.KernelIdeal.Val.result x0 x1 x2 x3 x4 x5 x6 x7 x8 x9 x10 x11 x12 x13 x14 x15 x16 x17 x18 x19 x20 x21 x22 = Cert.ReferenceIdeal.HandRun.refResult x0 x1 x2 x3 x4 x5 x6 x7 x8 x9 x10 x11 x12 x13 x14 x15 x16 x17 x18 x19 x20 x21 x22 := by
  unfold Cert.ReferenceIdeal.HandRun.refResult
  rw [hid_eq, emb_eq x0 x1 x3 x4 x5 x6 x7 x8 x9 x10 x11 x12 x13 x14 x15 x16 h0 h3 h4 h5 h6 h7 h8 h9 h10 h11 h14, out_eq]
  rfl

end Cert.Bridge

end
-- ==== Proof.LibFiniteInputs.lean ====
/-
  Reading a printed precondition "every entry is finite" / "every entry is ≥ 0" back on the extended reals.

  jnp.all(|x| < +inf) prints as a reduce by `and` (from the word 1) of the entrywise comparison of |x| with a
  broadcast of the word 0x7F800000 (+∞). If that reduce is 1 then every entry x i has |x i| = max (x i) (−x i) < ⊤,
  so x i is neither ⊤ nor ⊥: a real. jnp.all(x ≥ 0) prints the same way with the comparison x ≥ (the word 0); if it
  is 1 then every entry is ≥ 0. Nothing here mentions a program.
-/
import Idealize.ShloMosaic.PureOps.Ideal
import Idealize.ShloMosaic.PureOps.Ideal.Laws
import Idealize.ShloMosaic.Lib.ValueIdx
import Idealize.ShloMosaic.Lib.ReduceAll

noncomputable section

namespace Cert.Lib.FiniteInputs

open Idealize.ShloMosaic Idealize.ShloMosaic.ValueIdx

instance : Subsingleton (⟨0, ![]⟩ : Shape).Idx := ⟨fun a b => funext fun d => d.elim0⟩

/-- The single-precision word 7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison word that is 1 says the comparison holds: "less than". -/
theorem lt_of_cmp_olt (x y : EReal) (h : Ideal.cmp .olt x y = 1#1) : x < y := by
  unfold Ideal.cmp at h
  by_contra hn
  simp [hn] at h

/-- A comparison word that is 1 says the comparison holds: "at least". -/
theorem le_of_cmp_oge (x y : EReal) (h : Ideal.cmp .oge x y = 1#1) : y ≤ x := by
  unfold Ideal.cmp at h
  by_contra hn
  simp [hn] at h

variable {s u : Shape} {axes : List (Fin s.rank)}

/-- jnp.all(|x| < +inf) = true: every entry of x is a real. -/
theorem real_of_all_finite (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .olt (Host.absf (F := Ideal) (φ := .f32) x)
          (broadcastInDim s ![] hb (constant (F := Ideal) ⟨0, ![]⟩ .f32 0x7F800000#32))) init hr hu ix0 = 1#1)
    (i : s.Idx) : ∃ r : ℝ, x i = (r : EReal) := by
  have hi := Host.reduce_andi_all _ init hr hu ix0 e i
  refine real_of_abs_lt_top (x i) ?_
  have := lt_of_cmp_olt _ _ hi
  rw [← ofBits_inf_f32]
  exact this

/-- jnp.all(x ≥ 0) = true: every entry of x is at least 0. -/
theorem nonneg_of_all_ge (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .oge x (broadcastInDim s ![] hb (constant (F := Ideal) ⟨0, ![]⟩ .f32 0x00000000#32))) init hr hu ix0 = 1#1)
    (i : s.Idx) : 0 ≤ x i := by
  have hi := Host.reduce_andi_all _ init hr hu ix0 e i
  have := le_of_cmp_oge _ _ hi
  rw [← Ideal.ofBits_zero_f32]
  exact this

end Cert.Lib.FiniteInputs

end
-- ==== Proof.Inputs.lean ====
/-
  What the precondition gives. The precondition is the conjunction, over the 21 float inputs, of "every entry is smaller
  in absolute value than +∞"; here it is split, and each conjunct read as: every entry of that input is a real.
-/
import proofs.«106045_j46145128628314_2_alg».proof.Pre_finite_inputs
import proofs.«106045_j46145128628314_2_alg».proof.Proof.LibFiniteInputs
import proofs.«106045_j46145128628314_2_alg».proof.Proof.LibIdealSums
import Idealize.ShloMosaic.Lib.Affine
import Idealize.ShloMosaic.Lib.ReduceAll

set_option maxRecDepth 100000

noncomputable section

namespace Cert.Inputs

open Idealize.ShloMosaic Idealize.ShloMosaic.ValueIdx Cert.Pre_finite_inputs Cert.Pre_finite_inputs.Facts Cert.Lib.IdealSums Cert.Lib.FiniteInputs

/-- Under the precondition every entry of every float input is a real. -/
theorem reals_of_pre [Cert.Pre_finite_inputs.Facts] (a0 : FVec Ideal S50000x64 .f32) (a1 : IVec S2x800000 32) (a2 : IVec S2x100000 32) (a3 : FVec Ideal S64x128 .f32) (a4 : FVec Ideal S128 .f32) (a5 : FVec Ideal S64x128 .f32) (a6 : FVec Ideal S64x128 .f32) (a7 : FVec Ideal S128 .f32) (a8 : FVec Ideal S64x128 .f32) (a9 : FVec Ideal S128 .f32) (a10 : FVec Ideal S128 .f32) (a11 : FVec Ideal S128x64 .f32) (a12 : FVec Ideal S64 .f32) (a13 : FVec Ideal S128x64 .f32) (a14 : FVec Ideal S128x64 .f32) (a15 : FVec Ideal S64 .f32) (a16 : FVec Ideal S128x64 .f32) (a17 : FVec Ideal S192x64 .f32) (a18 : FVec Ideal S64 .f32) (a19 : FVec Ideal S64x32 .f32) (a20 : FVec Ideal S32 .f32) (a21 : FVec Ideal S32x1 .f32) (a22 : FVec Ideal S1 .f32)
    (hpre : Cert.Pre_finite_inputs.fn (F := Ideal) a0 a1 a2 a3 a4 a5 a6 a7 a8 a9 a10 a11 a12 a13 a14 a15 a16 a17 a18 a19 a20 a21 a22 = fun _ => 1#1) :
    (∀ i, IsReal (a0 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) := by
  have h := congrFun hpre ix0
  dsimp only [Cert.Pre_finite_inputs.fn, Cert.Pre_finite_inputs.fn_part6, Cert.Pre_finite_inputs.fn_part5, Cert.Pre_finite_inputs.fn_part4, Cert.Pre_finite_inputs.fn_part3, Cert.Pre_finite_inputs.fn_part2, Cert.Pre_finite_inputs.fn_part1, andi] at h
  obtain ⟨h, t22⟩ := IntOp.andi_eq_one.1 h
  obtain ⟨h, t21⟩ := IntOp.andi_eq_one.1 h
  obtain ⟨h, t20⟩ := IntOp.andi_eq_one.1 h
  obtain ⟨h, t19⟩ := IntOp.andi_eq_one.1 h
  obtain ⟨h, t18⟩ := IntOp.andi_eq_one.1 h
  obtain ⟨h, t17⟩ := IntOp.andi_eq_one.1 h
  obtain ⟨h, t16⟩ := IntOp.andi_eq_one.1 h
  obtain ⟨h, t15⟩ := IntOp.andi_eq_one.1 h
  obtain ⟨h, t14⟩ := IntOp.andi_eq_one.1 h
  obtain ⟨h, t13⟩ := IntOp.andi_eq_one.1 h
  obtain ⟨h, t12⟩ := IntOp.andi_eq_one.1 h
  obtain ⟨h, t11⟩ := IntOp.andi_eq_one.1 h
  obtain ⟨h, t10⟩ := IntOp.andi_eq_one.1 h
  obtain ⟨h, t9⟩ := IntOp.andi_eq_one.1 h
  obtain ⟨h, t8⟩ := IntOp.andi_eq_one.1 h
  obtain ⟨h, t7⟩ := IntOp.andi_eq_one.1 h
  obtain ⟨h, t6⟩ := IntOp.andi_eq_one.1 h
  obtain ⟨h, t5⟩ := IntOp.andi_eq_one.1 h
  obtain ⟨h, t4⟩ := IntOp.andi_eq_one.1 h
  obtain ⟨h, t3⟩ := IntOp.andi_eq_one.1 h
  exact ⟨real_of_all_finite a0 _ _ _ _ h, real_of_all_finite a3 _ _ _ _ t3, real_of_all_finite a4 _ _ _ _ t4, real_of_all_finite a5 _ _ _ _ t5, real_of_all_finite a6 _ _ _ _ t6, real_of_all_finite a7 _ _ _ _ t7, real_of_all_finite a8 _ _ _ _ t8, real_of_all_finite a9 _ _ _ _ t9, real_of_all_finite a10 _ _ _ _ t10, real_of_all_finite a11 _ _ _ _ t11, real_of_all_finite a12 _ _ _ _ t12, real_of_all_finite a13 _ _ _ _ t13, real_of_all_finite a14 _ _ _ _ t14, real_of_all_finite a15 _ _ _ _ t15, real_of_all_finite a16 _ _ _ _ t16, real_of_all_finite a17 _ _ _ _ t17, real_of_all_finite a18 _ _ _ _ t18, real_of_all_finite a19 _ _ _ _ t19, real_of_all_finite a20 _ _ _ _ t20, real_of_all_finite a21 _ _ _ _ t21, real_of_all_finite a22 _ _ _ _ t22⟩

end Cert.Inputs

end
-- ==== Proof.lean ====
/-
  The proof of `Cert.Claim` for a two-layer mean-aggregation graph network with a layer normalisation, an L2
  normalisation and a three-layer edge decoder, written as three kernel regions among host gathers and scatters, against
  its plain reference.

  * The kernel program's frames are the generated ones. Its run is read by hand (`KernelRun`, `KernelLaunch`): region by
    region the blocks a grid point writes are rows of one whole-array stage (`Array0`–`Array2` over the bodies' entries,
    `BodyLayer1`, `BodyLayer2`, `BodyDecoder`), and the host stretches between are read as pure functions, so that the
    result buffer ends at `KernelVal.result` of the launched arguments.
  * The reference's run is written by hand in five stretches (`RefRun`, `RefVal`, `RefKeep`): its result buffer ends at
    `refResult` of the launched arguments, which end unchanged.
  * The two are one function (`Final.result_eq`): the hidden state entry by entry (`lnRelu` of `hlin`), the embedding
    (`l2` of `zlin`) with the second layer's left weights moved inside the mean over a node's edges — linearity, used on
    reals, which the precondition provides (`Inputs`, `Reals`, `SegMean`, `CountCol`) —, and the decoder with its 192-term
    sums split in three and its padded last layer read at column 0 (`BridgeDecoder`).
  * The ideal pass rewrote nothing, so `preserves` asks nothing.
-/
import proofs.«106045_j46145128628314_2_alg».proof.Defs
import proofs.«106045_j46145128628314_2_alg».proof.Proof.Gen.Kernel
import proofs.«106045_j46145128628314_2_alg».proof.Proof.Gen.Kernel.Skeleton
import proofs.«106045_j46145128628314_2_alg».proof.Proof.Gen.Kernel.Launch
import proofs.«106045_j46145128628314_2_alg».proof.Proof.Gen.Kernel.Points
import proofs.«106045_j46145128628314_2_alg».proof.Proof.Gen.Kernel.Frame
import proofs.«106045_j46145128628314_2_alg».proof.Proof.Gen.KernelIdeal
import proofs.«106045_j46145128628314_2_alg».proof.Proof.Gen.KernelIdeal.Skeleton
import proofs.«106045_j46145128628314_2_alg».proof.Proof.Gen.KernelIdeal.Launch
import proofs.«106045_j46145128628314_2_alg».proof.Proof.Gen.KernelIdeal.Points
import proofs.«106045_j46145128628314_2_alg».proof.Proof.Gen.KernelIdeal.Frame
import proofs.«106045_j46145128628314_2_alg».proof.Proof.Gen.ReferenceIdeal
import proofs.«106045_j46145128628314_2_alg».proof.Proof.Gen.Pre_finite_inputs
import proofs.«106045_j46145128628314_2_alg».proof.Proof.KernelLaunch
import proofs.«106045_j46145128628314_2_alg».proof.Proof.RefRun
import proofs.«106045_j46145128628314_2_alg».proof.Proof.RefKeep
import proofs.«106045_j46145128628314_2_alg».proof.Proof.Final
import proofs.«106045_j46145128628314_2_alg».proof.Proof.Inputs
import Idealize.ShloMosaic.Adequacy
import Idealize.ShloMosaic.Init

set_option maxRecDepth 100000

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.HandRun.keep_arg0 _),
      (h c Cert.ReferenceIdeal.main_arg1).trans (Cert.ReferenceIdeal.HandRun.keep_arg1 _),
      (h c Cert.ReferenceIdeal.main_arg2).trans (Cert.ReferenceIdeal.HandRun.keep_arg2 _),
      (h c Cert.ReferenceIdeal.main_arg3).trans (Cert.ReferenceIdeal.HandRun.keep_arg3 _),
      (h c Cert.ReferenceIdeal.main_arg4).trans (Cert.ReferenceIdeal.HandRun.keep_arg4 _),
      (h c Cert.ReferenceIdeal.main_arg5).trans (Cert.ReferenceIdeal.HandRun.keep_arg5 _),
      (h c Cert.ReferenceIdeal.main_arg6).trans (Cert.ReferenceIdeal.HandRun.keep_arg6 _),
      (h c Cert.ReferenceIdeal.main_arg7).trans (Cert.ReferenceIdeal.HandRun.keep_arg7 _),
      (h c Cert.ReferenceIdeal.main_arg8).trans (Cert.ReferenceIdeal.HandRun.keep_arg8 _),
      (h c Cert.ReferenceIdeal.main_arg9).trans (Cert.ReferenceIdeal.HandRun.keep_arg9 _),
      (h c Cert.ReferenceIdeal.main_arg10).trans (Cert.ReferenceIdeal.HandRun.keep_arg10 _),
      (h c Cert.ReferenceIdeal.main_arg11).trans (Cert.ReferenceIdeal.HandRun.keep_arg11 _),
      (h c Cert.ReferenceIdeal.main_arg12).trans (Cert.ReferenceIdeal.HandRun.keep_arg12 _),
      (h c Cert.ReferenceIdeal.main_arg13).trans (Cert.ReferenceIdeal.HandRun.keep_arg13 _),
      (h c Cert.ReferenceIdeal.main_arg14).trans (Cert.ReferenceIdeal.HandRun.keep_arg14 _),
      (h c Cert.ReferenceIdeal.main_arg15).trans (Cert.ReferenceIdeal.HandRun.keep_arg15 _),
      (h c Cert.ReferenceIdeal.main_arg16).trans (Cert.ReferenceIdeal.HandRun.keep_arg16 _),
      (h c Cert.ReferenceIdeal.main_arg17).trans (Cert.ReferenceIdeal.HandRun.keep_arg17 _),
      (h c Cert.ReferenceIdeal.main_arg18).trans (Cert.ReferenceIdeal.HandRun.keep_arg18 _),
      (h c Cert.ReferenceIdeal.main_arg19).trans (Cert.ReferenceIdeal.HandRun.keep_arg19 _),
      (h c Cert.ReferenceIdeal.main_arg20).trans (Cert.ReferenceIdeal.HandRun.keep_arg20 _),
      (h c Cert.ReferenceIdeal.main_arg21).trans (Cert.ReferenceIdeal.HandRun.keep_arg21 _),
      (h c Cert.ReferenceIdeal.main_arg22).trans (Cert.ReferenceIdeal.HandRun.keep_arg22 _)⟩)
    (Cert.ReferenceIdeal.HandRun.run_raw (F := Ideal) m ρ)

theorem preserves : Cert.preserves_Kernel_KernelIdeal := trivial

/-- From memories agreeing on the arguments both programs end with the result `KernelVal.result` of the arguments: the
    kernel by its run, the reference by its run and the equality of the two functions on inputs with real entries. -/
theorem algebraic : Cert.algebraic_KernelIdeal_ReferenceIdeal := by
  intro m ρ m' ρ' hpre hagree
  refine ⟨fun c => Cert.KernelIdeal.Val.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    Cert.KernelIdeal.Run.run m ρ, ?_⟩
  refine (θ_run Cert.ReferenceIdeal.defs _ _).mono (fun r h c =>
    ⟨?_,
      (h c Cert.ReferenceIdeal.main_arg0).trans (Cert.ReferenceIdeal.HandRun.keep_arg0 _),
      (h c Cert.ReferenceIdeal.main_arg1).trans (Cert.ReferenceIdeal.HandRun.keep_arg1 _),
      (h c Cert.ReferenceIdeal.main_arg2).trans (Cert.ReferenceIdeal.HandRun.keep_arg2 _),
      (h c Cert.ReferenceIdeal.main_arg3).trans (Cert.ReferenceIdeal.HandRun.keep_arg3 _),
      (h c Cert.ReferenceIdeal.main_arg4).trans (Cert.ReferenceIdeal.HandRun.keep_arg4 _),
      (h c Cert.ReferenceIdeal.main_arg5).trans (Cert.ReferenceIdeal.HandRun.keep_arg5 _),
      (h c Cert.ReferenceIdeal.main_arg6).trans (Cert.ReferenceIdeal.HandRun.keep_arg6 _),
      (h c Cert.ReferenceIdeal.main_arg7).trans (Cert.ReferenceIdeal.HandRun.keep_arg7 _),
      (h c Cert.ReferenceIdeal.main_arg8).trans (Cert.ReferenceIdeal.HandRun.keep_arg8 _),
      (h c Cert.ReferenceIdeal.main_arg9).trans (Cert.ReferenceIdeal.HandRun.keep_arg9 _),
      (h c Cert.ReferenceIdeal.main_arg10).trans (Cert.ReferenceIdeal.HandRun.keep_arg10 _),
      (h c Cert.ReferenceIdeal.main_arg11).trans (Cert.ReferenceIdeal.HandRun.keep_arg11 _),
      (h c Cert.ReferenceIdeal.main_arg12).trans (Cert.ReferenceIdeal.HandRun.keep_arg12 _),
      (h c Cert.ReferenceIdeal.main_arg13).trans (Cert.ReferenceIdeal.HandRun.keep_arg13 _),
      (h c Cert.ReferenceIdeal.main_arg14).trans (Cert.ReferenceIdeal.HandRun.keep_arg14 _),
      (h c Cert.ReferenceIdeal.main_arg15).trans (Cert.ReferenceIdeal.HandRun.keep_arg15 _),
      (h c Cert.ReferenceIdeal.main_arg16).trans (Cert.ReferenceIdeal.HandRun.keep_arg16 _),
      (h c Cert.ReferenceIdeal.main_arg17).trans (Cert.ReferenceIdeal.HandRun.keep_arg17 _),
      (h c Cert.ReferenceIdeal.main_arg18).trans (Cert.ReferenceIdeal.HandRun.keep_arg18 _),
      (h c Cert.ReferenceIdeal.main_arg19).trans (Cert.ReferenceIdeal.HandRun.keep_arg19 _),
      (h c Cert.ReferenceIdeal.main_arg20).trans (Cert.ReferenceIdeal.HandRun.keep_arg20 _),
      (h c Cert.ReferenceIdeal.main_arg21).trans (Cert.ReferenceIdeal.HandRun.keep_arg21 _),
      (h c Cert.ReferenceIdeal.main_arg22).trans (Cert.ReferenceIdeal.HandRun.keep_arg22 _)⟩)
    (Cert.ReferenceIdeal.HandRun.run_raw (F := Ideal) m' ρ')
  obtain ⟨r0, r3, r4, r5, r6, r7, r8, r9, r10, r11, r12, r13, r14, r15, r16, r17, r18, r19, r20, r21, r22⟩ :=
    Cert.Inputs.reals_of_pre _ _ _ _ _ _ _ _ _ _ _ _ _ _ _ _ _ _ _ _ _ _ _ (hpre c)
  obtain ⟨e0, e1, e2, e3, e4, e5, e6, e7, e8, e9, e10, e11, e12, e13, e14, e15, e16, e17, e18, e19, e20, e21, e22⟩ := hagree c
  rw [h c Cert.ReferenceIdeal.main_v182, Cert.ReferenceIdeal.HandRun.result_eq]
  show Cert.ReferenceIdeal.HandRun.refResult (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = _
  rw [e0, e1, e2, e3, e4, e5, e6, e7, e8, e9, e10, e11, e12, e13, e14, e15, e16, e17, e18, e19, e20, e21, e22]
  exact (Cert.Bridge.result_eq _ _ _ _ _ _ _ _ _ _ _ _ _ _ _ _ _ _ _ _ _ _ _ r0 r3 r4 r5 r6 r7 r8 r9 r10 r11 r14).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
